-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S2x128 : Shape := ⟨2, ![2, 128]⟩
abbrev S_ : Shape := ⟨0, ![]⟩

class Facts : Prop where
  bcast_S_S2x128 : S_.BroadcastsInDim S2x128 (![] : Fin 0 → Fin S2x128.rank)
  reducesTo_S2x128_S_d0_1 : S2x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S2x128 .f32) : IVec S_ 1 :=
  let main_v0 : FVec F S2x128 .f32 := Host.absf main_arg1
  let main_cst : FVec F S_ .f32 := constant S_ .f32 0x7F800000#32
  let main_v1 : FVec F S2x128 .f32 := broadcastInDim S2x128 ![] bcast_S_S2x128 main_cst
  let main_v2 : IVec S2x128 1 := cmpf .olt main_v0 main_v1
  let main_c : IVec S_ 1 := constantI S_ 1 1#1
  let main_v3 : IVec S_ 1 := (fun x v => Host.reduce IntOp.andi x v reducesTo_S2x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 1#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S2x128 : Shape := ⟨2, ![2, 128]⟩
abbrev S32x4x128 : Shape := ⟨3, ![32, 4, 128]⟩
abbrev S16384x128 : Shape := ⟨2, ![16384, 128]⟩
abbrev S4x128 : Shape := ⟨2, ![4, 128]⟩
abbrev S512x128 : Shape := ⟨2, ![512, 128]⟩
abbrev S_ : Shape := ⟨0, ![]⟩
abbrev S1x128 : Shape := ⟨2, ![1, 128]⟩
abbrev S128 : Shape := ⟨1, ![128]⟩
abbrev S1x4x128 : Shape := ⟨3, ![1, 4, 128]⟩
abbrev S128x128 : Shape := ⟨2, ![128, 128]⟩
abbrev S16384x1x128 : Shape := ⟨3, ![16384, 1, 128]⟩

abbrev nBuf : Table → Nat
  | .hbm => 5
  | .shared => 1
  | .local .scVector .vmem => 2
  | _ => 0

abbrev bufTy : (tb : Table) → Fin (nBuf tb) → BufTy
  | .hbm, ⟨0, _⟩ => ⟨S16384, .i32⟩
  | .hbm, ⟨1, _⟩ => ⟨S2x128, .f32⟩
  | .hbm, ⟨2, _⟩ => ⟨S32x4x128, .i32⟩
  | .hbm, ⟨3, _⟩ => ⟨S16384x128, .f32⟩
  | .hbm, ⟨4, _⟩ => ⟨S16384x1x128, .f32⟩
  | .shared, ⟨0, _⟩ => ⟨S2x128, .f32⟩
  | .local .scVector .vmem, ⟨0, _⟩ => ⟨S4x128, .i32⟩
  | .local .scVector .vmem, ⟨1, _⟩ => ⟨S512x128, .f32⟩
  | _, _ => ⟨S16384, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 5 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch1 : Ref sig .scVector := ⟨.shared, 0, rfl⟩
abbrev cc0_scratch0 : Ref sig .scVector := ⟨.vmem, 0, rfl⟩
abbrev cc0_scratch2 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2 : BitVec 32 := 0#32
  let c0_i32_3 : BitVec 32 := 0#32
  ![v1.toNat, 0, 0]
def k0_off2 (i : grid0.Coords) (c0_i32_106 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v122 : BitVec 32 := Scalar.addi v2 c0_i32_106
  let c0_i32_109 : BitVec 32 := 0#32
  ![v122.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384_S32x4x128 : S16384.ShapeCasts S32x4x128
  inb_S4x128_S1x128_0_0 : ∀ a, (![0, 0] : Fin 2 → Nat) a + S1x128.size a ≤ S4x128.size a
  squeezes_S1x128_S128 : S1x128.Squeezes S128
  squeezes_S1x4x128_S4x128 : S1x4x128.Squeezes S4x128
  inb_S4x128_S1x128_1_0 : ∀ a, (![1, 0] : Fin 2 → Nat) a + S1x128.size a ≤ S4x128.size a
  inb_S4x128_S1x128_2_0 : ∀ a, (![2, 0] : Fin 2 → Nat) a + S1x128.size a ≤ S4x128.size a
  inb_S4x128_S1x128_3_0 : ∀ a, (![3, 0] : Fin 2 → Nat) a + S1x128.size a ≤ S4x128.size a
  inb_S512x128_S128x128_0_0 : ∀ a, (![0, 0] : Fin 2 → Nat) a + S128x128.size a ≤ S512x128.size a
  inb_S2x128_S2x128_0_0 : ∀ a, (![0, 0] : Fin 2 → Nat) a + S2x128.size a ≤ S2x128.size a
  gathers_S2x128_S128x128 : S2x128.Gathers 0 S128x128
  inb_S512x128_S128x128_128_0 : ∀ a, (![128, 0] : Fin 2 → Nat) a + S128x128.size a ≤ S512x128.size a
  inb_S512x128_S128x128_256_0 : ∀ a, (![256, 0] : Fin 2 → Nat) a + S128x128.size a ≤ S512x128.size a
  inb_S512x128_S128x128_384_0 : ∀ a, (![384, 0] : Fin 2 → Nat) a + S128x128.size a ≤ S512x128.size a
  bcast_S16384x128_S16384x1x128_0_2 : S16384x128.BroadcastsInDim S16384x1x128 (![0, 2] : Fin 2 → Fin S16384x1x128.rank)
  hcc0_scratch3 : 0 + S_.numel ≤ 13
  hcc0_scratch4 : 1 + S_.numel ≤ 13
  hcc0_scratch5 : 2 + S_.numel ≤ 13
  hcc0_scratch6 : 3 + S_.numel ≤ 13
  hcc0_scratch7 : 4 + S_.numel ≤ 13
  hcc0_scratch8 : 5 + S_.numel ≤ 13
  hcc0_scratch9 : 6 + S_.numel ≤ 13
  hcc0_scratch10 : 7 + S_.numel ≤ 13
  hcc0_scratch11 : 8 + S_.numel ≤ 13
  hcc0_scratch12 : 9 + S_.numel ≤ 13
  hcc0_scratch13 : 10 + S_.numel ≤ 13
  hcc0_scratch14 : 11 + S_.numel ≤ 13
  hcc0_scoped0 : 12 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x4x128.size a ≤ S32x4x128.size a
  k0_off2_inb : ∀ i : grid0.Coords, ∀ (r : Fin 4), ∀ a, (k0_off2 i (BitVec.ofNat 32 (128 * r.val))) a + S128x128.size a ≤ S16384x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8
abbrev cc0_scratch9 : DmaSems sig S_ := SemArray.consecutive 6 S_ hcc0_scratch9
abbrev cc0_scratch10 : DmaSems sig S_ := SemArray.consecutive 7 S_ hcc0_scratch10
abbrev cc0_scratch11 : DmaSems sig S_ := SemArray.consecutive 8 S_ hcc0_scratch11
abbrev cc0_scratch12 : DmaSems sig S_ := SemArray.consecutive 9 S_ hcc0_scratch12
abbrev cc0_scratch13 : DmaSems sig S_ := SemArray.consecutive 10 S_ hcc0_scratch13
abbrev cc0_scratch14 : DmaSems sig S_ := SemArray.consecutive 11 S_ hcc0_scratch14
abbrev cc0_scoped0 : DmaSems sig S_ := SemArray.consecutive 12 S_ hcc0_scoped0

class Facts : Prop extends Facts₀ where

variable [Facts]
-- ==== ReferenceIdeal.lean ====
abbrev S16384 : Shape := ⟨1, ![16384]⟩
abbrev S2x128 : Shape := ⟨2, ![2, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16384x1x128 : Shape := ⟨3, ![16384, 1, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384, .i32⟩
  | .hbm, ⟨1, _⟩ => ⟨S2x128, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | .hbm, ⟨25, _⟩ => ⟨S16384x1x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  bcast_S16384x128_S16384x1x128_0_2 : S16384x128.BroadcastsInDim S16384x1x128 (![0, 2] : Fin 2 → Fin S16384x1x128.rank)
  gather_S2x128_S16384x1_S16384x128_1_0_n_n_0_1_1128_wf : GatherDims.WF S2x128 S16384x1 S16384x128 [1] [0] [] [0] [] 1 ![1, 128]

variable [Facts₀]

def gather_S2x128_S16384x1_S16384x128_1_0_n_n_0_1_1128 : GatherDims S2x128 S16384x1 S16384x128 where
  offsetDims := [1]
  collapsedSliceDims := [0]
  operandBatchingDims := []
  startIndicesBatchingDims := []
  startIndexMap := [0]
  indexVectorDim := 1
  sliceSizes := ![1, 128]
  wf := gather_S2x128_S16384x1_S16384x128_1_0_n_n_0_1_1128_wf

class Facts : Prop extends Facts₀ where

variable [Facts]
-- ==== Proof.Spec.lean ====
/-
  The function both programs compute: an embedding lookup. Entry (b, 0, h) of the result is entry (row, h) of the
  two-row table, where the row is the one the b-th label names. Labels are 32-bit words; the word 1 names row 1 and
  every other word is read as row 0 (under the precondition a label is 0 or 1, so nothing else occurs).
-/
import Idealize.ShloMosaic.PureOps.Ideal
import Idealize.ShloMosaic.Lib.ValueIdx

noncomputable section

namespace Cert.Spec

open Idealize.ShloMosaic Idealize.ShloMosaic.ValueIdx

/-- The table row a label word selects: row 1 for the word 1, row 0 otherwise. -/
def rowOf (w : BitVec 32) : Fin 2 := if w = 1#32 then 1 else 0

theorem rowOf_zero : rowOf 0#32 = 0 := by decide
theorem rowOf_one : rowOf 1#32 = 1 := by decide

/-- The lookup as one function of the two argument arrays: result (b, 0, h) = table (rowOf (labels b), h). -/
def emb {F : FTy → Type} (labels : IVec ⟨1, ![16384]⟩ 32) (table : FVec F ⟨2, ![2, 128]⟩ .f32) :
    FVec F ⟨3, ![16384, 1, 128]⟩ .f32 :=
  fun i => table (ix2 (rowOf (labels (ix1 (i 0)))) (i 2))

theorem emb_apply {F : FTy → Type} (labels : IVec ⟨1, ![16384]⟩ 32) (table : FVec F ⟨2, ![2, 128]⟩ .f32)
    (b : Fin 16384) (z : Fin 1) (h : Fin 128) :
    emb labels table (ix3 b z h) = table (ix2 (rowOf (labels (ix1 b))) h) := rfl

end Cert.Spec

end
-- ==== Proof.PreFacts.lean ====
/-
  What the precondition says of the labels. The predicate is a conjunction of two "all" reductions: every table entry is
  finite, and every label word, read as a signed integer, lies between 0 and 1. Only the second half is decoded here:
  a 32-bit word whose signed reading is at least 0 and at most 1 is the word 0 or the word 1.
-/
import proofs.«202797_g70420283785446_cont_9to1_m_562_18_alg».proof.Pre_input_domain
import Idealize.ShloMosaic.Lib.ValueIdx
import Idealize.ShloMosaic.Lib.ReduceAll

namespace Cert.PreFacts

open Idealize.ShloMosaic Idealize.ShloMosaic.ValueIdx

/-- A 32-bit word between 0 and 1 in the signed order is 0 or 1. -/
theorem word_01 (x : BitVec 32) (h0 : (0#32 : BitVec 32).toInt ≤ x.toInt) (h1 : x.toInt ≤ (1#32 : BitVec 32).toInt) :
    x = 0#32 ∨ x = 1#32 := by
  have e0 : (0#32 : BitVec 32).toInt = 0 := by decide
  have e1 : (1#32 : BitVec 32).toInt = 1 := by decide
  rw [e0] at h0
  rw [e1] at h1
  have hx : x.toInt = 0 ∨ x.toInt = 1 := by omega
  rcases hx with hx | hx
  · exact Or.inl (BitVec.eq_of_toInt_eq (by rw [hx, e0]))
  · exact Or.inr (BitVec.eq_of_toInt_eq (by rw [hx, e1]))

/-- Under the precondition every label is the word 0 or the word 1. -/
theorem labels_01 {F : FTy → Type} [FloatOps F] [Cert.Pre_input_domain.Facts]
    (labels : IVec ⟨1, ![16384]⟩ 32) (table : FVec F ⟨2, ![2, 128]⟩ .f32)
    (h : Cert.Pre_input_domain.fn (F := F) labels table = fun _ => 1#1) :
    ∀ b : Fin 16384, labels (Idealize.ShloMosaic.ValueIdx.ix1 b) = 0#32 ∨ labels (Idealize.ShloMosaic.ValueIdx.ix1 b) = 1#32 := by
  intro b
  haveI : Subsingleton Cert.Pre_input_domain.S_.Idx := ⟨fun a b => funext fun d => d.elim0⟩
  have h0 := congrFun h ix0
  dsimp only [Cert.Pre_input_domain.fn] at h0
  -- the conjunction's second half: the "all" over the labels
  have hall := (IntOp.andi_eq_one.1 h0).2
  -- every element of the reduced array is 1
  have hb := Host.reduce_andi_all _ _ _ _ _ hall (ix1 b)
  -- the element is the conjunction of the two comparisons at b
  obtain ⟨hge, hle⟩ := IntOp.andi_eq_one.1 hb
  exact word_01 _ (IntOp.cmpi_sge.1 hge) (IntOp.cmpi_sle.1 hle)

end Cert.PreFacts
-- ==== Proof.RefRunOps.lean ====
/-
  The reference as a straight line. Its entry point calls the table lookup, which calls the three-way choice; with both
  calls unfolded the program is twenty-four host operations, each writing one buffer of its own. Run in order from the
  launch contents they leave in the result buffer one pure term of the two arguments, `out labels table`: the labels
  wrapped (a negative label has the row count 2 added), a mask saying the wrapped label lies in [0, 1], the table rows
  gathered at the wrapped labels, the mask choosing between the gathered row and a not-a-number filler, and a unit axis
  inserted in the middle of the result.
-/
import proofs.«202797_g70420283785446_cont_9to1_m_562_18_alg».proof.Defs
import proofs.«202797_g70420283785446_cont_9to1_m_562_18_alg».proof.Proof.Gen.ReferenceIdeal
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The entry point's operations in order, the two calls unfolded: the lookup's twenty-two, the choice's one in seventh
    place (into the lookup's own record of buffers), and the final insertion of the unit axis. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 2#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 1#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S2x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    unary main_v0 main_v1 (broadcastInDim S16384x1x128 ![0, 2] bcast_S16384x128_S16384x1x128_0_2 : (⟨S16384x128, .f32⟩ : BufTy).Contents (Elt F) → (⟨S16384x1x128, .f32⟩ : BufTy).Contents (Elt F)) ]

set_option maxRecDepth 1024 in
/-- The entry point is that straight line: the two functions' definitions unfolded at their calls, both sides are one
    chain of steps once the sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..⟩

/-- The wrapped labels: a negative label has the row count 2 added, any other is kept. -/
def wrapped (labels : IVec S16384 32) : IVec S16384 32 :=
  select (cmpi .slt labels (broadcastInDim S16384 ![] bcast_S_S16384 (constantI S_ 32 0#32)))
    (addi labels (broadcastInDim S16384 ![] bcast_S_S16384 (constantI S_ 32 2#32))) labels

/-- The wrapped labels as a column: the array of start indices the gather reads. -/
def column (labels : IVec S16384 32) : IVec S16384x1 32 :=
  broadcastInDim S16384x1 ![0] bcast_S16384_S16384x1_0 (wrapped labels)

/-- Per label, whether the wrapped label lies in [0, 1]: the two signed comparisons joined, then reduced by "and" over
    the column's unit axis. -/
def inRange (labels : IVec S16384 32) : IVec S16384 1 :=
  Host.reduce IntOp.andi
    (andi (cmpi .sge (column labels) (broadcastInDim S16384x1 ![] bcast_S_S16384x1 (constantI S_ 32 0#32)))
      (cmpi .sle (column labels)
        (broadcastInDim S16384x1 ![0, 1] bcast_S1x1_S16384x1_0_1 (broadcastInDim S1x1 ![1] bcast_S1_S1x1_1 (constantI S1 32 1#32)))))
    (constantI S_ 1 1#1) reducesTo_S16384x1_S16384_d1 h_S_

/-- The lookup's result: the gathered rows where the mask holds, the filler elsewhere. -/
def looked (labels : IVec S16384 32) (table : FVec F S2x128 .f32) : FVec F S16384x128 .f32 :=
  select (broadcastInDim S16384x128 ![0] bcast_S16384_S16384x128_0 (inRange labels))
    (Host.gather gather_S2x128_S16384x1_S16384x128_1_0_n_n_0_1_1128 table (column labels))
    (broadcastInDim S16384x128 ![] bcast_S_S16384x128 (constant S_ .f32 0x7FC00000#32))

/-- What the operations leave in the result buffer, as a term of the two arguments. -/
def out (labels : IVec S16384 32) (table : FVec F S2x128 .f32) : FVec F S16384x1x128 .f32 :=
  broadcastInDim S16384x1x128 ![0, 2] bcast_S16384x128_S16384x1x128_0_2 (looked labels table)

attribute [local irreducible] Host.reduce Host.gather in
set_option maxRecDepth 8192 in
set_option maxHeartbeats 400000 in
/-- The fold of the operations at the result buffer is `out`: each operation's result is rewritten at its own buffer to its
    function's value and at every other buffer to what was there; what is left differs from `out` only by the typed
    references' transports, the identity at literal references. The reduce and the gather are kept folded meanwhile: the
    equation never looks inside them. -/
theorem out_eq (V : Valuation τ sig (Elt F)) :
    after ops V (main_v1 : DevRef τ sig) = out (V (main_arg0 : DevRef τ sig)) (V (main_arg1 : DevRef τ sig)) := by
  after_results
  unfold out looked inRange column wrapped
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- On every device, for any float values, from any memory with zero counters: every weakly fair execution of the entry
    point terminates with the result buffer at `out` of the arguments' launch contents, the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v1).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.RefValue

end
-- ==== Proof.RefRun.lean ====
/-
  The reference computes the lookup. The run of its straight line leaves in the result buffer the term `out labels table`;
  here that term is read index by index. At (b, 0, h): the inserted unit axis is dropped, the mask at b is 1 because the
  wrapped label lies in [0, 1], the gathered entry is the table at the row the wrapped label names (clamped into the two
  rows) and column h, and for a label that is the word 0 or the word 1 the wrap and the clamp change nothing — so the entry
  is table (row of label b, h), the lookup. The precondition gives "0 or 1" for every label.
-/
import proofs.«202797_g70420283785446_cont_9to1_m_562_18_alg».proof.Proof.RefRunOps
import proofs.«202797_g70420283785446_cont_9to1_m_562_18_alg».proof.Proof.Spec
import proofs.«202797_g70420283785446_cont_9to1_m_562_18_alg».proof.Proof.PreFacts
import Idealize.ShloMosaic.Lib.ValueIdx
import Idealize.ShloMosaic.Lib.Pipeline.Value
import Idealize.ShloMosaic.Lib.ReduceAll

noncomputable section

namespace Cert.ReferenceIdeal.RefValue

open Cert.ReferenceIdeal Cert.ReferenceIdeal.Facts₀ Idealize.ShloMosaic Idealize.ShloMosaic.ValueIdx Idealize.SL.Sem

section Value

variable {F : FTy → Type} [FloatOps F] [Cert.ReferenceIdeal.Facts]

/-- The wrap at one label: the label plus 2 when it reads negative, the label otherwise. -/
theorem wrapped_apply (labels : IVec S16384 32) (i : S16384.Idx) :
    wrapped labels i = Scalar.select (IntOp.cmpi .slt (labels i) 0#32) (IntOp.addi (labels i) 2#32) (labels i) := rfl

/-- The words 0 and 1 do not read negative: the wrap keeps them. -/
theorem wrapped_of_01 (labels : IVec S16384 32) (i : S16384.Idx) (h : labels i = 0#32 ∨ labels i = 1#32) :
    wrapped labels i = labels i := by
  rw [wrapped_apply]
  rcases h with h | h <;> rw [h] <;> decide

/-- Row b of the index column is the wrapped label b. -/
theorem column_apply (labels : IVec S16384 32) (i : S16384x1.Idx) : column labels i = wrapped labels (ix1 (i 0)) := by
  unfold column
  exact broadcastInDim_apply _ _ _ i (ix1 (i 0)) (fun a => match a with | ⟨0, _⟩ => rfl)

/-- A left fold by "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduce by "and" from an all-ones initial value over an all-ones operand is 1 at every result index. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl, hi]
  exact foldl_andi_ones x hx _

/-- When every label is 0 or 1 the range mask is 1 everywhere: both comparisons hold of such a word. -/
theorem inRange_of_01 (labels : IVec S16384 32)
    (hl : ∀ b : Fin 16384, labels (ix1 b) = 0#32 ∨ labels (ix1 b) = 1#32) (j : S16384.Idx) :
    inRange labels j = 1#1 := by
  unfold inRange
  refine reduce_andi_ones _ _ _ _ _ (fun i => ?_) (fun _ => rfl)
  show IntOp.andi (IntOp.cmpi .sge (column labels i) 0#32) (IntOp.cmpi .sle (column labels i) 1#32) = 1#1
  rw [column_apply, wrapped_of_01 _ _ (hl (i 0))]
  rcases hl (i 0) with h | h <;> rw [h] <;> decide

/-- The gather read at (b, h): the table at row r and column h, where r is the start index of row b of the index
    column read as a signed integer and clamped into [0, 1] (the table has two rows and a slice is one row). On the
    row axis the operand index is the clamped start (that axis is collapsed: no offset, no batching); on the column
    axis no start index applies and the offset is the result's own column. -/
theorem gather_apply (table : FVec F S2x128 .f32) (idx : IVec S16384x1 32) (b : Fin 16384) (h : Fin 128) (r : Fin 2)
    (hr : r.val = min (idx (ix2 b 0)).toInt.toNat 1) :
    Host.gather gather_S2x128_S16384x1_S16384x128_1_0_n_n_0_1_1128 table idx (ix2 b h) = table (ix2 r h) := by
  unfold Host.gather
  congr 1
  funext a
  refine Fin.ext ?_
  match a with
  | ⟨0, _⟩ =>
    show gather_S2x128_S16384x1_S16384x128_1_0_n_n_0_1_1128.start (ix2 b h) idx 0 + gather_S2x128_S16384x1_S16384x128_1_0_n_n_0_1_1128.batchCoord (ix2 b h) 0 + gather_S2x128_S16384x1_S16384x128_1_0_n_n_0_1_1128.offCoord (ix2 b h) 0 = r.val
    rw [hr, GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin S2x128.rank) ∈ gather_S2x128_S16384x1_S16384x128_1_0_n_n_0_1_1128.startIndexMap from List.mem_singleton.mpr rfl)]
    have hsi : gather_S2x128_S16384x1_S16384x128_1_0_n_n_0_1_1128.siIdx (ix2 b h) ⟨List.idxOf (0 : Fin S2x128.rank) gather_S2x128_S16384x1_S16384x128_1_0_n_n_0_1_1128.startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    show gather_S2x128_S16384x1_S16384x128_1_0_n_n_0_1_1128.start (ix2 b h) idx 1 + gather_S2x128_S16384x1_S16384x128_1_0_n_n_0_1_1128.batchCoord (ix2 b h) 1 + gather_S2x128_S16384x1_S16384x128_1_0_n_n_0_1_1128.offCoord (ix2 b h) 1 = h.val
    rw [GatherDims.batchCoord_eq_zero _ _ _ List.not_mem_nil]
    unfold GatherDims.start
    rw [dif_neg (show (1 : Fin S2x128.rank) ∉ gather_S2x128_S16384x1_S16384x128_1_0_n_n_0_1_1128.startIndexMap from by
      show (1 : Fin 2) ∉ [(0 : Fin 2)]; decide)]
    unfold GatherDims.offCoord
    rw [dif_pos ((GatherDims.mem_sKept _ _).2 ⟨by show (1 : Fin 2) ∉ [(0 : Fin 2)]; decide, List.not_mem_nil⟩)]
    -- the result has one offset axis, its axis 1: whatever position is asked of that one-entry list, the entry is 1
    have hod : ∀ (k : Nat) (hk : k < gather_S2x128_S16384x1_S16384x128_1_0_n_n_0_1_1128.offsetDims.length),
        gather_S2x128_S16384x1_S16384x128_1_0_n_n_0_1_1128.offsetDims[k]'hk = (1 : Fin S16384x128.rank) := by
      intro k hk
      have hlen : gather_S2x128_S16384x1_S16384x128_1_0_n_n_0_1_1128.offsetDims.length = 1 := rfl
      obtain rfl : k = 0 := by omega
      rfl
    rw [hod]
    simp only [Nat.zero_add]

/-- Under "every label is the word 0 or the word 1" the reference's term is the lookup: the wrap leaves such a label
    alone, the range mask is all ones, the clamp leaves the label alone, and the mask picks the gathered row. -/
theorem out_eq_emb (labels : IVec S16384 32) (table : FVec F S2x128 .f32)
    (hl : ∀ b : Fin 16384, labels (ix1 b) = 0#32 ∨ labels (ix1 b) = 1#32) :
    out labels table = Cert.Spec.emb labels table := by
  funext i
  obtain ⟨b, z, h, rfl⟩ : ∃ b z h, i = ix3 b z h := ⟨i 0, i 1, i 2, eq_ix3 i⟩
  rw [Cert.Spec.emb_apply]
  unfold out
  rw [broadcastInDim_apply _ _ _ (ix3 b z h) (ix2 b h) (fun a => match a with | ⟨0, _⟩ => rfl | ⟨1, _⟩ => rfl)]
  unfold looked
  rw [select_apply, broadcastInDim_apply _ _ _ (ix2 b h) (ix1 b) (fun a => match a with | ⟨0, _⟩ => rfl),
    inRange_of_01 labels hl, select_one]
  have hc : column labels (ix2 b 0) = labels (ix1 b) := by rw [column_apply, wrapped_of_01 _ _ (hl b)]
  rcases hl b with h0 | h1
  · rw [h0, Cert.Spec.rowOf_zero]
    exact gather_apply table (column labels) b h 0 (by rw [hc, h0]; decide)
  · rw [h1, Cert.Spec.rowOf_one]
    exact gather_apply table (column labels) b h 1 (by rw [hc, h1]; decide)

end Value

/-- The reference's run, stated over the lookup: under the precondition every weakly fair execution terminates with the
    result buffer at the lookup of the two arguments' launch contents, the arguments unchanged. -/
theorem run [Cert.ReferenceIdeal.Facts] [Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v1)
            = Cert.Spec.emb (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun _ h c => ⟨(h c).1.trans (out_eq_emb _ _ (Cert.PreFacts.labels_01 _ _ (hpre c))), (h c).2⟩)
    (run_out m g)

end Cert.ReferenceIdeal.RefValue
end
-- ==== Proof.KI.Common.lean ====
/-
  The embedding-lookup kernel as the launch theorem sees it, and what its threads hand one another.

  Thirty-two vector subcores (2 SparseCores × 16) each own 512 consecutive rows of the result. A subcore fetches its
  four chunks of 128 labels; subcore 0 of each SparseCore copies the two-row table into that SparseCore's shared
  memory; all sixteen meet at the subcore barrier; then each gathers, chunk by chunk, the table rows its labels name
  out of the shared copy and writes them to its rows of the result.

  Who holds what: the reshaped labels and the table are read-only and go out as read shares (one token per
  SparseCore, split again into one token per subcore); the result is dealt by its 128 disjoint chunks of 128 rows;
  the shared copy of the table is handed whole to subcore 0, which fills it and, arriving at the barrier, hands
  subcore j the j-th read token of it (the barrier's payload) and keeps the remainder; every subcore gives its token
  back when its task ends, so the SparseCore's sequencer gets its buffer back whole.
-/
import proofs.«202797_g70420283785446_cont_9to1_m_562_18_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Value
import Idealize.ShloMosaic.Lib.ValueIdx
import Idealize.ShloMosaic.Lib.Tactic
import proofs.«202797_g70420283785446_cont_9to1_m_562_18_alg».proof.Proof.Gen.KernelIdeal
import proofs.«202797_g70420283785446_cont_9to1_m_562_18_alg».proof.Proof.Gen.KernelIdeal.Skeleton
import proofs.«202797_g70420283785446_cont_9to1_m_562_18_alg».proof.Proof.Spec

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and their contents -/

variable (m : (ℓ : Loc nD τ sig) → Buf (Elt F) ℓ) (ρ : Dev nD → PrngReg)

/-- The labels, the table, the reshaped labels, the kernel's result and @main's result, on device `d`. -/
abbrev a0Loc (d : Dev nD) : Loc nD τ sig := (SparseCore.T d).loc main_arg0
abbrev tbLoc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2

local notation "v0V" => (Memref.whole Cert.KernelIdeal.main_v0_scv : Memref Cert.KernelIdeal.sig Kind.scVector Space.hbm Cert.KernelIdeal.S32x4x128 EltTy.i32)
local notation "tbV" => (Memref.whole Cert.KernelIdeal.main_arg1_scv : Memref Cert.KernelIdeal.sig Kind.scVector Space.hbm Cert.KernelIdeal.S2x128 EltTy.f32)
local notation "v1V" => (Memref.whole Cert.KernelIdeal.main_v1_scv : Memref Cert.KernelIdeal.sig Kind.scVector Space.hbm Cert.KernelIdeal.S16384x128 EltTy.f32)
local notation "ixV" => (Memref.whole Cert.KernelIdeal.cc0_scratch0 : Memref Cert.KernelIdeal.sig Kind.scVector Space.vmem Cert.KernelIdeal.S4x128 EltTy.i32)
local notation "shV" => (Memref.whole Cert.KernelIdeal.cc0_scratch1 : Memref Cert.KernelIdeal.sig Kind.scVector Space.shared Cert.KernelIdeal.S2x128 EltTy.f32)
local notation "rwV" => (Memref.whole Cert.KernelIdeal.cc0_scratch2 : Memref Cert.KernelIdeal.sig Kind.scVector Space.vmem Cert.KernelIdeal.S512x128 EltTy.f32)

theorem nSub_eq : τ.nSub = 16 := rfl
theorem nSC_eq : τ.nSC = 2 := rfl
theorem bound_zero : grid0.bound 0 = 2 := rfl
theorem bound_one : grid0.bound 1 = 16 := rfl

/-- SparseCore `c`'s shared copy of the table, as every subcore of it addresses it. -/
abbrev shRef (c : Fin τ.nSC) : DevRef τ sig := ⟨.shared, ⟨0, by decide⟩, c⟩
abbrev shLoc (d : Dev nD) (c : Fin τ.nSC) : Loc nD τ sig := (d, shRef c)

/-- The labels as @main's reshape leaves them: label (w, j, k) is label 512 w + 128 j + k (row-major). -/
def lab3 (d : Dev nD) : Buf (Elt F) (v0Loc d) :=
  fun i => shapeCast S32x4x128 (m (a0Loc d) : S16384.Idx → Elt F .i32) shapeCasts_S16384_S32x4x128 i

/-- The kernel's result as one function of the argument arrays: row b is the table row label b names. -/
def outG (d : Dev nD) : Buf (Elt F) (v1Loc d) :=
  fun i => (m (tbLoc d) : S2x128.Idx → Elt F .f32)
    (ix2 (Cert.Spec.rowOf ((m (a0Loc d) : S16384.Idx → BitVec 32) (ix1 (i 0)))) (i 1))

/-- The shared copy holds the table. -/
def tabS (d : Dev nD) (c : Fin τ.nSC) : Buf (Elt F) (shLoc d c) := fun i => (m (tbLoc d) : S2x128.Idx → Elt F .f32) i

/-- The precondition as the kernel uses it: every label is the word 0 or the word 1. -/
def PreOK : Prop := ∀ (d : Dev nD) (b : Fin 16384), (m (a0Loc d) : S16384.Idx → BitVec 32) (ix1 b) = 0#32 ∨ (m (a0Loc d) : S16384.Idx → BitVec 32) (ix1 b) = 1#32

/-! ## Read shares -/

/-- SparseCore `c`'s read token of an array every subcore reads, -/
abbrev qC (c : Fin 2) : PosShare TreeShare := Transfers.shareTok fullShare 2 c
/-- and subcore `i`'s token of that. -/
abbrev qT (c : Fin 2) (i : Fin 16) : PosShare TreeShare := Transfers.shareTok (qC c) 16 i
/-- Subcore `i`'s read token of its SparseCore's shared copy of the table, and what is left beside the sixteen. -/
abbrev qS (i : Fin 16) : PosShare TreeShare := Transfers.shareTok fullShare 16 i
abbrev qS0 : PosShare TreeShare := Transfers.shareDrop fullShare 16

/-! ## Grid coordinates -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
abbrev cI (L : grid0.Coords) : Fin 2 := Fin.cast bound_zero (L 0)
abbrev jI (L : grid0.Coords) : Fin 16 := Fin.cast bound_one (L 1)

/-- Chunk `j` of the rows of the result the subcore at `L` writes: rows 1024 (L 1) + 512 (L 0) + 128 j onwards, 128 of them, as the kernel slices them. -/
abbrev outRect (L : grid0.Coords) (j : Fin 4) : Rect S16384x128 :=
  Rect.unit (s := S16384x128) (k0_off2 L (BitVec.ofNat 32 (128 * j.val))) S128x128.size (k0_off2_inb L j)
abbrev outSet (L : grid0.Coords) (j : Fin 4) : Finset S16384x128.Idx := ((v1V).slice (outRect L j) (fun _ => rfl)).view.set

variable [FloatOps F]

/-! ## The barrier cells -/

/-- Subcore `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What a duty in subcore `j`'s round hands over: subcore 0's, the `j`-th read token of the shared copy, filled with the table; the others', nothing. -/
def bPay (g : GSem nD τ sig) (n : ℕ) : sProp 𝕄 :=
  match g with
  | ((d, .scVector c j), _) => if n = 0 then iprop(shLoc d c ↦{qS (Fin.cast nSub_eq j)} tabS m d c) else iprop(emp)
  | _ => iprop(emp)

/-- The barrier cells' schedule: one round on each, of one unit duty per subcore of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a subcore owe for the barrier: a unit on every subcore's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Subcore `(c, i)`'s barrier kit: every subcore's cell invariant of its SparseCore and that each has reached round 0,
    its own position at the origin of round 0, its duty token in every subcore's round 0, and the credit for the
    sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- What the TensorCore hands SparseCore `c` at the call: its read tokens of the reshaped labels and of the table, and the
    64 chunks of the result its sixteen subcores write, at the launch contents; -/
def stRes (d : Dev nD) (c : Fin (grid0.bound 0)) : sProp 𝕄 :=
  iprop((v0Loc d ↦{qC (Fin.cast bound_zero c)} lab3 m d) ∗ (tbLoc d ↦{qC (Fin.cast bound_zero c)} m (tbLoc d))
    ∗ bigSep Finset.univ fun s : Fin (grid0.bound 1) => bigSep Finset.univ fun j : Fin 4 => v1Loc d ↦[outSet (coordsV c s) j]{fullShare} m (v1Loc d))
/-- and what comes back: the same, the chunks holding the lookup's rows. -/
def dnRes (d : Dev nD) (c : Fin (grid0.bound 0)) : sProp 𝕄 :=
  iprop((v0Loc d ↦{qC (Fin.cast bound_zero c)} lab3 m d) ∗ (tbLoc d ↦{qC (Fin.cast bound_zero c)} m (tbLoc d))
    ∗ bigSep Finset.univ fun s : Fin (grid0.bound 1) => bigSep Finset.univ fun j : Fin 4 => v1Loc d ↦[outSet (coordsV c s) j]{fullShare} outG m d)

/-- What the subcore at `L` is handed with its task: its read tokens, its four chunks of the result, and — subcore 0 —
    the SparseCore's shared buffer whole, at whatever it holds; -/
def goRes (d : Dev nD) (L : grid0.Coords) : sProp 𝕄 :=
  iprop((v0Loc d ↦{qT (cI L) (jI L)} lab3 m d) ∗ (tbLoc d ↦{qT (cI L) (jI L)} m (tbLoc d))
    ∗ (bigSep Finset.univ fun j : Fin 4 => v1Loc d ↦[outSet L j]{fullShare} m (v1Loc d))
    ∗ (if (L 1).val = 0 then iprop(∃ f, shLoc d (cV L) ↦{fullShare} f) else iprop(emp)))
/-- and what it hands back: the tokens, its chunks holding the lookup's rows, its read token of the shared copy (now the
    table) and — subcore 0 — what is left of that buffer beside the sixteen tokens. -/
def tdRes (d : Dev nD) (L : grid0.Coords) : sProp 𝕄 :=
  iprop((v0Loc d ↦{qT (cI L) (jI L)} lab3 m d) ∗ (tbLoc d ↦{qT (cI L) (jI L)} m (tbLoc d))
    ∗ (bigSep Finset.univ fun j : Fin 4 => v1Loc d ↦[outSet L j]{fullShare} outG m d)
    ∗ (shLoc d (cV L) ↦{qS (jI L)} tabS m d (cV L))
    ∗ (if (L 1).val = 0 then iprop(shLoc d (cV L) ↦{qS0} tabS m d (cV L)) else iprop(emp)))

/-- The grid point of SparseCore `c`'s subcore `i` of the call. -/
abbrev LL (c : Fin ((K (F := F)).nCore 0)) (i : Fin ((K (F := F)).nSub 0)) : grid0.Coords := coordsV ⟨c.val, c.isLt⟩ ⟨i.val, i.isLt⟩

def P : (K (F := F)).Pay (nD := nD) (Val := Elt F) (Name := ℕ) (U := UU) where
  st := fun q d c => match q with | 0 => stRes m d ⟨c.val, c.isLt⟩
  dn := fun q d c => match q with | 0 => dnRes m d ⟨c.val, c.isLt⟩
  go := fun q d c i => match q with | 0 => goRes m d (LL c i)
  td := fun q d c i => match q with | 0 => tdRes m d (LL c i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance goRes_storable (d : Dev nD) (L : grid0.Coords) : BI.Storable (upEmb : UEmb _ 𝕄) (goRes m d L) := by
  unfold goRes; split <;> infer_instance
instance tdRes_storable (d : Dev nD) (L : grid0.Coords) : BI.Storable (upEmb : UEmb _ 𝕄) (tdRes m d L) := by
  unfold tdRes; split <;> infer_instance
instance stRes_storable (d : Dev nD) (c : Fin (grid0.bound 0)) : BI.Storable (upEmb : UEmb _ 𝕄) (stRes m d c) := by
  unfold stRes; infer_instance
instance dnRes_storable (d : Dev nD) (c : Fin (grid0.bound 0)) : BI.Storable (upEmb : UEmb _ 𝕄) (dnRes m d c) := by
  unfold dnRes; infer_instance

instance P_storable : (P (F := F) m).IsStorable where
  st q d c := match q with | 0 => (inferInstance : BI.Storable (upEmb : UEmb _ 𝕄) (stRes m d ⟨c.val, c.isLt⟩))
  dn q d c := match q with | 0 => (inferInstance : BI.Storable (upEmb : UEmb _ 𝕄) (dnRes m d ⟨c.val, c.isLt⟩))
  go q d c i := match q with | 0 => (inferInstance : BI.Storable (upEmb : UEmb _ 𝕄) (goRes m d (LL c i)))
  td q d c i := match q with | 0 => (inferInstance : BI.Storable (upEmb : UEmb _ 𝕄) (tdRes m d (LL c i)))

end Cert.Proof.KI

end
-- ==== Proof.KI.Chunks.lean ====
/-
  The result's 16384 rows cut into 128 chunks of 128 rows: chunk 8 s + 4 c + j is the j-th chunk of the subcore at
  grid point (c, s) — its rows start at 1024 s + 512 c + 128 j. The chunks are pairwise disjoint and cover the array,
  so the array held whole is the chunks held one by one, SparseCore by SparseCore, subcore by subcore.
-/
import proofs.«202797_g70420283785446_cont_9to1_m_562_18_alg».proof.Proof.KI.Common

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v0V" => (Memref.whole Cert.KernelIdeal.main_v0_scv : Memref Cert.KernelIdeal.sig Kind.scVector Space.hbm Cert.KernelIdeal.S32x4x128 EltTy.i32)
local notation "tbV" => (Memref.whole Cert.KernelIdeal.main_arg1_scv : Memref Cert.KernelIdeal.sig Kind.scVector Space.hbm Cert.KernelIdeal.S2x128 EltTy.f32)
local notation "v1V" => (Memref.whole Cert.KernelIdeal.main_v1_scv : Memref Cert.KernelIdeal.sig Kind.scVector Space.hbm Cert.KernelIdeal.S16384x128 EltTy.f32)
local notation "ixV" => (Memref.whole Cert.KernelIdeal.cc0_scratch0 : Memref Cert.KernelIdeal.sig Kind.scVector Space.vmem Cert.KernelIdeal.S4x128 EltTy.i32)
local notation "shV" => (Memref.whole Cert.KernelIdeal.cc0_scratch1 : Memref Cert.KernelIdeal.sig Kind.scVector Space.shared Cert.KernelIdeal.S2x128 EltTy.f32)
local notation "rwV" => (Memref.whole Cert.KernelIdeal.cc0_scratch2 : Memref Cert.KernelIdeal.sig Kind.scVector Space.vmem Cert.KernelIdeal.S512x128 EltTy.f32)

theorem hdiv : 128 ∣ S16384x128.size 0 := ⟨128, rfl⟩

/-- The chunk number of chunk `j` of the subcore at `L`. -/
def chunkNo (L : grid0.Coords) (j : Fin 4) : Fin 128 := ⟨8 * (L 1).val + 4 * (L 0).val + j.val, by
  have h0 : (L 0).val < 2 := (L 0).isLt
  have h1 : (L 1).val < 16 := (L 1).isLt
  have hj := j.isLt
  omega⟩

theorem outRect_eq (L : grid0.Coords) (j : Fin 4) : outRect L j = Rect.part (s := S16384x128) (a₀ := 0) hdiv (chunkNo L j) := by
  unfold outRect Rect.part Rect.block
  congr 1 <;> funext a
  · rw [k0_off2_eq]
    match a with
    | 0 => simp [Shape.partIx, Shape.partSize, chunkNo]; omega
    | 1 => simp [Shape.partIx, Shape.partSize]
  · match a with
    | 0 => simp [Shape.partSize]
    | 1 => simp [Shape.partSize]

theorem outSet_eq (L : grid0.Coords) (j : Fin 4) : outSet L j = (Rect.part (s := S16384x128) (a₀ := 0) hdiv (chunkNo L j)).set := by
  show ((View.whole (main_v1_scv : Ref sig .scVector)).slice (outRect L j)).set = _
  rw [View.set_slice, outRect_eq]; exact Finset.map_refl

/-- Grid point and chunk from the chunk number, and back. -/
def chunkEquiv : (Fin (grid0.bound 0) × Fin (grid0.bound 1)) × Fin 4 ≃ Fin 128 where
  toFun x := chunkNo (coordsV x.1.1 x.1.2) x.2
  invFun p := ((⟨(p.val / 4) % 2, Nat.mod_lt _ (by decide)⟩, ⟨p.val / 8, by have := p.isLt; show p.val / 8 < 16; omega⟩), ⟨p.val % 4, Nat.mod_lt _ (by decide)⟩)
  left_inv x := by
    obtain ⟨⟨c, s⟩, j⟩ := x
    have hc : c.val < 2 := c.isLt
    have hs : s.val < 16 := s.isLt
    have hj := j.isLt
    refine Prod.ext (Prod.ext (Fin.ext ?_) (Fin.ext ?_)) (Fin.ext ?_) <;> simp [chunkNo, coordsV] <;> omega
  right_inv p := by
    have hp := p.isLt
    refine Fin.ext ?_
    simp [chunkNo, coordsV]; omega

variable (m : (ℓ : Loc nD τ sig) → Buf (Elt F) ℓ)

/-- The result held whole is its 128 chunks, grouped by SparseCore and subcore. -/
theorem v1_chunks (d : Dev nD) (f : Buf (Elt F) (v1Loc d)) :
    (v1Loc d ↦{fullShare} f : sProp 𝕄)
      = bigSep Finset.univ fun c : Fin (grid0.bound 0) => bigSep Finset.univ fun s : Fin (grid0.bound 1) => bigSep Finset.univ fun j : Fin 4 =>
          v1Loc d ↦[outSet (coordsV c s) j]{fullShare} f := by
  have h1 : (v1Loc d ↦{fullShare} f : sProp 𝕄) = bigSep Finset.univ fun p : Fin 128 => v1Loc d ↦[(Rect.part (s := S16384x128) (a₀ := 0) hdiv p).set]{fullShare} f := by
    rw [← pointsTo_biUnion Finset.univ (ℓ := v1Loc d) (fun p : Fin 128 => (Rect.part (s := S16384x128) (a₀ := 0) hdiv p).set)
      (fun i _ j _ h => Rect.part_disjoint hdiv h), Rect.biUnion_part hdiv]; try rfl
  rw [h1, bigSep_univ_equiv chunkEquiv, bigSep_univ_prod, bigSep_univ_prod]
  refine bigSep_congr fun c _ => bigSep_congr fun s _ => bigSep_congr fun j _ => ?_
  rw [outSet_eq]; rfl

end Cert.Proof.KI

end
-- ==== Proof.KI.Split.lean ====
/-
  Two launch lemmas of the embedding-lookup kernel.

  The split: what the TensorCore hands one SparseCore at the call — its read tokens of the reshaped labels and of the
  table, the 64 chunks of the result its subcores write — and that SparseCore's shared buffer are dealt among its sixteen
  vector subcores. Each read token is cut into sixteen tokens and a remainder; the remainder waits inside the wand and
  is rejoined with the sixteen on the way back. The chunks are already grouped by subcore. The shared buffer goes whole
  to subcore 0; every subcore returns its read token of it and subcore 0 also the remainder beside the sixteen, all
  holding the table, and these join into the buffer whole again.

  The launch element: the barrier's cells are allocated for every vector subcore at once, their semaphores found at zero
  among the free semaphores, their invariants opened, and each subcore is dealt its kit — every cell invariant of its
  SparseCore, its duty token in every subcore's round, its own position, and the credit for the sixteen units of its
  own round. The call runs on both SparseCores, so every vector subcore has a kit.
-/
import proofs.«202797_g70420283785446_cont_9to1_m_562_18_alg».proof.Proof.KI.Common

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable (m : (ℓ : Loc nD τ sig) → Buf (Elt F) ℓ)
variable [FloatOps F]

local notation "𝕄" => MT nD τ sig (HIx 1) (Elt F) ℕ UU ℕ

/-! ## How one SparseCore's operands split among its sixteen subcores, and join back -/

omit [FloatOps F] in
/-- A big separating conjunction over the call's subcores is one over the grid's second coordinate. -/
theorem bigSep_tasks (Φ : Fin (grid0.bound 1) → sProp 𝕄) :
    (bigSep Finset.univ fun i : Fin ((K (F := F)).nSub 0) => Φ ⟨i.val, i.isLt⟩) = bigSep Finset.univ Φ :=
  bigSep_congr fun _ _ => congrArg Φ (Fin.ext rfl)

omit [FloatOps F] in
/-- and one over the grid's second coordinate is one over the sixteen read tokens' numbers. -/
theorem bigSep_bound1 (Φ : Fin 16 → sProp 𝕄) :
    (bigSep Finset.univ fun s : Fin (grid0.bound 1) => Φ (Fin.cast bound_one s)) = bigSep Finset.univ Φ :=
  bigSep_congr fun _ _ => congrArg Φ (Fin.ext rfl)

omit [FloatOps F] in
/-- A share of an array is sixteen read tokens, one per subcore, and a remainder. -/
theorem toks16 (ℓ : Loc nD τ sig) (f : Buf (Elt F) ℓ) (q : PosShare TreeShare) :
    (ℓ ↦{q} f : sProp 𝕄) ⊣⊢ iprop((ℓ ↦{Transfers.shareDrop q 16} f)
      ∗ bigSep Finset.univ fun s : Fin (grid0.bound 1) => ℓ ↦{Transfers.shareTok q 16 (Fin.cast bound_one s)} f) := by
  rw [bigSep_bound1 (F := F) (fun i => ℓ ↦{Transfers.shareTok q 16 i} f)]
  exact Transfers.pointsTo_toks q 16

omit [FloatOps F] in
/-- What only subcore 0 holds is held once. -/
theorem bigSep_zero (X : sProp 𝕄) :
    (bigSep Finset.univ fun s : Fin (grid0.bound 1) => if s.val = 0 then X else iprop(emp)) = X := by
  rw [SparseCore.bigSep_erase' (Finset.mem_univ (⟨0, by decide⟩ : Fin (grid0.bound 1))),
    show (bigSep ((Finset.univ : Finset (Fin (grid0.bound 1))).erase ⟨0, by decide⟩) fun s : Fin (grid0.bound 1) => if s.val = 0 then X else iprop(emp))
      = bigSep ((Finset.univ : Finset (Fin (grid0.bound 1))).erase ⟨0, by decide⟩) fun _ => (iprop(emp) : sProp 𝕄) from
      bigSep_congr fun s hs => if_neg fun h => (Finset.mem_erase.mp hs).1 (Fin.ext h), bigSep_emp', if_pos rfl]
  exact equiv_iff.mp sep_emp

/-- What the subcore at `(c, s)` is handed, and hands back, with the grid point spelt out. -/
def goC (d : Dev nD) (c : Fin (grid0.bound 0)) (sc : Fin τ.nSC) (s : Fin (grid0.bound 1)) : sProp 𝕄 :=
  iprop((v0Loc d ↦{qT (Fin.cast bound_zero c) (Fin.cast bound_one s)} lab3 m d) ∗ (tbLoc d ↦{qT (Fin.cast bound_zero c) (Fin.cast bound_one s)} m (tbLoc d))
    ∗ (bigSep Finset.univ fun j : Fin 4 => v1Loc d ↦[outSet (coordsV c s) j]{fullShare} m (v1Loc d))
    ∗ (if s.val = 0 then iprop(∃ f, shLoc d sc ↦{fullShare} f) else iprop(emp)))
def tdC (d : Dev nD) (c : Fin (grid0.bound 0)) (sc : Fin τ.nSC) (s : Fin (grid0.bound 1)) : sProp 𝕄 :=
  iprop((v0Loc d ↦{qT (Fin.cast bound_zero c) (Fin.cast bound_one s)} lab3 m d) ∗ (tbLoc d ↦{qT (Fin.cast bound_zero c) (Fin.cast bound_one s)} m (tbLoc d))
    ∗ (bigSep Finset.univ fun j : Fin 4 => v1Loc d ↦[outSet (coordsV c s) j]{fullShare} outG m d)
    ∗ (shLoc d sc ↦{qS (Fin.cast bound_one s)} tabS m d sc)
    ∗ (if s.val = 0 then iprop(shLoc d sc ↦{qS0} tabS m d sc) else iprop(emp)))

theorem goRes_LL (d : Dev nD) (c : Fin ((K (F := F)).nCore 0)) (i : Fin ((K (F := F)).nSub 0)) :
    goRes m d (LL c i) = goC m d ⟨c.val, c.isLt⟩ (coreOf c) ⟨i.val, i.isLt⟩ := rfl
theorem tdRes_LL (d : Dev nD) (c : Fin ((K (F := F)).nCore 0)) (i : Fin ((K (F := F)).nSub 0)) :
    tdRes m d (LL c i) = tdC m d ⟨c.val, c.isLt⟩ (coreOf c) ⟨i.val, i.isLt⟩ := rfl

/-- The split over one SparseCore's shared buffer alone: the read-only arrays' tokens go out and their remainders wait
    inside the wand; the chunks go as they are grouped; the buffer goes whole to subcore 0 and comes back as its sixteen
    read tokens and their remainder, holding the table. -/
theorem split_core (d : Dev nD) (c : Fin (grid0.bound 0)) (sc : Fin τ.nSC) :
    iprop(stRes m d c ∗ (∃ f, shLoc d sc ↦{fullShare} f))
      ⊢ iprop((bigSep Finset.univ fun s : Fin (grid0.bound 1) => goC m d c sc s)
        ∗ ((bigSep Finset.univ fun s : Fin (grid0.bound 1) => tdC m d c sc s) -∗ iprop(dnRes m d c ∗ ∃ f, shLoc d sc ↦{fullShare} f))) := by
  unfold stRes dnRes goC tdC
  rw [bigSep_sep', bigSep_sep', bigSep_sep', bigSep_sep', bigSep_sep', bigSep_sep', bigSep_sep', bigSep_zero, bigSep_zero]
  iintro ⟨⟨Hv, Ht, Hch⟩, Hsh⟩
  ihave Hv' := (toks16 (F := F) (v0Loc d) (lab3 m d) (qC (Fin.cast bound_zero c))).1 $$ Hv
  icases Hv' with ⟨Hvr, Hvt⟩
  ihave Ht' := (toks16 (F := F) (tbLoc d) (m (tbLoc d)) (qC (Fin.cast bound_zero c))).1 $$ Ht
  icases Ht' with ⟨Htr, Htt⟩
  isplitl [Hvt Htt Hch Hsh]
  · isplitl [Hvt]; · iexact Hvt
    isplitl [Htt]; · iexact Htt
    isplitl [Hch]; · iexact Hch
    iexact Hsh
  iintro ⟨Hvt, Htt, Hch, Hst, Hs0⟩
  isplitl [Hvr Hvt Htr Htt Hch]
  · isplitl [Hvr Hvt]
    · iapply (toks16 (F := F) (v0Loc d) (lab3 m d) (qC (Fin.cast bound_zero c))).2
      isplitl [Hvr]; · iexact Hvr
      iexact Hvt
    isplitl [Htr Htt]
    · iapply (toks16 (F := F) (tbLoc d) (m (tbLoc d)) (qC (Fin.cast bound_zero c))).2
      isplitl [Htr]; · iexact Htr
      iexact Htt
    iexact Hch
  iexists (tabS m d sc)
  iapply (toks16 (F := F) (shLoc d sc) (tabS m d sc) fullShare).2
  isplitl [Hs0]; · iexact Hs0
  iexact Hst

omit [FloatOps F] in
/-- The shared buffer is among the sequencer's own: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop(stRes m d ⟨c.val, c.isLt⟩ ∗ ownBufs (S d (coreOf c))) ⊢ |={Set.univ}=> iprop(
      (bigSep Finset.univ fun i : Fin ((K (F := F)).nSub 0) => goRes m d (LL c i))
      ∗ ((bigSep Finset.univ fun i : Fin ((K (F := F)).nSub 0) => tdRes m d (LL c i))
          -∗ iprop(dnRes m d ⟨c.val, c.isLt⟩ ∗ ownBufs (S d (coreOf c)))))
  simp only [goRes_LL, tdRes_LL]
  rw [bigSep_tasks (F := F) (fun s => goC m d ⟨c.val, c.isLt⟩ (coreOf c) s), bigSep_tasks (F := F) (fun s => tdC m d ⟨c.val, c.isLt⟩ (coreOf c) s), ownBufs_S]
  iintro ⟨Hst, Hsh, Hrest⟩; imodintro
  ihave H := (split_core m d ⟨c.val, c.isLt⟩ (coreOf c)) $$ [Hst Hsh]
  · isplitl [Hst]; · iexact Hst
    iexact Hsh
  icases H with ⟨Hgo, Hback⟩
  isplitl [Hgo]; · iexact Hgo
  iintro Htd
  ihave H2 := Hback $$ Htd
  icases H2 with ⟨Hdn, Hsh⟩
  isplitl [Hdn]; · iexact Hdn
  isplitl [Hsh]; · iexact Hsh
  iexact Hrest

/-! ## The launch element of the ghost state, and what the launch hands over -/

abbrev DCI : Type := Dev nD × Fin τ.nSC × Fin τ.nSub
abbrev bcell₃ (x : DCI) : GSem nD τ sig := bcell x.1 x.2.1 x.2.2

/-- Every vector subcore's barrier cell, -/
def bCells : Finset (GSem nD τ sig) := Finset.univ.image bcell₃
/-- and subcore `i`'s token in subcore `j`'s cell, for every pair of subcores of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each subcore the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each subcore is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One subcore's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each subcore its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

end Cert.Proof.KI

end
-- ==== Proof.KI.Labels.lean ====
/-
  Facts about the labels, pure: after @main's reshape label (w, j, k) is label number 512 w + 128 j + k; under the
  precondition every reshaped label is the word 0 or 1, so read as a row number it is below 2, and that row number is
  the row the specification assigns the word.
-/
import proofs.«202797_g70420283785446_cont_9to1_m_562_18_alg».proof.Proof.KI.Common

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v0V" => (Memref.whole Cert.KernelIdeal.main_v0_scv : Memref Cert.KernelIdeal.sig Kind.scVector Space.hbm Cert.KernelIdeal.S32x4x128 EltTy.i32)
local notation "tbV" => (Memref.whole Cert.KernelIdeal.main_arg1_scv : Memref Cert.KernelIdeal.sig Kind.scVector Space.hbm Cert.KernelIdeal.S2x128 EltTy.f32)
local notation "v1V" => (Memref.whole Cert.KernelIdeal.main_v1_scv : Memref Cert.KernelIdeal.sig Kind.scVector Space.hbm Cert.KernelIdeal.S16384x128 EltTy.f32)
local notation "ixV" => (Memref.whole Cert.KernelIdeal.cc0_scratch0 : Memref Cert.KernelIdeal.sig Kind.scVector Space.vmem Cert.KernelIdeal.S4x128 EltTy.i32)
local notation "shV" => (Memref.whole Cert.KernelIdeal.cc0_scratch1 : Memref Cert.KernelIdeal.sig Kind.scVector Space.shared Cert.KernelIdeal.S2x128 EltTy.f32)
local notation "rwV" => (Memref.whole Cert.KernelIdeal.cc0_scratch2 : Memref Cert.KernelIdeal.sig Kind.scVector Space.vmem Cert.KernelIdeal.S512x128 EltTy.f32)

variable (m : (ℓ : Loc nD τ sig) → Buf (Elt F) ℓ)

/-- The reshaped labels read at an index are the labels at the row-major position. -/
theorem lab3_apply (d : Dev nD) (w : Fin 32) (j : Fin 4) (k : Fin 128) :
    lab3 m d (ix3 w j k) = (m (a0Loc d) : S16384.Idx → Elt F .i32) (ix1 ⟨512 * w.val + 128 * j.val + k.val, by have := w.isLt; have := j.isLt; have := k.isLt; omega⟩) := by
  unfold lab3
  refine shapeCast_apply (s := S16384) (t := S32x4x128) _ shapeCasts_S16384_S32x4x128 _ _ ?_
  rw [Shape.rowMajor_val_one, Shape.rowMajor_val_three]
  show 512 * w.val + 128 * j.val + k.val = (w.val * 4 + j.val) * 128 + k.val
  omega

/-- Under the precondition every reshaped label is the word 0 or the word 1. -/
theorem lab3_01 (hpre : PreOK m) (d : Dev nD) (i : S32x4x128.Idx) : lab3 m d i = (0#32 : BitVec 32) ∨ lab3 m d i = (1#32 : BitVec 32) := by
  unfold lab3 shapeCast
  have h := hpre d ((Shape.reshapeEquiv shapeCasts_S16384_S32x4x128 i) 0)
  rw [eq_ix1 (Shape.reshapeEquiv shapeCasts_S16384_S32x4x128 i)]
  exact h

/-- A label word 0 or 1 read as a row number is below 2, -/
theorem toNat_lt_two {w : BitVec 32} (h : w = 0#32 ∨ w = 1#32) : w.toNat < 2 := by
  rcases h with rfl | rfl <;> decide

/-- and that row is the row the specification gives the word. -/
theorem rowOf_eq_toNat {w : BitVec 32} (h : w = 0#32 ∨ w = 1#32) (hw : w.toNat < 2) : (⟨w.toNat, hw⟩ : Fin 2) = Cert.Spec.rowOf w := by
  rcases h with rfl | rfl
  · exact Fin.ext (show (0#32 : BitVec 32).toNat = (Cert.Spec.rowOf 0#32).val by decide)
  · exact Fin.ext (show (1#32 : BitVec 32).toNat = (Cert.Spec.rowOf 1#32).val by decide)

/-- The result as one function of the arguments, read at row 512 w + 128 j + k: the table row the reshaped label (w, j, k) names. -/
theorem outG_apply (d : Dev nD) (w : Fin 32) (j : Fin 4) (k : Fin 128) (h : Fin 128) :
    outG m d (ix2 ⟨512 * w.val + 128 * j.val + k.val, by have := w.isLt; have := j.isLt; have := k.isLt; omega⟩ h)
      = (m (tbLoc d) : S2x128.Idx → Elt F .f32) (ix2 (Cert.Spec.rowOf (lab3 m d (ix3 w j k))) h) := by
  rw [lab3_apply]; rfl

end Cert.Proof.KI

end
-- ==== Proof.KI.Value.lean ====
/-
  Pure facts about the subcore's index scratch and its label rows. The scratch is four rows of 128 words; the four
  label copies each overwrite one row, so after them row j holds what copy j carried, whatever the scratch held before
  and in whatever order the rows are read. Copy j carries row j of the subcore's block of the reshaped labels: labels
  (2 (L 1) + (L 0), j, ·).
-/
import proofs.«202797_g70420283785446_cont_9to1_m_562_18_alg».proof.Proof.KI.Common
import proofs.«202797_g70420283785446_cont_9to1_m_562_18_alg».proof.Proof.KI.Labels
import Idealize.ShloMosaic.Lib.ValueLayout

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v0V" => (Memref.whole Cert.KernelIdeal.main_v0_scv : Memref Cert.KernelIdeal.sig Kind.scVector Space.hbm Cert.KernelIdeal.S32x4x128 EltTy.i32)
local notation "tbV" => (Memref.whole Cert.KernelIdeal.main_arg1_scv : Memref Cert.KernelIdeal.sig Kind.scVector Space.hbm Cert.KernelIdeal.S2x128 EltTy.f32)
local notation "v1V" => (Memref.whole Cert.KernelIdeal.main_v1_scv : Memref Cert.KernelIdeal.sig Kind.scVector Space.hbm Cert.KernelIdeal.S16384x128 EltTy.f32)
local notation "ixV" => (Memref.whole Cert.KernelIdeal.cc0_scratch0 : Memref Cert.KernelIdeal.sig Kind.scVector Space.vmem Cert.KernelIdeal.S4x128 EltTy.i32)
local notation "shV" => (Memref.whole Cert.KernelIdeal.cc0_scratch1 : Memref Cert.KernelIdeal.sig Kind.scVector Space.shared Cert.KernelIdeal.S2x128 EltTy.f32)
local notation "rwV" => (Memref.whole Cert.KernelIdeal.cc0_scratch2 : Memref Cert.KernelIdeal.sig Kind.scVector Space.vmem Cert.KernelIdeal.S512x128 EltTy.f32)

/-- Row 0 of the index scratch, as the kernel slices it. -/
abbrev ixRow0 : Memref sig .scVector .vmem S128 .i32 := ((ixV).slice (Rect.unit (s := S4x128) ![0, 0] S1x128.size inb_S4x128_S1x128_0_0) (fun _ => rfl)).squeeze S128 squeezes_S1x128_S128
/-- Row 1 of the index scratch, as the kernel slices it. -/
abbrev ixRow1 : Memref sig .scVector .vmem S128 .i32 := ((ixV).slice (Rect.unit (s := S4x128) ![1, 0] S1x128.size inb_S4x128_S1x128_1_0) (fun _ => rfl)).squeeze S128 squeezes_S1x128_S128
/-- Row 2 of the index scratch, as the kernel slices it. -/
abbrev ixRow2 : Memref sig .scVector .vmem S128 .i32 := ((ixV).slice (Rect.unit (s := S4x128) ![2, 0] S1x128.size inb_S4x128_S1x128_2_0) (fun _ => rfl)).squeeze S128 squeezes_S1x128_S128
/-- Row 3 of the index scratch, as the kernel slices it. -/
abbrev ixRow3 : Memref sig .scVector .vmem S128 .i32 := ((ixV).slice (Rect.unit (s := S4x128) ![3, 0] S1x128.size inb_S4x128_S1x128_3_0) (fun _ => rfl)).squeeze S128 squeezes_S1x128_S128

theorem set_ixRow0 : (ixRow0).view.set = (Rect.unit (s := S4x128) ![0, 0] S1x128.size inb_S4x128_S1x128_0_0).set := by
  show (((View.whole (cc0_scratch0 : Ref sig .scVector)).slice _).reshape S128 _).set = _
  rw [View.set_reshape, View.set_slice_whole]
theorem set_ixRow1 : (ixRow1).view.set = (Rect.unit (s := S4x128) ![1, 0] S1x128.size inb_S4x128_S1x128_1_0).set := by
  show (((View.whole (cc0_scratch0 : Ref sig .scVector)).slice _).reshape S128 _).set = _
  rw [View.set_reshape, View.set_slice_whole]
theorem set_ixRow2 : (ixRow2).view.set = (Rect.unit (s := S4x128) ![2, 0] S1x128.size inb_S4x128_S1x128_2_0).set := by
  show (((View.whole (cc0_scratch0 : Ref sig .scVector)).slice _).reshape S128 _).set = _
  rw [View.set_reshape, View.set_slice_whole]
theorem set_ixRow3 : (ixRow3).view.set = (Rect.unit (s := S4x128) ![3, 0] S1x128.size inb_S4x128_S1x128_3_0).set := by
  show (((View.whole (cc0_scratch0 : Ref sig .scVector)).slice _).reshape S128 _).set = _
  rw [View.set_reshape, View.set_slice_whole]

/-- An index of the scratch lies in row j exactly when its first coordinate is j. -/
theorem mem_ixRow0 (i : S4x128.Idx) : i ∈ (ixRow0).view.set ↔ (i 0).val = 0 := by
  rw [set_ixRow0, Rect.mem_set_unit]
  constructor
  · intro h; have h0 := h 0; simp at h0; omega
  · intro h a
    match a with
    | 0 => simp; omega
    | 1 => simp; exact (i 1).isLt
theorem mem_ixRow1 (i : S4x128.Idx) : i ∈ (ixRow1).view.set ↔ (i 0).val = 1 := by
  rw [set_ixRow1, Rect.mem_set_unit]
  constructor
  · intro h; have h0 := h 0; simp at h0; omega
  · intro h a
    match a with
    | 0 => simp; omega
    | 1 => simp; exact (i 1).isLt
theorem mem_ixRow2 (i : S4x128.Idx) : i ∈ (ixRow2).view.set ↔ (i 0).val = 2 := by
  rw [set_ixRow2, Rect.mem_set_unit]
  constructor
  · intro h; have h0 := h 0; simp at h0; omega
  · intro h a
    match a with
    | 0 => simp; omega
    | 1 => simp; exact (i 1).isLt
theorem mem_ixRow3 (i : S4x128.Idx) : i ∈ (ixRow3).view.set ↔ (i 0).val = 3 := by
  rw [set_ixRow3, Rect.mem_set_unit]
  constructor
  · intro h; have h0 := h 0; simp at h0; omega
  · intro h a
    match a with
    | 0 => simp; omega
    | 1 => simp; exact (i 1).isLt

/-- A copy into row 1 is not seen through row 0. -/
theorem read_ixRow0_write1 (f : (ixV).view.ty.Contents (Elt F)) (w : S128.Idx → Elt F .i32) :
    (ixRow0).view.read (Elt F) (View.write (Elt F) (ixRow1).view f w Finset.univ) = (ixRow0).view.read (Elt F) f :=
  View.read_congr fun i hi => View.write_of_not_mem _ _ _ (by
    rw [View.setOn_univ]; intro hb
    have h1 := (mem_ixRow0 i).mp hi
    have h2 := (mem_ixRow1 i).mp hb
    omega)
/-- A copy into row 2 is not seen through row 0. -/
theorem read_ixRow0_write2 (f : (ixV).view.ty.Contents (Elt F)) (w : S128.Idx → Elt F .i32) :
    (ixRow0).view.read (Elt F) (View.write (Elt F) (ixRow2).view f w Finset.univ) = (ixRow0).view.read (Elt F) f :=
  View.read_congr fun i hi => View.write_of_not_mem _ _ _ (by
    rw [View.setOn_univ]; intro hb
    have h1 := (mem_ixRow0 i).mp hi
    have h2 := (mem_ixRow2 i).mp hb
    omega)
/-- A copy into row 3 is not seen through row 0. -/
theorem read_ixRow0_write3 (f : (ixV).view.ty.Contents (Elt F)) (w : S128.Idx → Elt F .i32) :
    (ixRow0).view.read (Elt F) (View.write (Elt F) (ixRow3).view f w Finset.univ) = (ixRow0).view.read (Elt F) f :=
  View.read_congr fun i hi => View.write_of_not_mem _ _ _ (by
    rw [View.setOn_univ]; intro hb
    have h1 := (mem_ixRow0 i).mp hi
    have h2 := (mem_ixRow3 i).mp hb
    omega)
/-- A copy into row 0 is not seen through row 1. -/
theorem read_ixRow1_write0 (f : (ixV).view.ty.Contents (Elt F)) (w : S128.Idx → Elt F .i32) :
    (ixRow1).view.read (Elt F) (View.write (Elt F) (ixRow0).view f w Finset.univ) = (ixRow1).view.read (Elt F) f :=
  View.read_congr fun i hi => View.write_of_not_mem _ _ _ (by
    rw [View.setOn_univ]; intro hb
    have h1 := (mem_ixRow1 i).mp hi
    have h2 := (mem_ixRow0 i).mp hb
    omega)
/-- A copy into row 2 is not seen through row 1. -/
theorem read_ixRow1_write2 (f : (ixV).view.ty.Contents (Elt F)) (w : S128.Idx → Elt F .i32) :
    (ixRow1).view.read (Elt F) (View.write (Elt F) (ixRow2).view f w Finset.univ) = (ixRow1).view.read (Elt F) f :=
  View.read_congr fun i hi => View.write_of_not_mem _ _ _ (by
    rw [View.setOn_univ]; intro hb
    have h1 := (mem_ixRow1 i).mp hi
    have h2 := (mem_ixRow2 i).mp hb
    omega)
/-- A copy into row 3 is not seen through row 1. -/
theorem read_ixRow1_write3 (f : (ixV).view.ty.Contents (Elt F)) (w : S128.Idx → Elt F .i32) :
    (ixRow1).view.read (Elt F) (View.write (Elt F) (ixRow3).view f w Finset.univ) = (ixRow1).view.read (Elt F) f :=
  View.read_congr fun i hi => View.write_of_not_mem _ _ _ (by
    rw [View.setOn_univ]; intro hb
    have h1 := (mem_ixRow1 i).mp hi
    have h2 := (mem_ixRow3 i).mp hb
    omega)
/-- A copy into row 0 is not seen through row 2. -/
theorem read_ixRow2_write0 (f : (ixV).view.ty.Contents (Elt F)) (w : S128.Idx → Elt F .i32) :
    (ixRow2).view.read (Elt F) (View.write (Elt F) (ixRow0).view f w Finset.univ) = (ixRow2).view.read (Elt F) f :=
  View.read_congr fun i hi => View.write_of_not_mem _ _ _ (by
    rw [View.setOn_univ]; intro hb
    have h1 := (mem_ixRow2 i).mp hi
    have h2 := (mem_ixRow0 i).mp hb
    omega)
/-- A copy into row 1 is not seen through row 2. -/
theorem read_ixRow2_write1 (f : (ixV).view.ty.Contents (Elt F)) (w : S128.Idx → Elt F .i32) :
    (ixRow2).view.read (Elt F) (View.write (Elt F) (ixRow1).view f w Finset.univ) = (ixRow2).view.read (Elt F) f :=
  View.read_congr fun i hi => View.write_of_not_mem _ _ _ (by
    rw [View.setOn_univ]; intro hb
    have h1 := (mem_ixRow2 i).mp hi
    have h2 := (mem_ixRow1 i).mp hb
    omega)
/-- A copy into row 3 is not seen through row 2. -/
theorem read_ixRow2_write3 (f : (ixV).view.ty.Contents (Elt F)) (w : S128.Idx → Elt F .i32) :
    (ixRow2).view.read (Elt F) (View.write (Elt F) (ixRow3).view f w Finset.univ) = (ixRow2).view.read (Elt F) f :=
  View.read_congr fun i hi => View.write_of_not_mem _ _ _ (by
    rw [View.setOn_univ]; intro hb
    have h1 := (mem_ixRow2 i).mp hi
    have h2 := (mem_ixRow3 i).mp hb
    omega)
/-- A copy into row 0 is not seen through row 3. -/
theorem read_ixRow3_write0 (f : (ixV).view.ty.Contents (Elt F)) (w : S128.Idx → Elt F .i32) :
    (ixRow3).view.read (Elt F) (View.write (Elt F) (ixRow0).view f w Finset.univ) = (ixRow3).view.read (Elt F) f :=
  View.read_congr fun i hi => View.write_of_not_mem _ _ _ (by
    rw [View.setOn_univ]; intro hb
    have h1 := (mem_ixRow3 i).mp hi
    have h2 := (mem_ixRow0 i).mp hb
    omega)
/-- A copy into row 1 is not seen through row 3. -/
theorem read_ixRow3_write1 (f : (ixV).view.ty.Contents (Elt F)) (w : S128.Idx → Elt F .i32) :
    (ixRow3).view.read (Elt F) (View.write (Elt F) (ixRow1).view f w Finset.univ) = (ixRow3).view.read (Elt F) f :=
  View.read_congr fun i hi => View.write_of_not_mem _ _ _ (by
    rw [View.setOn_univ]; intro hb
    have h1 := (mem_ixRow3 i).mp hi
    have h2 := (mem_ixRow1 i).mp hb
    omega)
/-- A copy into row 2 is not seen through row 3. -/
theorem read_ixRow3_write2 (f : (ixV).view.ty.Contents (Elt F)) (w : S128.Idx → Elt F .i32) :
    (ixRow3).view.read (Elt F) (View.write (Elt F) (ixRow2).view f w Finset.univ) = (ixRow3).view.read (Elt F) f :=
  View.read_congr fun i hi => View.write_of_not_mem _ _ _ (by
    rw [View.setOn_univ]; intro hb
    have h1 := (mem_ixRow3 i).mp hi
    have h2 := (mem_ixRow2 i).mp hb
    omega)

/-- The index scratch after the four label copies, in the order they are issued. -/
def ixW (fi : (ixV).view.ty.Contents (Elt F)) (p0 p1 p2 p3 : S128.Idx → Elt F .i32) : (ixV).view.ty.Contents (Elt F) :=
  View.write (Elt F) ixRow3.view (View.write (Elt F) ixRow2.view (View.write (Elt F) ixRow1.view (View.write (Elt F) ixRow0.view fi p0 Finset.univ) p1 Finset.univ) p2 Finset.univ) p3 Finset.univ

variable (fi : (ixV).view.ty.Contents (Elt F)) (p0 p1 p2 p3 : S128.Idx → Elt F .i32)

theorem read_ixW0 : ixRow0.view.read (Elt F) (ixW fi p0 p1 p2 p3) = p0 := by
  unfold ixW; rw [read_ixRow0_write3, read_ixRow0_write2, read_ixRow0_write1, View.read_write_univ]
theorem read_ixW1 : ixRow1.view.read (Elt F) (ixW fi p0 p1 p2 p3) = p1 := by
  unfold ixW; rw [read_ixRow1_write3, read_ixRow1_write2, View.read_write_univ]
theorem read_ixW2 : ixRow2.view.read (Elt F) (ixW fi p0 p1 p2 p3) = p2 := by
  unfold ixW; rw [read_ixRow2_write3, View.read_write_univ]
theorem read_ixW3 : ixRow3.view.read (Elt F) (ixW fi p0 p1 p2 p3) = p3 := by
  unfold ixW; rw [View.read_write_univ]

/-! ## The label rows the copies carry -/

variable (m : (ℓ : Loc nD τ sig) → Buf (Elt F) ℓ)

/-- A vector index of length 128 is matched with (0, ·) of the row it was squeezed out of. -/
theorem reshape_S128 (h : S128.numel = S1x128.numel) (x : S128.Idx) : Shape.reshapeEquiv h x = ix2 (⟨0, Nat.one_pos⟩ : Fin 1) (⟨(x 0).val, (x 0).isLt⟩ : Fin 128) :=
  Shape.reshapeEquiv_eq_of_rowMajor h (by
    rw [Shape.rowMajor_val_two, Shape.rowMajor_val_one]
    show (0 : ℕ) * 128 + (x 0).val = (x 0).val
    omega)

/-- Entry (0, y) of row 0 of a four-row block is entry (0, y) of the block. -/
theorem emb_row0 (y : Fin 128) :
    (Rect.unit (s := S4x128) ![0, 0] S1x128.size inb_S4x128_S1x128_0_0).emb (ix2 (⟨0, Nat.one_pos⟩ : Fin 1) y) = ix2 (⟨0, by decide⟩ : Fin 4) y := by
  funext a
  apply Fin.ext
  match a with
  | 0 => rw [Rect.emb_apply]; simp
  | 1 => rw [Rect.emb_apply]; simp
/-- Entry (0, y) of row 1 of a four-row block is entry (1, y) of the block. -/
theorem emb_row1 (y : Fin 128) :
    (Rect.unit (s := S4x128) ![1, 0] S1x128.size inb_S4x128_S1x128_1_0).emb (ix2 (⟨0, Nat.one_pos⟩ : Fin 1) y) = ix2 (⟨1, by decide⟩ : Fin 4) y := by
  funext a
  apply Fin.ext
  match a with
  | 0 => rw [Rect.emb_apply]; simp
  | 1 => rw [Rect.emb_apply]; simp
/-- Entry (0, y) of row 2 of a four-row block is entry (2, y) of the block. -/
theorem emb_row2 (y : Fin 128) :
    (Rect.unit (s := S4x128) ![2, 0] S1x128.size inb_S4x128_S1x128_2_0).emb (ix2 (⟨0, Nat.one_pos⟩ : Fin 1) y) = ix2 (⟨2, by decide⟩ : Fin 4) y := by
  funext a
  apply Fin.ext
  match a with
  | 0 => rw [Rect.emb_apply]; simp
  | 1 => rw [Rect.emb_apply]; simp
/-- Entry (0, y) of row 3 of a four-row block is entry (3, y) of the block. -/
theorem emb_row3 (y : Fin 128) :
    (Rect.unit (s := S4x128) ![3, 0] S1x128.size inb_S4x128_S1x128_3_0).emb (ix2 (⟨0, Nat.one_pos⟩ : Fin 1) y) = ix2 (⟨3, by decide⟩ : Fin 4) y := by
  funext a
  apply Fin.ext
  match a with
  | 0 => rw [Rect.emb_apply]; simp
  | 1 => rw [Rect.emb_apply]; simp

/-- The subcore's block number among the 32 blocks of labels. -/
theorem wid_lt (L : grid0.Coords) : 2 * (L 1).val + (L 0).val < 32 := by
  have h0 : (L 0).val < 2 := (L 0).isLt
  have h1 : (L 1).val < 16 := (L 1).isLt
  omega

/-- Row 0 of the subcore's block of the reshaped labels, as the kernel slices it. -/
abbrev v0Row0 (L : grid0.Coords) : Memref sig .scVector .hbm S128 .i32 :=
  ((((v0V).slice (Rect.unit (s := S32x4x128) (k0_off1 L) S1x4x128.size (k0_off1_inb L)) (fun _ => rfl)).squeeze S4x128 squeezes_S1x4x128_S4x128).slice
    (Rect.unit (s := S4x128) ![0, 0] S1x128.size inb_S4x128_S1x128_0_0) (fun _ => rfl)).squeeze S128 squeezes_S1x128_S128

theorem v0Row0_emb (L : grid0.Coords) (x : S128.Idx) :
    (v0Row0 L).view.emb x = ix3 (⟨2 * (L 1).val + (L 0).val, wid_lt L⟩ : Fin 32) (⟨0, by decide⟩ : Fin 4) (⟨(x 0).val, (x 0).isLt⟩ : Fin 128) := by
  simp only [Memref.view_squeeze, Memref.view_slice, Memref.view_whole, View.emb_reshape, View.emb_slice, View.emb_whole,
    Function.Embedding.trans_apply, Function.Embedding.refl_apply, Equiv.coe_toEmbedding]
  rw [reshape_S128, emb_row0, reshapeEquiv_ix2_1ab]
  funext a
  apply Fin.ext
  match a with
  | 0 => rw [Rect.emb_apply]; simp only [Rect.off_unit, Rect.stride_unit, k0_off1_eq]; simp; rfl
  | 1 => rw [Rect.emb_apply]; simp only [Rect.off_unit, Rect.stride_unit, k0_off1_eq]; simp; rfl
  | 2 => rw [Rect.emb_apply]; simp only [Rect.off_unit, Rect.stride_unit, k0_off1_eq]; simp; rfl

theorem v0Row0_read (d : Dev nD) (L : grid0.Coords) (x : S128.Idx) :
    (v0Row0 L).view.read (Elt F) (lab3 m d) x = lab3 m d (ix3 (⟨2 * (L 1).val + (L 0).val, wid_lt L⟩ : Fin 32) (⟨0, by decide⟩ : Fin 4) (⟨(x 0).val, (x 0).isLt⟩ : Fin 128)) := by
  rw [View.read_apply, v0Row0_emb]; rfl

/-- Row 1 of the subcore's block of the reshaped labels, as the kernel slices it. -/
abbrev v0Row1 (L : grid0.Coords) : Memref sig .scVector .hbm S128 .i32 :=
  ((((v0V).slice (Rect.unit (s := S32x4x128) (k0_off1 L) S1x4x128.size (k0_off1_inb L)) (fun _ => rfl)).squeeze S4x128 squeezes_S1x4x128_S4x128).slice
    (Rect.unit (s := S4x128) ![1, 0] S1x128.size inb_S4x128_S1x128_1_0) (fun _ => rfl)).squeeze S128 squeezes_S1x128_S128

theorem v0Row1_emb (L : grid0.Coords) (x : S128.Idx) :
    (v0Row1 L).view.emb x = ix3 (⟨2 * (L 1).val + (L 0).val, wid_lt L⟩ : Fin 32) (⟨1, by decide⟩ : Fin 4) (⟨(x 0).val, (x 0).isLt⟩ : Fin 128) := by
  simp only [Memref.view_squeeze, Memref.view_slice, Memref.view_whole, View.emb_reshape, View.emb_slice, View.emb_whole,
    Function.Embedding.trans_apply, Function.Embedding.refl_apply, Equiv.coe_toEmbedding]
  rw [reshape_S128, emb_row1, reshapeEquiv_ix2_1ab]
  funext a
  apply Fin.ext
  match a with
  | 0 => rw [Rect.emb_apply]; simp only [Rect.off_unit, Rect.stride_unit, k0_off1_eq]; simp; rfl
  | 1 => rw [Rect.emb_apply]; simp only [Rect.off_unit, Rect.stride_unit, k0_off1_eq]; simp; rfl
  | 2 => rw [Rect.emb_apply]; simp only [Rect.off_unit, Rect.stride_unit, k0_off1_eq]; simp; rfl

theorem v0Row1_read (d : Dev nD) (L : grid0.Coords) (x : S128.Idx) :
    (v0Row1 L).view.read (Elt F) (lab3 m d) x = lab3 m d (ix3 (⟨2 * (L 1).val + (L 0).val, wid_lt L⟩ : Fin 32) (⟨1, by decide⟩ : Fin 4) (⟨(x 0).val, (x 0).isLt⟩ : Fin 128)) := by
  rw [View.read_apply, v0Row1_emb]; rfl

/-- Row 2 of the subcore's block of the reshaped labels, as the kernel slices it. -/
abbrev v0Row2 (L : grid0.Coords) : Memref sig .scVector .hbm S128 .i32 :=
  ((((v0V).slice (Rect.unit (s := S32x4x128) (k0_off1 L) S1x4x128.size (k0_off1_inb L)) (fun _ => rfl)).squeeze S4x128 squeezes_S1x4x128_S4x128).slice
    (Rect.unit (s := S4x128) ![2, 0] S1x128.size inb_S4x128_S1x128_2_0) (fun _ => rfl)).squeeze S128 squeezes_S1x128_S128

theorem v0Row2_emb (L : grid0.Coords) (x : S128.Idx) :
    (v0Row2 L).view.emb x = ix3 (⟨2 * (L 1).val + (L 0).val, wid_lt L⟩ : Fin 32) (⟨2, by decide⟩ : Fin 4) (⟨(x 0).val, (x 0).isLt⟩ : Fin 128) := by
  simp only [Memref.view_squeeze, Memref.view_slice, Memref.view_whole, View.emb_reshape, View.emb_slice, View.emb_whole,
    Function.Embedding.trans_apply, Function.Embedding.refl_apply, Equiv.coe_toEmbedding]
  rw [reshape_S128, emb_row2, reshapeEquiv_ix2_1ab]
  funext a
  apply Fin.ext
  match a with
  | 0 => rw [Rect.emb_apply]; simp only [Rect.off_unit, Rect.stride_unit, k0_off1_eq]; simp; rfl
  | 1 => rw [Rect.emb_apply]; simp only [Rect.off_unit, Rect.stride_unit, k0_off1_eq]; simp; rfl
  | 2 => rw [Rect.emb_apply]; simp only [Rect.off_unit, Rect.stride_unit, k0_off1_eq]; simp; rfl

theorem v0Row2_read (d : Dev nD) (L : grid0.Coords) (x : S128.Idx) :
    (v0Row2 L).view.read (Elt F) (lab3 m d) x = lab3 m d (ix3 (⟨2 * (L 1).val + (L 0).val, wid_lt L⟩ : Fin 32) (⟨2, by decide⟩ : Fin 4) (⟨(x 0).val, (x 0).isLt⟩ : Fin 128)) := by
  rw [View.read_apply, v0Row2_emb]; rfl

/-- Row 3 of the subcore's block of the reshaped labels, as the kernel slices it. -/
abbrev v0Row3 (L : grid0.Coords) : Memref sig .scVector .hbm S128 .i32 :=
  ((((v0V).slice (Rect.unit (s := S32x4x128) (k0_off1 L) S1x4x128.size (k0_off1_inb L)) (fun _ => rfl)).squeeze S4x128 squeezes_S1x4x128_S4x128).slice
    (Rect.unit (s := S4x128) ![3, 0] S1x128.size inb_S4x128_S1x128_3_0) (fun _ => rfl)).squeeze S128 squeezes_S1x128_S128

theorem v0Row3_emb (L : grid0.Coords) (x : S128.Idx) :
    (v0Row3 L).view.emb x = ix3 (⟨2 * (L 1).val + (L 0).val, wid_lt L⟩ : Fin 32) (⟨3, by decide⟩ : Fin 4) (⟨(x 0).val, (x 0).isLt⟩ : Fin 128) := by
  simp only [Memref.view_squeeze, Memref.view_slice, Memref.view_whole, View.emb_reshape, View.emb_slice, View.emb_whole,
    Function.Embedding.trans_apply, Function.Embedding.refl_apply, Equiv.coe_toEmbedding]
  rw [reshape_S128, emb_row3, reshapeEquiv_ix2_1ab]
  funext a
  apply Fin.ext
  match a with
  | 0 => rw [Rect.emb_apply]; simp only [Rect.off_unit, Rect.stride_unit, k0_off1_eq]; simp; rfl
  | 1 => rw [Rect.emb_apply]; simp only [Rect.off_unit, Rect.stride_unit, k0_off1_eq]; simp; rfl
  | 2 => rw [Rect.emb_apply]; simp only [Rect.off_unit, Rect.stride_unit, k0_off1_eq]; simp; rfl

theorem v0Row3_read (d : Dev nD) (L : grid0.Coords) (x : S128.Idx) :
    (v0Row3 L).view.read (Elt F) (lab3 m d) x = lab3 m d (ix3 (⟨2 * (L 1).val + (L 0).val, wid_lt L⟩ : Fin 32) (⟨3, by decide⟩ : Fin 4) (⟨(x 0).val, (x 0).isLt⟩ : Fin 128)) := by
  rw [View.read_apply, v0Row3_emb]; rfl

end Cert.Proof.KI

end
-- ==== Proof.KI.Gather.lean ====
/-
  One gathered entry, pure: the gather of the two-row table by a list of 128 label words, each the word 0 or 1, holds
  at row r, lane h the table's entry (row of word r, lane h) — the row the specification assigns the word.
-/
import proofs.«202797_g70420283785446_cont_9to1_m_562_18_alg».proof.Proof.KI.Common
import proofs.«202797_g70420283785446_cont_9to1_m_562_18_alg».proof.Proof.KI.Labels

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v0V" => (Memref.whole Cert.KernelIdeal.main_v0_scv : Memref Cert.KernelIdeal.sig Kind.scVector Space.hbm Cert.KernelIdeal.S32x4x128 EltTy.i32)
local notation "tbV" => (Memref.whole Cert.KernelIdeal.main_arg1_scv : Memref Cert.KernelIdeal.sig Kind.scVector Space.hbm Cert.KernelIdeal.S2x128 EltTy.f32)
local notation "v1V" => (Memref.whole Cert.KernelIdeal.main_v1_scv : Memref Cert.KernelIdeal.sig Kind.scVector Space.hbm Cert.KernelIdeal.S16384x128 EltTy.f32)
local notation "ixV" => (Memref.whole Cert.KernelIdeal.cc0_scratch0 : Memref Cert.KernelIdeal.sig Kind.scVector Space.vmem Cert.KernelIdeal.S4x128 EltTy.i32)
local notation "shV" => (Memref.whole Cert.KernelIdeal.cc0_scratch1 : Memref Cert.KernelIdeal.sig Kind.scVector Space.shared Cert.KernelIdeal.S2x128 EltTy.f32)
local notation "rwV" => (Memref.whole Cert.KernelIdeal.cc0_scratch2 : Memref Cert.KernelIdeal.sig Kind.scVector Space.vmem Cert.KernelIdeal.S512x128 EltTy.f32)

/-- Entry r of a list of 128 words in row-major order is the list at r. -/
theorem rowMajor_symm_S128 (hn : S128.numel = S128x128.size (gathers_S2x128_S128x128).axis') (k : Fin (S128x128.size (gathers_S2x128_S128x128).axis')) :
    S128.rowMajor.symm (k.cast hn.symm) = ix1 (⟨k.val, k.isLt⟩ : Fin 128) := by
  apply S128.rowMajor.injective
  rw [Equiv.apply_symm_apply]
  apply Fin.ext
  rw [Shape.rowMajor_val_one]
  rfl

theorem gather_entry (tab : S2x128.Idx → Elt F .f32) (offs : S128.Idx → Elt F .i32)
    (hn : S128.numel = S128x128.size (gathers_S2x128_S128x128).axis')
    (hin : ∀ x, (offs x).toNat < S2x128.size (gathers_S2x128_S128x128).axis)
    (h01 : ∀ x, offs x = (0#32 : BitVec 32) ∨ offs x = (1#32 : BitVec 32)) (r : Fin 128) (h : Fin 128) :
    SparseCore.gatherPayload gathers_S2x128_S128x128 tab (SparseCore.rows offs hn hin) (ix2 r h)
      = tab (ix2 (Cert.Spec.rowOf (offs (ix1 r))) h) := by
  unfold SparseCore.gatherPayload
  refine congrArg tab (funext fun b => Fin.ext ?_)
  match b with
  | 0 =>
    have e := Shape.Gathers.idx_axis gathers_S2x128_S128x128 (SparseCore.rows offs hn hin) (ix2 r h)
    refine (congrArg Fin.val e).trans ?_
    show (offs (S128.rowMajor.symm (Fin.cast hn.symm (ix2 r h (gathers_S2x128_S128x128).axis')))).toNat = _
    rw [rowMajor_symm_S128 hn]
    exact congrArg Fin.val (rowOf_eq_toNat (h01 (ix1 r)) (hin (ix1 r)))
  | 1 => exact Shape.Gathers.idx_of_ne gathers_S2x128_S128x128 (SparseCore.rows offs hn hin) (ix2 r h) 1 (by decide)

end Cert.Proof.KI

end
-- ==== Proof.KI.OutVal.lean ====
/-
  The value of one chunk of the result, pure. Chunk J of the subcore at L holds what the write-out carried: window J of
  the row scratch after the four gathers, which is gather J's payload — the table rows (from the shared copy) the words
  of row J of the index scratch name —, and those words are labels (2 (L 1) + (L 0), J, ·), each 0 or 1. So row r of
  the chunk, row 512 (2 (L 1) + (L 0)) + 128 J + r of the result, is the table row that label names: the lookup.
-/
import proofs.«202797_g70420283785446_cont_9to1_m_562_18_alg».proof.Proof.KI.Common
import proofs.«202797_g70420283785446_cont_9to1_m_562_18_alg».proof.Proof.KI.Labels
import proofs.«202797_g70420283785446_cont_9to1_m_562_18_alg».proof.Proof.KI.Value
import proofs.«202797_g70420283785446_cont_9to1_m_562_18_alg».proof.Proof.KI.Gather
import Idealize.ShloMosaic.Lib.Writes

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v0V" => (Memref.whole Cert.KernelIdeal.main_v0_scv : Memref Cert.KernelIdeal.sig Kind.scVector Space.hbm Cert.KernelIdeal.S32x4x128 EltTy.i32)
local notation "tbV" => (Memref.whole Cert.KernelIdeal.main_arg1_scv : Memref Cert.KernelIdeal.sig Kind.scVector Space.hbm Cert.KernelIdeal.S2x128 EltTy.f32)
local notation "v1V" => (Memref.whole Cert.KernelIdeal.main_v1_scv : Memref Cert.KernelIdeal.sig Kind.scVector Space.hbm Cert.KernelIdeal.S16384x128 EltTy.f32)
local notation "ixV" => (Memref.whole Cert.KernelIdeal.cc0_scratch0 : Memref Cert.KernelIdeal.sig Kind.scVector Space.vmem Cert.KernelIdeal.S4x128 EltTy.i32)
local notation "shV" => (Memref.whole Cert.KernelIdeal.cc0_scratch1 : Memref Cert.KernelIdeal.sig Kind.scVector Space.shared Cert.KernelIdeal.S2x128 EltTy.f32)
local notation "rwV" => (Memref.whole Cert.KernelIdeal.cc0_scratch2 : Memref Cert.KernelIdeal.sig Kind.scVector Space.vmem Cert.KernelIdeal.S512x128 EltTy.f32)

/-- Window j of the row scratch: rows 128 j onwards, 128 of them. -/
abbrev rwR0 : Rect S512x128 := Rect.unit (s := S512x128) ![0, 0] S128x128.size inb_S512x128_S128x128_0_0
abbrev rwR1 : Rect S512x128 := Rect.unit (s := S512x128) ![128, 0] S128x128.size inb_S512x128_S128x128_128_0
abbrev rwR2 : Rect S512x128 := Rect.unit (s := S512x128) ![256, 0] S128x128.size inb_S512x128_S128x128_256_0
abbrev rwR3 : Rect S512x128 := Rect.unit (s := S512x128) ![384, 0] S128x128.size inb_S512x128_S128x128_384_0
abbrev rwWin0 : Memref sig .scVector .vmem S128x128 .f32 := (rwV).slice rwR0 (fun _ => rfl)
abbrev rwWin1 : Memref sig .scVector .vmem S128x128 .f32 := (rwV).slice rwR1 (fun _ => rfl)
abbrev rwWin2 : Memref sig .scVector .vmem S128x128 .f32 := (rwV).slice rwR2 (fun _ => rfl)
abbrev rwWin3 : Memref sig .scVector .vmem S128x128 .f32 := (rwV).slice rwR3 (fun _ => rfl)
/-- The shared copy, whole, as the gathers slice it. -/
abbrev shAll : Memref sig .scVector .shared S2x128 .f32 := (shV).slice (Rect.unit (s := S2x128) ![0, 0] S2x128.size inb_S2x128_S2x128_0_0) (fun _ => rfl)
/-- The row scratch after the four gathers: window j holds g j. -/
abbrev rwW (fr : (rwV).view.ty.Contents (Elt F)) (g0 g1 g2 g3 : S128x128.Idx → Elt F .f32) : (rwV).view.ty.Contents (Elt F) :=
  (rwV).view.writes (Elt F) fr [⟨rwR3, g3⟩, ⟨rwR2, g2⟩, ⟨rwR1, g1⟩, ⟨rwR0, g0⟩]
/-- The four chunks of the result the subcore writes, as the kernel slices them. -/
abbrev outM0 (L : grid0.Coords) : Memref sig .scVector .hbm S128x128 .f32 := (v1V).slice (Rect.unit (s := S16384x128) (k0_off2 L 0#32) S128x128.size (k0_off2_inb L 0)) (fun _ => rfl)
abbrev outM1 (L : grid0.Coords) : Memref sig .scVector .hbm S128x128 .f32 := (v1V).slice (Rect.unit (s := S16384x128) (k0_off2 L 128#32) S128x128.size (k0_off2_inb L 1)) (fun _ => rfl)
abbrev outM2 (L : grid0.Coords) : Memref sig .scVector .hbm S128x128 .f32 := (v1V).slice (Rect.unit (s := S16384x128) (k0_off2 L 256#32) S128x128.size (k0_off2_inb L 2)) (fun _ => rfl)
abbrev outM3 (L : grid0.Coords) : Memref sig .scVector .hbm S128x128 .f32 := (v1V).slice (Rect.unit (s := S16384x128) (k0_off2 L 384#32) S128x128.size (k0_off2_inb L 3)) (fun _ => rfl)
theorem pts_out0 (d : Dev nD) (L : grid0.Coords) (f : Buf (Elt F) (v1Loc d)) : ((outM0 L).view.loc (V d (cV L) (jV L)) ↦[(outM0 L).view.set]{fullShare} f : sProp 𝕄) = v1Loc d ↦[outSet L 0]{fullShare} f := rfl
theorem pts_out1 (d : Dev nD) (L : grid0.Coords) (f : Buf (Elt F) (v1Loc d)) : ((outM1 L).view.loc (V d (cV L) (jV L)) ↦[(outM1 L).view.set]{fullShare} f : sProp 𝕄) = v1Loc d ↦[outSet L 1]{fullShare} f := rfl
theorem pts_out2 (d : Dev nD) (L : grid0.Coords) (f : Buf (Elt F) (v1Loc d)) : ((outM2 L).view.loc (V d (cV L) (jV L)) ↦[(outM2 L).view.set]{fullShare} f : sProp 𝕄) = v1Loc d ↦[outSet L 2]{fullShare} f := rfl
theorem pts_out3 (d : Dev nD) (L : grid0.Coords) (f : Buf (Elt F) (v1Loc d)) : ((outM3 L).view.loc (V d (cV L) (jV L)) ↦[(outM3 L).view.set]{fullShare} f : sProp 𝕄) = v1Loc d ↦[outSet L 3]{fullShare} f := rfl

/-- Where entry x of window j of the row scratch sits: row 128 j + x 0. -/
theorem rwR0_emb0 (x : S128x128.Idx) : ((rwR0).emb x 0 : ℕ) = 0 + (x 0).val := by rw [Rect.emb_apply]; simp
theorem rwR1_emb0 (x : S128x128.Idx) : ((rwR1).emb x 0 : ℕ) = 128 + (x 0).val := by rw [Rect.emb_apply]; simp
theorem rwR2_emb0 (x : S128x128.Idx) : ((rwR2).emb x 0 : ℕ) = 256 + (x 0).val := by rw [Rect.emb_apply]; simp
theorem rwR3_emb0 (x : S128x128.Idx) : ((rwR3).emb x 0 : ℕ) = 384 + (x 0).val := by rw [Rect.emb_apply]; simp
theorem rwR0_not_mem1 (x : S128x128.Idx) : (rwR0).emb x ∉ (Finset.univ : Finset rwR1.shape.Idx).map (rwR1).emb := by
  rw [Rect.map_emb_univ, Rect.mem_set_unit]
  intro h
  have h0 := h 0
  rw [rwR0_emb0] at h0
  have hx : (x 0).val < 128 := (x 0).isLt
  simp at h0
  all_goals omega
theorem rwR0_not_mem2 (x : S128x128.Idx) : (rwR0).emb x ∉ (Finset.univ : Finset rwR2.shape.Idx).map (rwR2).emb := by
  rw [Rect.map_emb_univ, Rect.mem_set_unit]
  intro h
  have h0 := h 0
  rw [rwR0_emb0] at h0
  have hx : (x 0).val < 128 := (x 0).isLt
  simp at h0
  all_goals omega
theorem rwR0_not_mem3 (x : S128x128.Idx) : (rwR0).emb x ∉ (Finset.univ : Finset rwR3.shape.Idx).map (rwR3).emb := by
  rw [Rect.map_emb_univ, Rect.mem_set_unit]
  intro h
  have h0 := h 0
  rw [rwR0_emb0] at h0
  have hx : (x 0).val < 128 := (x 0).isLt
  simp at h0
  all_goals omega
theorem rwR1_not_mem0 (x : S128x128.Idx) : (rwR1).emb x ∉ (Finset.univ : Finset rwR0.shape.Idx).map (rwR0).emb := by
  rw [Rect.map_emb_univ, Rect.mem_set_unit]
  intro h
  have h0 := h 0
  rw [rwR1_emb0] at h0
  have hx : (x 0).val < 128 := (x 0).isLt
  simp at h0
  all_goals omega
theorem rwR1_not_mem2 (x : S128x128.Idx) : (rwR1).emb x ∉ (Finset.univ : Finset rwR2.shape.Idx).map (rwR2).emb := by
  rw [Rect.map_emb_univ, Rect.mem_set_unit]
  intro h
  have h0 := h 0
  rw [rwR1_emb0] at h0
  have hx : (x 0).val < 128 := (x 0).isLt
  simp at h0
  all_goals omega
theorem rwR1_not_mem3 (x : S128x128.Idx) : (rwR1).emb x ∉ (Finset.univ : Finset rwR3.shape.Idx).map (rwR3).emb := by
  rw [Rect.map_emb_univ, Rect.mem_set_unit]
  intro h
  have h0 := h 0
  rw [rwR1_emb0] at h0
  have hx : (x 0).val < 128 := (x 0).isLt
  simp at h0
  all_goals omega
theorem rwR2_not_mem0 (x : S128x128.Idx) : (rwR2).emb x ∉ (Finset.univ : Finset rwR0.shape.Idx).map (rwR0).emb := by
  rw [Rect.map_emb_univ, Rect.mem_set_unit]
  intro h
  have h0 := h 0
  rw [rwR2_emb0] at h0
  have hx : (x 0).val < 128 := (x 0).isLt
  simp at h0
  all_goals omega
theorem rwR2_not_mem1 (x : S128x128.Idx) : (rwR2).emb x ∉ (Finset.univ : Finset rwR1.shape.Idx).map (rwR1).emb := by
  rw [Rect.map_emb_univ, Rect.mem_set_unit]
  intro h
  have h0 := h 0
  rw [rwR2_emb0] at h0
  have hx : (x 0).val < 128 := (x 0).isLt
  simp at h0
  all_goals omega
theorem rwR2_not_mem3 (x : S128x128.Idx) : (rwR2).emb x ∉ (Finset.univ : Finset rwR3.shape.Idx).map (rwR3).emb := by
  rw [Rect.map_emb_univ, Rect.mem_set_unit]
  intro h
  have h0 := h 0
  rw [rwR2_emb0] at h0
  have hx : (x 0).val < 128 := (x 0).isLt
  simp at h0
  all_goals omega
theorem rwR3_not_mem0 (x : S128x128.Idx) : (rwR3).emb x ∉ (Finset.univ : Finset rwR0.shape.Idx).map (rwR0).emb := by
  rw [Rect.map_emb_univ, Rect.mem_set_unit]
  intro h
  have h0 := h 0
  rw [rwR3_emb0] at h0
  have hx : (x 0).val < 128 := (x 0).isLt
  simp at h0
  all_goals omega
theorem rwR3_not_mem1 (x : S128x128.Idx) : (rwR3).emb x ∉ (Finset.univ : Finset rwR1.shape.Idx).map (rwR1).emb := by
  rw [Rect.map_emb_univ, Rect.mem_set_unit]
  intro h
  have h0 := h 0
  rw [rwR3_emb0] at h0
  have hx : (x 0).val < 128 := (x 0).isLt
  simp at h0
  all_goals omega
theorem rwR3_not_mem2 (x : S128x128.Idx) : (rwR3).emb x ∉ (Finset.univ : Finset rwR2.shape.Idx).map (rwR2).emb := by
  rw [Rect.map_emb_univ, Rect.mem_set_unit]
  intro h
  have h0 := h 0
  rw [rwR3_emb0] at h0
  have hx : (x 0).val < 128 := (x 0).isLt
  simp at h0
  all_goals omega

variable (fr : (rwV).view.ty.Contents (Elt F)) (g0 g1 g2 g3 : S128x128.Idx → Elt F .f32)

/-- Through window j the row scratch after the gathers reads gather j's payload. -/
theorem read_rwW3 : rwWin3.view.read (Elt F) (rwW fr g0 g1 g2 g3) = g3 := by
  funext x
  show (rwV).view.read (Elt F) ((rwV).view.writes (Elt F) fr [⟨rwR3, g3⟩, ⟨rwR2, g2⟩, ⟨rwR1, g1⟩, ⟨rwR0, g0⟩]) (rwR3.emb x) = g3 x
  exact View.read_writes_cons_emb _ _ rwR3 g3 _ x
theorem read_rwW2 : rwWin2.view.read (Elt F) (rwW fr g0 g1 g2 g3) = g2 := by
  funext x
  show (rwV).view.read (Elt F) ((rwV).view.writes (Elt F) fr [⟨rwR3, g3⟩, ⟨rwR2, g2⟩, ⟨rwR1, g1⟩, ⟨rwR0, g0⟩]) (rwR2.emb x) = g2 x
  rw [View.writes_cons, View.read_slice_write_of_not_mem rwR3 _ g3 Finset.univ (rwR2_not_mem3 x)]
  exact View.read_writes_cons_emb _ _ rwR2 g2 _ x
theorem read_rwW1 : rwWin1.view.read (Elt F) (rwW fr g0 g1 g2 g3) = g1 := by
  funext x
  show (rwV).view.read (Elt F) ((rwV).view.writes (Elt F) fr [⟨rwR3, g3⟩, ⟨rwR2, g2⟩, ⟨rwR1, g1⟩, ⟨rwR0, g0⟩]) (rwR1.emb x) = g1 x
  rw [View.writes_cons, View.read_slice_write_of_not_mem rwR3 _ g3 Finset.univ (rwR1_not_mem3 x),
    View.writes_cons, View.read_slice_write_of_not_mem rwR2 _ g2 Finset.univ (rwR1_not_mem2 x)]
  exact View.read_writes_cons_emb _ _ rwR1 g1 _ x
theorem read_rwW0 : rwWin0.view.read (Elt F) (rwW fr g0 g1 g2 g3) = g0 := by
  funext x
  show (rwV).view.read (Elt F) ((rwV).view.writes (Elt F) fr [⟨rwR3, g3⟩, ⟨rwR2, g2⟩, ⟨rwR1, g1⟩, ⟨rwR0, g0⟩]) (rwR0.emb x) = g0 x
  rw [View.writes_cons, View.read_slice_write_of_not_mem rwR3 _ g3 Finset.univ (rwR0_not_mem3 x),
    View.writes_cons, View.read_slice_write_of_not_mem rwR2 _ g2 Finset.univ (rwR0_not_mem2 x),
    View.writes_cons, View.read_slice_write_of_not_mem rwR1 _ g1 Finset.univ (rwR0_not_mem1 x)]
  exact View.read_writes_cons_emb _ _ rwR0 g0 _ x

variable (m : (ℓ : Loc nD τ sig) → Buf (Elt F) ℓ)

/-- The shared copy read whole is the table. -/
theorem read_shAll (d : Dev nD) (c : Fin τ.nSC) : shAll.view.read (Elt F) (tabS m d c) = (m (tbLoc d) : S2x128.Idx → Elt F .f32) := by
  funext x
  rw [View.read_apply]
  refine (cast_eq _ _).trans ?_
  unfold tabS
  refine congrArg (m (tbLoc d) : S2x128.Idx → Elt F .f32) (funext fun a => Fin.ext ?_)
  match a with
  | 0 => show ((Rect.unit (s := S2x128) ![0, 0] S2x128.size inb_S2x128_S2x128_0_0).emb x 0 : ℕ) = _; rw [Rect.emb_apply]; simp
  | 1 => show ((Rect.unit (s := S2x128) ![0, 0] S2x128.size inb_S2x128_S2x128_0_0).emb x 1 : ℕ) = _; rw [Rect.emb_apply]; simp

/-- An index of a whole rectangle is itself. -/
theorem whole_emb (y : S128x128.Idx) : (Rect.whole S128x128).emb y = y := by
  funext a
  apply Fin.ext
  rw [Rect.emb_apply]
  simp [Rect.whole]

/-- Under the precondition the words gather 0 reads are row numbers of the table. -/
theorem hin_of_pre0 (hpre : PreOK m) (d : Dev nD) (L : grid0.Coords) (fi : (ixV).view.ty.Contents (Elt F)) (p0 p1 p2 p3 : S128.Idx → Elt F .i32)
    (hp : p0 = (v0Row0 L).view.read (Elt F) (lab3 m d)) :
    ∀ x, (ixRow0.view.read (Elt F) (ixW fi p0 p1 p2 p3) x).toNat < S2x128.size gathers_S2x128_S128x128.axis := by
  intro x
  rw [read_ixW0, hp, v0Row0_read]
  exact toNat_lt_two (lab3_01 m hpre d _)

/-- Where entry (r, h) of chunk 0 sits in the result: row 512 (2 (L 1) + (L 0)) + 128 · 0 + r. -/
theorem outM0_emb (L : grid0.Coords) (r h : Fin 128) :
    (outM0 L).view.emb (ix2 r h) = ix2 (⟨512 * (2 * (L 1).val + (L 0).val) + 128 * 0 + r.val, by have := wid_lt L; have := r.isLt; omega⟩ : Fin 16384) h := by
  have e : k0_off2 L 0#32 = ![1024 * (L 1).val + 512 * (L 0).val + 128 * (0 : Fin 4).val, 0] := k0_off2_eq L 0
  funext a
  apply Fin.ext
  match a with
  | 0 =>
    show (k0_off2 L 0#32) 0 + 1 * r.val = 512 * (2 * (L 1).val + (L 0).val) + 128 * 0 + r.val
    rw [e]; simp; omega
  | 1 =>
    show (k0_off2 L 0#32) 1 + 1 * h.val = h.val
    rw [e]; simp

theorem out_val0 (hpre : PreOK m) (d : Dev nD) (L : grid0.Coords) (fi : (ixV).view.ty.Contents (Elt F)) (fr : (rwV).view.ty.Contents (Elt F))
    (p0 p1 p2 p3 : S128.Idx → Elt F .i32) (hp : p0 = (v0Row0 L).view.read (Elt F) (lab3 m d))
    (hin : ∀ x, (ixRow0.view.read (Elt F) (ixW fi p0 p1 p2 p3) x).toNat < S2x128.size gathers_S2x128_S128x128.axis)
    (hn : S128.numel = S128x128.size gathers_S2x128_S128x128.axis')
    (g0 g1 g2 g3 : S128x128.Idx → Elt F .f32)
    (hg : g0 = SparseCore.gatherPayload gathers_S2x128_S128x128 (shAll.view.read (Elt F) (tabS m d (cV L))) (SparseCore.rows (ixRow0.view.read (Elt F) (ixW fi p0 p1 p2 p3)) hn hin))
    (pay : S128x128.Idx → Elt F .f32) (hpay : pay = rwWin0.view.read (Elt F) (rwW fr g0 g1 g2 g3)) :
    ∀ i ∈ (outM0 L).view.set, (outM0 L).view.writes (Elt F) (m (v1Loc d)) [⟨Rect.whole S128x128, pay⟩] i = outG m d i := by
  intro i hi
  obtain ⟨y, -, rfl⟩ := Finset.mem_map.mp hi
  obtain ⟨r, h, rfl⟩ : ∃ (r : Fin 128) (h : Fin 128), y = ix2 r h := ⟨y 0, y 1, eq_ix2 y⟩
  have e1 : (outM0 L).view.writes (Elt F) (m (v1Loc d)) [⟨Rect.whole S128x128, pay⟩] ((outM0 L).view.emb (ix2 r h)) = pay (ix2 r h) := by
    have h1 := View.read_writes_cons_emb (outM0 L).view (m (v1Loc d)) (Rect.whole S128x128) pay [] (ix2 r h)
    rw [whole_emb, View.read_apply] at h1
    exact (cast_eq _ _).symm.trans h1
  have h01 : ∀ x, ixRow0.view.read (Elt F) (ixW fi p0 p1 p2 p3) x = (0#32 : BitVec 32) ∨ ixRow0.view.read (Elt F) (ixW fi p0 p1 p2 p3) x = (1#32 : BitVec 32) := by
    intro x; rw [read_ixW0, hp, v0Row0_read]; exact lab3_01 m hpre d _
  refine e1.trans ?_
  rw [hpay, read_rwW0, hg, read_shAll, gather_entry _ _ hn hin h01 r h, outM0_emb, read_ixW0, hp, v0Row0_read]
  exact (outG_apply m d ⟨2 * (L 1).val + (L 0).val, wid_lt L⟩ ⟨0, by decide⟩ r h).symm

/-- Under the precondition the words gather 1 reads are row numbers of the table. -/
theorem hin_of_pre1 (hpre : PreOK m) (d : Dev nD) (L : grid0.Coords) (fi : (ixV).view.ty.Contents (Elt F)) (p0 p1 p2 p3 : S128.Idx → Elt F .i32)
    (hp : p1 = (v0Row1 L).view.read (Elt F) (lab3 m d)) :
    ∀ x, (ixRow1.view.read (Elt F) (ixW fi p0 p1 p2 p3) x).toNat < S2x128.size gathers_S2x128_S128x128.axis := by
  intro x
  rw [read_ixW1, hp, v0Row1_read]
  exact toNat_lt_two (lab3_01 m hpre d _)

/-- Where entry (r, h) of chunk 1 sits in the result: row 512 (2 (L 1) + (L 0)) + 128 · 1 + r. -/
theorem outM1_emb (L : grid0.Coords) (r h : Fin 128) :
    (outM1 L).view.emb (ix2 r h) = ix2 (⟨512 * (2 * (L 1).val + (L 0).val) + 128 * 1 + r.val, by have := wid_lt L; have := r.isLt; omega⟩ : Fin 16384) h := by
  have e : k0_off2 L 128#32 = ![1024 * (L 1).val + 512 * (L 0).val + 128 * (1 : Fin 4).val, 0] := k0_off2_eq L 1
  funext a
  apply Fin.ext
  match a with
  | 0 =>
    show (k0_off2 L 128#32) 0 + 1 * r.val = 512 * (2 * (L 1).val + (L 0).val) + 128 * 1 + r.val
    rw [e]; simp; omega
  | 1 =>
    show (k0_off2 L 128#32) 1 + 1 * h.val = h.val
    rw [e]; simp

theorem out_val1 (hpre : PreOK m) (d : Dev nD) (L : grid0.Coords) (fi : (ixV).view.ty.Contents (Elt F)) (fr : (rwV).view.ty.Contents (Elt F))
    (p0 p1 p2 p3 : S128.Idx → Elt F .i32) (hp : p1 = (v0Row1 L).view.read (Elt F) (lab3 m d))
    (hin : ∀ x, (ixRow1.view.read (Elt F) (ixW fi p0 p1 p2 p3) x).toNat < S2x128.size gathers_S2x128_S128x128.axis)
    (hn : S128.numel = S128x128.size gathers_S2x128_S128x128.axis')
    (g0 g1 g2 g3 : S128x128.Idx → Elt F .f32)
    (hg : g1 = SparseCore.gatherPayload gathers_S2x128_S128x128 (shAll.view.read (Elt F) (tabS m d (cV L))) (SparseCore.rows (ixRow1.view.read (Elt F) (ixW fi p0 p1 p2 p3)) hn hin))
    (pay : S128x128.Idx → Elt F .f32) (hpay : pay = rwWin1.view.read (Elt F) (rwW fr g0 g1 g2 g3)) :
    ∀ i ∈ (outM1 L).view.set, (outM1 L).view.writes (Elt F) (m (v1Loc d)) [⟨Rect.whole S128x128, pay⟩] i = outG m d i := by
  intro i hi
  obtain ⟨y, -, rfl⟩ := Finset.mem_map.mp hi
  obtain ⟨r, h, rfl⟩ : ∃ (r : Fin 128) (h : Fin 128), y = ix2 r h := ⟨y 0, y 1, eq_ix2 y⟩
  have e1 : (outM1 L).view.writes (Elt F) (m (v1Loc d)) [⟨Rect.whole S128x128, pay⟩] ((outM1 L).view.emb (ix2 r h)) = pay (ix2 r h) := by
    have h1 := View.read_writes_cons_emb (outM1 L).view (m (v1Loc d)) (Rect.whole S128x128) pay [] (ix2 r h)
    rw [whole_emb, View.read_apply] at h1
    exact (cast_eq _ _).symm.trans h1
  have h01 : ∀ x, ixRow1.view.read (Elt F) (ixW fi p0 p1 p2 p3) x = (0#32 : BitVec 32) ∨ ixRow1.view.read (Elt F) (ixW fi p0 p1 p2 p3) x = (1#32 : BitVec 32) := by
    intro x; rw [read_ixW1, hp, v0Row1_read]; exact lab3_01 m hpre d _
  refine e1.trans ?_
  rw [hpay, read_rwW1, hg, read_shAll, gather_entry _ _ hn hin h01 r h, outM1_emb, read_ixW1, hp, v0Row1_read]
  exact (outG_apply m d ⟨2 * (L 1).val + (L 0).val, wid_lt L⟩ ⟨1, by decide⟩ r h).symm

/-- Under the precondition the words gather 2 reads are row numbers of the table. -/
theorem hin_of_pre2 (hpre : PreOK m) (d : Dev nD) (L : grid0.Coords) (fi : (ixV).view.ty.Contents (Elt F)) (p0 p1 p2 p3 : S128.Idx → Elt F .i32)
    (hp : p2 = (v0Row2 L).view.read (Elt F) (lab3 m d)) :
    ∀ x, (ixRow2.view.read (Elt F) (ixW fi p0 p1 p2 p3) x).toNat < S2x128.size gathers_S2x128_S128x128.axis := by
  intro x
  rw [read_ixW2, hp, v0Row2_read]
  exact toNat_lt_two (lab3_01 m hpre d _)

/-- Where entry (r, h) of chunk 2 sits in the result: row 512 (2 (L 1) + (L 0)) + 128 · 2 + r. -/
theorem outM2_emb (L : grid0.Coords) (r h : Fin 128) :
    (outM2 L).view.emb (ix2 r h) = ix2 (⟨512 * (2 * (L 1).val + (L 0).val) + 128 * 2 + r.val, by have := wid_lt L; have := r.isLt; omega⟩ : Fin 16384) h := by
  have e : k0_off2 L 256#32 = ![1024 * (L 1).val + 512 * (L 0).val + 128 * (2 : Fin 4).val, 0] := k0_off2_eq L 2
  funext a
  apply Fin.ext
  match a with
  | 0 =>
    show (k0_off2 L 256#32) 0 + 1 * r.val = 512 * (2 * (L 1).val + (L 0).val) + 128 * 2 + r.val
    rw [e]; simp; omega
  | 1 =>
    show (k0_off2 L 256#32) 1 + 1 * h.val = h.val
    rw [e]; simp

theorem out_val2 (hpre : PreOK m) (d : Dev nD) (L : grid0.Coords) (fi : (ixV).view.ty.Contents (Elt F)) (fr : (rwV).view.ty.Contents (Elt F))
    (p0 p1 p2 p3 : S128.Idx → Elt F .i32) (hp : p2 = (v0Row2 L).view.read (Elt F) (lab3 m d))
    (hin : ∀ x, (ixRow2.view.read (Elt F) (ixW fi p0 p1 p2 p3) x).toNat < S2x128.size gathers_S2x128_S128x128.axis)
    (hn : S128.numel = S128x128.size gathers_S2x128_S128x128.axis')
    (g0 g1 g2 g3 : S128x128.Idx → Elt F .f32)
    (hg : g2 = SparseCore.gatherPayload gathers_S2x128_S128x128 (shAll.view.read (Elt F) (tabS m d (cV L))) (SparseCore.rows (ixRow2.view.read (Elt F) (ixW fi p0 p1 p2 p3)) hn hin))
    (pay : S128x128.Idx → Elt F .f32) (hpay : pay = rwWin2.view.read (Elt F) (rwW fr g0 g1 g2 g3)) :
    ∀ i ∈ (outM2 L).view.set, (outM2 L).view.writes (Elt F) (m (v1Loc d)) [⟨Rect.whole S128x128, pay⟩] i = outG m d i := by
  intro i hi
  obtain ⟨y, -, rfl⟩ := Finset.mem_map.mp hi
  obtain ⟨r, h, rfl⟩ : ∃ (r : Fin 128) (h : Fin 128), y = ix2 r h := ⟨y 0, y 1, eq_ix2 y⟩
  have e1 : (outM2 L).view.writes (Elt F) (m (v1Loc d)) [⟨Rect.whole S128x128, pay⟩] ((outM2 L).view.emb (ix2 r h)) = pay (ix2 r h) := by
    have h1 := View.read_writes_cons_emb (outM2 L).view (m (v1Loc d)) (Rect.whole S128x128) pay [] (ix2 r h)
    rw [whole_emb, View.read_apply] at h1
    exact (cast_eq _ _).symm.trans h1
  have h01 : ∀ x, ixRow2.view.read (Elt F) (ixW fi p0 p1 p2 p3) x = (0#32 : BitVec 32) ∨ ixRow2.view.read (Elt F) (ixW fi p0 p1 p2 p3) x = (1#32 : BitVec 32) := by
    intro x; rw [read_ixW2, hp, v0Row2_read]; exact lab3_01 m hpre d _
  refine e1.trans ?_
  rw [hpay, read_rwW2, hg, read_shAll, gather_entry _ _ hn hin h01 r h, outM2_emb, read_ixW2, hp, v0Row2_read]
  exact (outG_apply m d ⟨2 * (L 1).val + (L 0).val, wid_lt L⟩ ⟨2, by decide⟩ r h).symm

/-- Under the precondition the words gather 3 reads are row numbers of the table. -/
theorem hin_of_pre3 (hpre : PreOK m) (d : Dev nD) (L : grid0.Coords) (fi : (ixV).view.ty.Contents (Elt F)) (p0 p1 p2 p3 : S128.Idx → Elt F .i32)
    (hp : p3 = (v0Row3 L).view.read (Elt F) (lab3 m d)) :
    ∀ x, (ixRow3.view.read (Elt F) (ixW fi p0 p1 p2 p3) x).toNat < S2x128.size gathers_S2x128_S128x128.axis := by
  intro x
  rw [read_ixW3, hp, v0Row3_read]
  exact toNat_lt_two (lab3_01 m hpre d _)

/-- Where entry (r, h) of chunk 3 sits in the result: row 512 (2 (L 1) + (L 0)) + 128 · 3 + r. -/
theorem outM3_emb (L : grid0.Coords) (r h : Fin 128) :
    (outM3 L).view.emb (ix2 r h) = ix2 (⟨512 * (2 * (L 1).val + (L 0).val) + 128 * 3 + r.val, by have := wid_lt L; have := r.isLt; omega⟩ : Fin 16384) h := by
  have e : k0_off2 L 384#32 = ![1024 * (L 1).val + 512 * (L 0).val + 128 * (3 : Fin 4).val, 0] := k0_off2_eq L 3
  funext a
  apply Fin.ext
  match a with
  | 0 =>
    show (k0_off2 L 384#32) 0 + 1 * r.val = 512 * (2 * (L 1).val + (L 0).val) + 128 * 3 + r.val
    rw [e]; simp; omega
  | 1 =>
    show (k0_off2 L 384#32) 1 + 1 * h.val = h.val
    rw [e]; simp

theorem out_val3 (hpre : PreOK m) (d : Dev nD) (L : grid0.Coords) (fi : (ixV).view.ty.Contents (Elt F)) (fr : (rwV).view.ty.Contents (Elt F))
    (p0 p1 p2 p3 : S128.Idx → Elt F .i32) (hp : p3 = (v0Row3 L).view.read (Elt F) (lab3 m d))
    (hin : ∀ x, (ixRow3.view.read (Elt F) (ixW fi p0 p1 p2 p3) x).toNat < S2x128.size gathers_S2x128_S128x128.axis)
    (hn : S128.numel = S128x128.size gathers_S2x128_S128x128.axis')
    (g0 g1 g2 g3 : S128x128.Idx → Elt F .f32)
    (hg : g3 = SparseCore.gatherPayload gathers_S2x128_S128x128 (shAll.view.read (Elt F) (tabS m d (cV L))) (SparseCore.rows (ixRow3.view.read (Elt F) (ixW fi p0 p1 p2 p3)) hn hin))
    (pay : S128x128.Idx → Elt F .f32) (hpay : pay = rwWin3.view.read (Elt F) (rwW fr g0 g1 g2 g3)) :
    ∀ i ∈ (outM3 L).view.set, (outM3 L).view.writes (Elt F) (m (v1Loc d)) [⟨Rect.whole S128x128, pay⟩] i = outG m d i := by
  intro i hi
  obtain ⟨y, -, rfl⟩ := Finset.mem_map.mp hi
  obtain ⟨r, h, rfl⟩ : ∃ (r : Fin 128) (h : Fin 128), y = ix2 r h := ⟨y 0, y 1, eq_ix2 y⟩
  have e1 : (outM3 L).view.writes (Elt F) (m (v1Loc d)) [⟨Rect.whole S128x128, pay⟩] ((outM3 L).view.emb (ix2 r h)) = pay (ix2 r h) := by
    have h1 := View.read_writes_cons_emb (outM3 L).view (m (v1Loc d)) (Rect.whole S128x128) pay [] (ix2 r h)
    rw [whole_emb, View.read_apply] at h1
    exact (cast_eq _ _).symm.trans h1
  have h01 : ∀ x, ixRow3.view.read (Elt F) (ixW fi p0 p1 p2 p3) x = (0#32 : BitVec 32) ∨ ixRow3.view.read (Elt F) (ixW fi p0 p1 p2 p3) x = (1#32 : BitVec 32) := by
    intro x; rw [read_ixW3, hp, v0Row3_read]; exact lab3_01 m hpre d _
  refine e1.trans ?_
  rw [hpay, read_rwW3, hg, read_shAll, gather_entry _ _ hn hin h01 r h, outM3_emb, read_ixW3, hp, v0Row3_read]
  exact (outG_apply m d ⟨2 * (L 1).val + (L 0).val, wid_lt L⟩ ⟨3, by decide⟩ r h).symm

end Cert.Proof.KI

end
-- ==== Proof.KI.Body.lean ====
/-
  The task of one vector subcore of the embedding lookup, at a symbolic grid point, and the launch theorem's obligation
  for it.

  The subcore holds read tokens of the reshaped labels and of the table, its four chunks of the result and — subcore 0 —
  its SparseCore's shared buffer. It starts four copies of 128 labels each into the rows of its index scratch: the
  labels are read by four transfers at once, so its token of them is cut into four read tokens, one per transfer.
  Subcore 0 copies the table into the shared buffer, which then holds the table; it cuts that into sixteen read tokens
  and a remainder and, arriving at the barrier, pays each subcore's round its token. Past the barrier every subcore
  holds its own token of the shared copy and cuts it into four, one per gather. Gather j reads row j of the index
  scratch as offsets: those words are labels, each 0 or 1, so they name rows of the two-row table. Each gathered
  window is written out to its chunk of the result, which then holds, row by row, the table row its label names.
  At the end every token is joined back, the two scratch buffers are whole again and all thirteen semaphores are at zero.
-/
import proofs.«202797_g70420283785446_cont_9to1_m_562_18_alg».proof.Proof.KI.Common
import proofs.«202797_g70420283785446_cont_9to1_m_562_18_alg».proof.Proof.KI.OutVal

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v0V" => (Memref.whole Cert.KernelIdeal.main_v0_scv : Memref Cert.KernelIdeal.sig Kind.scVector Space.hbm Cert.KernelIdeal.S32x4x128 EltTy.i32)
local notation "tbV" => (Memref.whole Cert.KernelIdeal.main_arg1_scv : Memref Cert.KernelIdeal.sig Kind.scVector Space.hbm Cert.KernelIdeal.S2x128 EltTy.f32)
local notation "v1V" => (Memref.whole Cert.KernelIdeal.main_v1_scv : Memref Cert.KernelIdeal.sig Kind.scVector Space.hbm Cert.KernelIdeal.S16384x128 EltTy.f32)
local notation "ixV" => (Memref.whole Cert.KernelIdeal.cc0_scratch0 : Memref Cert.KernelIdeal.sig Kind.scVector Space.vmem Cert.KernelIdeal.S4x128 EltTy.i32)
local notation "shV" => (Memref.whole Cert.KernelIdeal.cc0_scratch1 : Memref Cert.KernelIdeal.sig Kind.scVector Space.shared Cert.KernelIdeal.S2x128 EltTy.f32)
local notation "rwV" => (Memref.whole Cert.KernelIdeal.cc0_scratch2 : Memref Cert.KernelIdeal.sig Kind.scVector Space.vmem Cert.KernelIdeal.S512x128 EltTy.f32)

variable (m : (ℓ : Loc nD τ sig) → Buf (Elt F) ℓ)

/-- A semaphore of the subcore at `(c, i)` of device `d`, as a cell. -/
abbrev dcell (d : Dev nD) (c : Fin τ.nSC) (i : Fin τ.nSub) (s : DmaSems sig S_) : GSem nD τ sig := (V d c i, .dma s.sem)

theorem dcell_ne {d : Dev nD} {c : Fin τ.nSC} {i : Fin τ.nSub} {a b : DmaSems sig S_} (h : (SemLoc.dma a.sem : SemLoc sig) ≠ .dma b.sem) :
    dcell d c i a ≠ dcell d c i b := fun e => h (Prod.mk.inj e).2
theorem dcell_mem {d : Dev nD} {c : Fin τ.nSC} {i : Fin τ.nSub} {a : DmaSems sig S_} (h : (SemLoc.dma a.sem : SemLoc sig).isScoped .scVector = true) :
    dcell d c i a ∈ ownCells (V d c i) := (mem_ownCells (g := dcell d c i a)).mpr ⟨rfl, h⟩

/-- The subcore's thirteen transfer semaphores at zero, and its other cells. -/
theorem ownSems0_V (d : Dev nD) (c : Fin τ.nSC) (i : Fin τ.nSub) :
    (ownSems0 (V d c i) : sProp 𝕄)
      = iprop(semVal (dcell d c i cc0_scratch3) 0 ∗ semVal (dcell d c i cc0_scratch4) 0 ∗ semVal (dcell d c i cc0_scratch5) 0 ∗ semVal (dcell d c i cc0_scratch6) 0 ∗ semVal (dcell d c i cc0_scratch7) 0 ∗ semVal (dcell d c i cc0_scratch8) 0 ∗ semVal (dcell d c i cc0_scratch9) 0 ∗ semVal (dcell d c i cc0_scratch10) 0 ∗ semVal (dcell d c i cc0_scratch11) 0 ∗ semVal (dcell d c i cc0_scratch12) 0 ∗ semVal (dcell d c i cc0_scratch13) 0 ∗ semVal (dcell d c i cc0_scratch14) 0 ∗ semVal (dcell d c i cc0_scoped0) 0
          ∗ bigSep ((((((((((((((ownCells (V d c i)).erase (dcell d c i cc0_scratch3)).erase (dcell d c i cc0_scratch4)).erase (dcell d c i cc0_scratch5)).erase (dcell d c i cc0_scratch6)).erase (dcell d c i cc0_scratch7)).erase (dcell d c i cc0_scratch8)).erase (dcell d c i cc0_scratch9)).erase (dcell d c i cc0_scratch10)).erase (dcell d c i cc0_scratch11)).erase (dcell d c i cc0_scratch12)).erase (dcell d c i cc0_scratch13)).erase (dcell d c i cc0_scratch14)).erase (dcell d c i cc0_scoped0)) fun g => semVal g 0) := by
  unfold SparseCore.Cfg.ownSems0
  rw [SparseCore.bigSep_erase' (dcell_mem (a := cc0_scratch3) (by decide)),
    SparseCore.bigSep_erase' (Finset.mem_erase.mpr ⟨dcell_ne (a := cc0_scratch4) (b := cc0_scratch3) (by decide), dcell_mem (a := cc0_scratch4) (by decide)⟩),
    SparseCore.bigSep_erase' (Finset.mem_erase.mpr ⟨dcell_ne (a := cc0_scratch5) (b := cc0_scratch4) (by decide), Finset.mem_erase.mpr ⟨dcell_ne (a := cc0_scratch5) (b := cc0_scratch3) (by decide), dcell_mem (a := cc0_scratch5) (by decide)⟩⟩),
    SparseCore.bigSep_erase' (Finset.mem_erase.mpr ⟨dcell_ne (a := cc0_scratch6) (b := cc0_scratch5) (by decide), Finset.mem_erase.mpr ⟨dcell_ne (a := cc0_scratch6) (b := cc0_scratch4) (by decide), Finset.mem_erase.mpr ⟨dcell_ne (a := cc0_scratch6) (b := cc0_scratch3) (by decide), dcell_mem (a := cc0_scratch6) (by decide)⟩⟩⟩),
    SparseCore.bigSep_erase' (Finset.mem_erase.mpr ⟨dcell_ne (a := cc0_scratch7) (b := cc0_scratch6) (by decide), Finset.mem_erase.mpr ⟨dcell_ne (a := cc0_scratch7) (b := cc0_scratch5) (by decide), Finset.mem_erase.mpr ⟨dcell_ne (a := cc0_scratch7) (b := cc0_scratch4) (by decide), Finset.mem_erase.mpr ⟨dcell_ne (a := cc0_scratch7) (b := cc0_scratch3) (by decide), dcell_mem (a := cc0_scratch7) (by decide)⟩⟩⟩⟩),
    SparseCore.bigSep_erase' (Finset.mem_erase.mpr ⟨dcell_ne (a := cc0_scratch8) (b := cc0_scratch7) (by decide), Finset.mem_erase.mpr ⟨dcell_ne (a := cc0_scratch8) (b := cc0_scratch6) (by decide), Finset.mem_erase.mpr ⟨dcell_ne (a := cc0_scratch8) (b := cc0_scratch5) (by decide), Finset.mem_erase.mpr ⟨dcell_ne (a := cc0_scratch8) (b := cc0_scratch4) (by decide), Finset.mem_erase.mpr ⟨dcell_ne (a := cc0_scratch8) (b := cc0_scratch3) (by decide), dcell_mem (a := cc0_scratch8) (by decide)⟩⟩⟩⟩⟩),
    SparseCore.bigSep_erase' (Finset.mem_erase.mpr ⟨dcell_ne (a := cc0_scratch9) (b := cc0_scratch8) (by decide), Finset.mem_erase.mpr ⟨dcell_ne (a := cc0_scratch9) (b := cc0_scratch7) (by decide), Finset.mem_erase.mpr ⟨dcell_ne (a := cc0_scratch9) (b := cc0_scratch6) (by decide), Finset.mem_erase.mpr ⟨dcell_ne (a := cc0_scratch9) (b := cc0_scratch5) (by decide), Finset.mem_erase.mpr ⟨dcell_ne (a := cc0_scratch9) (b := cc0_scratch4) (by decide), Finset.mem_erase.mpr ⟨dcell_ne (a := cc0_scratch9) (b := cc0_scratch3) (by decide), dcell_mem (a := cc0_scratch9) (by decide)⟩⟩⟩⟩⟩⟩),
    SparseCore.bigSep_erase' (Finset.mem_erase.mpr ⟨dcell_ne (a := cc0_scratch10) (b := cc0_scratch9) (by decide), Finset.mem_erase.mpr ⟨dcell_ne (a := cc0_scratch10) (b := cc0_scratch8) (by decide), Finset.mem_erase.mpr ⟨dcell_ne (a := cc0_scratch10) (b := cc0_scratch7) (by decide), Finset.mem_erase.mpr ⟨dcell_ne (a := cc0_scratch10) (b := cc0_scratch6) (by decide), Finset.mem_erase.mpr ⟨dcell_ne (a := cc0_scratch10) (b := cc0_scratch5) (by decide), Finset.mem_erase.mpr ⟨dcell_ne (a := cc0_scratch10) (b := cc0_scratch4) (by decide), Finset.mem_erase.mpr ⟨dcell_ne (a := cc0_scratch10) (b := cc0_scratch3) (by decide), dcell_mem (a := cc0_scratch10) (by decide)⟩⟩⟩⟩⟩⟩⟩),
    SparseCore.bigSep_erase' (Finset.mem_erase.mpr ⟨dcell_ne (a := cc0_scratch11) (b := cc0_scratch10) (by decide), Finset.mem_erase.mpr ⟨dcell_ne (a := cc0_scratch11) (b := cc0_scratch9) (by decide), Finset.mem_erase.mpr ⟨dcell_ne (a := cc0_scratch11) (b := cc0_scratch8) (by decide), Finset.mem_erase.mpr ⟨dcell_ne (a := cc0_scratch11) (b := cc0_scratch7) (by decide), Finset.mem_erase.mpr ⟨dcell_ne (a := cc0_scratch11) (b := cc0_scratch6) (by decide), Finset.mem_erase.mpr ⟨dcell_ne (a := cc0_scratch11) (b := cc0_scratch5) (by decide), Finset.mem_erase.mpr ⟨dcell_ne (a := cc0_scratch11) (b := cc0_scratch4) (by decide), Finset.mem_erase.mpr ⟨dcell_ne (a := cc0_scratch11) (b := cc0_scratch3) (by decide), dcell_mem (a := cc0_scratch11) (by decide)⟩⟩⟩⟩⟩⟩⟩⟩),
    SparseCore.bigSep_erase' (Finset.mem_erase.mpr ⟨dcell_ne (a := cc0_scratch12) (b := cc0_scratch11) (by decide), Finset.mem_erase.mpr ⟨dcell_ne (a := cc0_scratch12) (b := cc0_scratch10) (by decide), Finset.mem_erase.mpr ⟨dcell_ne (a := cc0_scratch12) (b := cc0_scratch9) (by decide), Finset.mem_erase.mpr ⟨dcell_ne (a := cc0_scratch12) (b := cc0_scratch8) (by decide), Finset.mem_erase.mpr ⟨dcell_ne (a := cc0_scratch12) (b := cc0_scratch7) (by decide), Finset.mem_erase.mpr ⟨dcell_ne (a := cc0_scratch12) (b := cc0_scratch6) (by decide), Finset.mem_erase.mpr ⟨dcell_ne (a := cc0_scratch12) (b := cc0_scratch5) (by decide), Finset.mem_erase.mpr ⟨dcell_ne (a := cc0_scratch12) (b := cc0_scratch4) (by decide), Finset.mem_erase.mpr ⟨dcell_ne (a := cc0_scratch12) (b := cc0_scratch3) (by decide), dcell_mem (a := cc0_scratch12) (by decide)⟩⟩⟩⟩⟩⟩⟩⟩⟩),
    SparseCore.bigSep_erase' (Finset.mem_erase.mpr ⟨dcell_ne (a := cc0_scratch13) (b := cc0_scratch12) (by decide), Finset.mem_erase.mpr ⟨dcell_ne (a := cc0_scratch13) (b := cc0_scratch11) (by decide), Finset.mem_erase.mpr ⟨dcell_ne (a := cc0_scratch13) (b := cc0_scratch10) (by decide), Finset.mem_erase.mpr ⟨dcell_ne (a := cc0_scratch13) (b := cc0_scratch9) (by decide), Finset.mem_erase.mpr ⟨dcell_ne (a := cc0_scratch13) (b := cc0_scratch8) (by decide), Finset.mem_erase.mpr ⟨dcell_ne (a := cc0_scratch13) (b := cc0_scratch7) (by decide), Finset.mem_erase.mpr ⟨dcell_ne (a := cc0_scratch13) (b := cc0_scratch6) (by decide), Finset.mem_erase.mpr ⟨dcell_ne (a := cc0_scratch13) (b := cc0_scratch5) (by decide), Finset.mem_erase.mpr ⟨dcell_ne (a := cc0_scratch13) (b := cc0_scratch4) (by decide), Finset.mem_erase.mpr ⟨dcell_ne (a := cc0_scratch13) (b := cc0_scratch3) (by decide), dcell_mem (a := cc0_scratch13) (by decide)⟩⟩⟩⟩⟩⟩⟩⟩⟩⟩),
    SparseCore.bigSep_erase' (Finset.mem_erase.mpr ⟨dcell_ne (a := cc0_scratch14) (b := cc0_scratch13) (by decide), Finset.mem_erase.mpr ⟨dcell_ne (a := cc0_scratch14) (b := cc0_scratch12) (by decide), Finset.mem_erase.mpr ⟨dcell_ne (a := cc0_scratch14) (b := cc0_scratch11) (by decide), Finset.mem_erase.mpr ⟨dcell_ne (a := cc0_scratch14) (b := cc0_scratch10) (by decide), Finset.mem_erase.mpr ⟨dcell_ne (a := cc0_scratch14) (b := cc0_scratch9) (by decide), Finset.mem_erase.mpr ⟨dcell_ne (a := cc0_scratch14) (b := cc0_scratch8) (by decide), Finset.mem_erase.mpr ⟨dcell_ne (a := cc0_scratch14) (b := cc0_scratch7) (by decide), Finset.mem_erase.mpr ⟨dcell_ne (a := cc0_scratch14) (b := cc0_scratch6) (by decide), Finset.mem_erase.mpr ⟨dcell_ne (a := cc0_scratch14) (b := cc0_scratch5) (by decide), Finset.mem_erase.mpr ⟨dcell_ne (a := cc0_scratch14) (b := cc0_scratch4) (by decide), Finset.mem_erase.mpr ⟨dcell_ne (a := cc0_scratch14) (b := cc0_scratch3) (by decide), dcell_mem (a := cc0_scratch14) (by decide)⟩⟩⟩⟩⟩⟩⟩⟩⟩⟩⟩),
    SparseCore.bigSep_erase' (Finset.mem_erase.mpr ⟨dcell_ne (a := cc0_scoped0) (b := cc0_scratch14) (by decide), Finset.mem_erase.mpr ⟨dcell_ne (a := cc0_scoped0) (b := cc0_scratch13) (by decide), Finset.mem_erase.mpr ⟨dcell_ne (a := cc0_scoped0) (b := cc0_scratch12) (by decide), Finset.mem_erase.mpr ⟨dcell_ne (a := cc0_scoped0) (b := cc0_scratch11) (by decide), Finset.mem_erase.mpr ⟨dcell_ne (a := cc0_scoped0) (b := cc0_scratch10) (by decide), Finset.mem_erase.mpr ⟨dcell_ne (a := cc0_scoped0) (b := cc0_scratch9) (by decide), Finset.mem_erase.mpr ⟨dcell_ne (a := cc0_scoped0) (b := cc0_scratch8) (by decide), Finset.mem_erase.mpr ⟨dcell_ne (a := cc0_scoped0) (b := cc0_scratch7) (by decide), Finset.mem_erase.mpr ⟨dcell_ne (a := cc0_scoped0) (b := cc0_scratch6) (by decide), Finset.mem_erase.mpr ⟨dcell_ne (a := cc0_scoped0) (b := cc0_scratch5) (by decide), Finset.mem_erase.mpr ⟨dcell_ne (a := cc0_scoped0) (b := cc0_scratch4) (by decide), Finset.mem_erase.mpr ⟨dcell_ne (a := cc0_scoped0) (b := cc0_scratch3) (by decide), dcell_mem (a := cc0_scoped0) (by decide)⟩⟩⟩⟩⟩⟩⟩⟩⟩⟩⟩⟩)]

/-- The two scratch buffers of the subcore are among its own: they are them, at some contents, and the rest. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch2 ↦{fullShare} f)
          ∗ bigSep (((ownRefs (τ := τ) (.scVector c i)).erase ((Proc.scVector c i).devRef cc0_scratch0)).erase
              ((Proc.scVector c i).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch2 : Ref sig .scVector) ≠ cc0_scratch0 by decide),
    SparseCore.Cfg.mem_ownRefs_of_owner (p := Proc.scVector c i) (b := (Proc.scVector c i).devRef cc0_scratch2) rfl⟩)]

/-- The guard of the table copy: the word the kernel tests is 1 exactly on subcore 0. -/
theorem guard_iff : ∀ x : Fin (grid0.bound 1),
    (Scalar.cmpi .ne (Scalar.extui (Scalar.cmpi .eq (BitVec.ofNat 32 x.val) 0#32) : BitVec 32) 0#32 = 1#1) ↔ x.val = 0 := by decide

/-- A separating conjunction over four indices, written out. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A read share as four read tokens and what is left. -/
theorem toks4 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 4} f) ∗ (ℓ ↦[S]{Transfers.shareTok q 4 0} f) ∗ (ℓ ↦[S]{Transfers.shareTok q 4 1} f)
      ∗ (ℓ ↦[S]{Transfers.shareTok q 4 2} f) ∗ (ℓ ↦[S]{Transfers.shareTok q 4 3} f)) := by
  have h := Transfers.pointsTo_toks (Lvl := ℕ) (Name := ℕ) (U := UU) (Ix := HIx 1) (ℓ := ℓ) (S := S) (f := f) q 4
  rw [bigSep_fin4] at h; exact h

variable [FloatOps F]

section Tile
variable (d : Dev nD) (L : grid0.Coords)

theorem pts_v0 (q : PosShare TreeShare) (f : Buf (Elt F) (v0Loc d)) :
    ((v0V).view.loc (V d (cV L) (jV L)) ↦{q} f : sProp 𝕄) = v0Loc d ↦{q} f := rfl
theorem pts_tb (q : PosShare TreeShare) (f : Buf (Elt F) (tbLoc d)) :
    ((tbV).view.loc (V d (cV L) (jV L)) ↦{q} f : sProp 𝕄) = tbLoc d ↦{q} f := rfl
theorem pts_sh (q : PosShare TreeShare) (f : Buf (Elt F) (shLoc d (cV L))) :
    ((shV).view.loc (V d (cV L) (jV L)) ↦{q} f : sProp 𝕄) = shLoc d (cV L) ↦{q} f := rfl
theorem pts_ix (f : Buf (Elt F) ((V d (cV L) (jV L)).loc cc0_scratch0)) :
    ((ixV).view.loc (V d (cV L) (jV L)) ↦{fullShare} f : sProp 𝕄) = (V d (cV L) (jV L)).loc cc0_scratch0 ↦{fullShare} f := rfl
theorem pts_rw (f : Buf (Elt F) ((V d (cV L) (jV L)).loc cc0_scratch2)) :
    ((rwV).view.loc (V d (cV L) (jV L)) ↦{fullShare} f : sProp 𝕄) = (V d (cV L) (jV L)).loc cc0_scratch2 ↦{fullShare} f := rfl

/-- The offsets gather 0 reads are in range: row 0 of the index scratch holds labels, each the word 0 or 1. -/
theorem offs_inb0 (hpre : PreOK m) (fi : (ixV).view.ty.Contents (Elt F)) (p0 p1 p2 p3 : S128.Idx → Elt F .i32) (hp : p0 = (v0Row0 L).view.read (Elt F) (lab3 m d)) :
    ∀ x, (ixRow0.view.read (Elt F) (ixW fi p0 p1 p2 p3) x).toNat < S2x128.size gathers_S2x128_S128x128.axis := fun x => by
  subst hp; rw [read_ixW0, v0Row0_read]; exact toNat_lt_two (lab3_01 m hpre d _)
/-- The offsets gather 1 reads are in range: row 1 of the index scratch holds labels, each the word 0 or 1. -/
theorem offs_inb1 (hpre : PreOK m) (fi : (ixV).view.ty.Contents (Elt F)) (p0 p1 p2 p3 : S128.Idx → Elt F .i32) (hp : p1 = (v0Row1 L).view.read (Elt F) (lab3 m d)) :
    ∀ x, (ixRow1.view.read (Elt F) (ixW fi p0 p1 p2 p3) x).toNat < S2x128.size gathers_S2x128_S128x128.axis := fun x => by
  subst hp; rw [read_ixW1, v0Row1_read]; exact toNat_lt_two (lab3_01 m hpre d _)
/-- The offsets gather 2 reads are in range: row 2 of the index scratch holds labels, each the word 0 or 1. -/
theorem offs_inb2 (hpre : PreOK m) (fi : (ixV).view.ty.Contents (Elt F)) (p0 p1 p2 p3 : S128.Idx → Elt F .i32) (hp : p2 = (v0Row2 L).view.read (Elt F) (lab3 m d)) :
    ∀ x, (ixRow2.view.read (Elt F) (ixW fi p0 p1 p2 p3) x).toNat < S2x128.size gathers_S2x128_S128x128.axis := fun x => by
  subst hp; rw [read_ixW2, v0Row2_read]; exact toNat_lt_two (lab3_01 m hpre d _)
/-- The offsets gather 3 reads are in range: row 3 of the index scratch holds labels, each the word 0 or 1. -/
theorem offs_inb3 (hpre : PreOK m) (fi : (ixV).view.ty.Contents (Elt F)) (p0 p1 p2 p3 : S128.Idx → Elt F .i32) (hp : p3 = (v0Row3 L).view.read (Elt F) (lab3 m d)) :
    ∀ x, (ixRow3.view.read (Elt F) (ixW fi p0 p1 p2 p3) x).toNat < S2x128.size gathers_S2x128_S128x128.axis := fun x => by
  subst hp; rw [read_ixW3, v0Row3_read]; exact toNat_lt_two (lab3_01 m hpre d _)

/-- A whole-buffer copy of the table leaves the shared buffer holding the table. -/
theorem sh_pts_filled (fsh : Buf (Elt F) (shLoc d (cV L))) (pay : S2x128.Idx → Elt F .f32) (hpay : pay = (tbV).view.read (Elt F) (m (tbLoc d))) :
    ((shV).view.loc (V d (cV L) (jV L)) ↦{fullShare} View.write (Elt F) (shV).view fsh pay Finset.univ : sProp 𝕄)
      = shLoc d (cV L) ↦{fullShare} tabS m d (cV L) := by
  subst hpay
  have e : View.write (Elt F) (shV).view fsh ((tbV).view.read (Elt F) (m (tbLoc d))) Finset.univ = tabS m d (cV L) :=
    View.write_whole_univ (Val := Elt F) cc0_scratch1 fsh _
  exact congrArg (fun f : Buf (Elt F) (shLoc d (cV L)) => (shLoc d (cV L) ↦{fullShare} f : sProp 𝕄)) e

/-- Subcore 0's sixteen duties hand each subcore its read token of the filled shared copy; the remainder stays. -/
theorem pays_intro_zero (h0 : (L 1).val = 0) :
    (shLoc d (cV L) ↦{fullShare} tabS m d (cV L) : sProp 𝕄)
      ⊢ iprop((bigSep Finset.univ fun j : Fin (grid0.bound 1) => (bRd (F := F) m).payload (bcell d (cV L) (j.castLE hsub0)) 0 (jV L).val)
          ∗ shLoc d (cV L) ↦{qS0} tabS m d (cV L)) := by
  have e : (bigSep Finset.univ fun j : Fin (grid0.bound 1) => (bRd (F := F) m).payload (bcell d (cV L) (j.castLE hsub0)) 0 (jV L).val)
      = bigSep Finset.univ fun i : Fin 16 => (shLoc d (cV L) ↦{Transfers.shareTok fullShare 16 i} tabS m d (cV L) : sProp 𝕄) :=
    bigSep_congr fun j _ => by
      show bPay m (bcell d (cV L) (j.castLE hsub0)) (jV L).val = _
      unfold bPay; dsimp only
      rw [if_pos (show (jV L).val = 0 from h0)]
      rfl
  rw [e]
  refine (Transfers.pointsTo_toks_split fullShare 16).trans ?_
  iintro ⟨Hr, Ht⟩
  isplitl [Ht]; · iexact Ht
  iexact Hr

/-- Another subcore's duties hand over nothing. -/
theorem pays_intro_ne (h0 : (L 1).val ≠ 0) :
    (iprop(emp) : sProp 𝕄) ⊢ bigSep Finset.univ fun j : Fin (grid0.bound 1) => (bRd (F := F) m).payload (bcell d (cV L) (j.castLE hsub0)) 0 (jV L).val := by
  rw [show (bigSep Finset.univ fun j : Fin (grid0.bound 1) => (bRd (F := F) m).payload (bcell d (cV L) (j.castLE hsub0)) 0 (jV L).val)
      = bigSep Finset.univ fun _ : Fin (grid0.bound 1) => (iprop(emp) : sProp 𝕄) from
    bigSep_congr fun j _ => by
      show bPay m (bcell d (cV L) (j.castLE hsub0)) (jV L).val = _
      unfold bPay; dsimp only
      rw [if_neg (show ¬ (jV L).val = 0 from h0)], bigSep_emp']

/-- After the barrier a subcore's own round holds subcore 0's duty: its read token of the shared copy, the table in it. -/
theorem pays_elim : (bigSep ((bRd (F := F) m).duties (bcell d (cV L) (jV L)) 0 \ ∅) fun n => (bRd (F := F) m).payload (bcell d (cV L) (jV L)) 0 n)
    ⊢ (shLoc d (cV L) ↦{qS (jI L)} tabS m d (cV L) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]; exact BI.Entails.refl _

set_option maxHeartbeats 4000000 in
theorem tile_body_zero (h0 : (L 1).val = 0) (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goRes m d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__embed L v0V (Memref.isWhole_whole _) tbV (Memref.isWhole_whole _) v1V (Memref.isWhole_whole _) ixV (Memref.isWhole_whole _) shV (Memref.isWhole_whole _) rwV (Memref.isWhole_whole _)
            cc0_scratch3 cc0_scratch4 cc0_scratch5 cc0_scratch6 cc0_scratch7 cc0_scratch8 cc0_scratch9 cc0_scratch10 cc0_scratch11 cc0_scratch12 cc0_scratch13 cc0_scratch14 cc0_scoped0)
          fun _ => iprop(tdRes m d L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hg : (Scalar.cmpi .ne (Scalar.extui (Scalar.cmpi .eq (BitVec.ofNat 32 (L 1).val) 0#32) : BitVec 32) 0#32 = 1#1) := (guard_iff (L 1)).mpr h0
  simp only [cc0__embed_eq_skeleton]; unfold cc0__embed_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  rw [(K (F := F)).scopedBufs_V hF d (cV L) (jV L), SparseCore.Cfg.scopedSems0_V (Val := Elt F) d (cV L) (jV L), ownSems0_V, ownBufs_V]
  unfold bkit goRes tdRes
  rw [if_pos h0, if_pos h0, bigSep_fin4, bigSep_fin4]
  iintro ⟨#Hlv, ⟨⟨%κ, #Hinv⟩, Htoks, #Hrch, Hat, Hcred⟩, ⟨Hv0, Htb, ⟨Ho0, Ho1, Ho2, Ho3⟩, %fsh, Hsh⟩, ⟨⟨%fi, Hix⟩, ⟨%fr, Hrw⟩, Hbufs⟩, ⟨Hs3, Hs4, Hs5, Hs6, Hs7, Hs8, Hs9, Hs10, Hs11, Hs12, Hs13, Hs14, Hsc, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  -- the reshaped labels: four read tokens, one per label transfer
  ihave Hv0s := (toks4 (F := F) (qT (cI L) (jI L))).1 $$ Hv0
  icases Hv0s with ⟨Hv0r, Hv00, Hv01, Hv02, Hv03⟩
  ihave Hv00' := (Entails.of_eq (pts_v0 (F := F) d L _ _).symm) $$ Hv00
  ihave Hv01' := (Entails.of_eq (pts_v0 (F := F) d L _ _).symm) $$ Hv01
  ihave Hv02' := (Entails.of_eq (pts_v0 (F := F) d L _ _).symm) $$ Hv02
  ihave Hv03' := (Entails.of_eq (pts_v0 (F := F) d L _ _).symm) $$ Hv03
  ihave Htb' := (Entails.of_eq (pts_tb (F := F) d L _ _).symm) $$ Htb
  ihave Hsh' := (Entails.of_eq (pts_sh (F := F) d L _ _).symm) $$ Hsh
  ihave Hix' := (Entails.of_eq (pts_ix (F := F) d L _).symm) $$ Hix
  ihave Hrw' := (Entails.of_eq (pts_rw (F := F) d L _).symm) $$ Hrw
  ihave Ho0' := (Entails.of_eq (pts_out0 (F := F) d L _).symm) $$ Ho0
  ihave Ho1' := (Entails.of_eq (pts_out1 (F := F) d L _).symm) $$ Ho1
  ihave Ho2' := (Entails.of_eq (pts_out2 (F := F) d L _).symm) $$ Ho2
  ihave Ho3' := (Entails.of_eq (pts_out3 (F := F) d L _).symm) $$ Ho3
  set_option sl_exec.dmaWindow true in
  sl_exec
  -- the shared copy now holds the table: sixteen read tokens, one per subcore, and the remainder
  ihave Hsh2 := (Entails.of_eq (sh_pts_filled (F := F) m d L fsh (tile_body_zero.sl.dma0_4 m d) rfl)) $$ Hsh'
  ihave Hpays := (pays_intro_zero (F := F) m d L h0) $$ Hsh2
  icases Hpays with ⟨Hpays, Hsh0⟩

  rw [wp_bind]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmine := (pays_elim (F := F) m d L) $$ Hgot
  ihave Hmine' := (Entails.of_eq (pts_sh (F := F) d L _ _).symm) $$ Hmine
  ihave Hq := (toks4 (F := F) (qS (jI L))).1 $$ Hmine'
  icases Hq with ⟨Hshr, Hsh0t, Hsh1t, Hsh2t, Hsh3t⟩
  have hin0 := offs_inb0 (F := F) m d L hpre fi (tile_body_zero.sl.dma0 m d L) (tile_body_zero.sl.dma0_1 m d L) (tile_body_zero.sl.dma0_2 m d L) (tile_body_zero.sl.dma0_3 m d L) rfl
  have hin1 := offs_inb1 (F := F) m d L hpre fi (tile_body_zero.sl.dma0 m d L) (tile_body_zero.sl.dma0_1 m d L) (tile_body_zero.sl.dma0_2 m d L) (tile_body_zero.sl.dma0_3 m d L) rfl
  have hin2 := offs_inb2 (F := F) m d L hpre fi (tile_body_zero.sl.dma0 m d L) (tile_body_zero.sl.dma0_1 m d L) (tile_body_zero.sl.dma0_2 m d L) (tile_body_zero.sl.dma0_3 m d L) rfl
  have hin3 := offs_inb3 (F := F) m d L hpre fi (tile_body_zero.sl.dma0 m d L) (tile_body_zero.sl.dma0_1 m d L) (tile_body_zero.sl.dma0_2 m d L) (tile_body_zero.sl.dma0_3 m d L) rfl
  set_option sl_exec.dmaWindow true in
  sl_exec
  sl_step
  isplitl [Hv0r Hv00' Hv01' Hv02' Hv03' Htb' Ho0' Ho1' Ho2' Ho3' Hshr Hsh0t Hsh1t Hsh2t Hsh3t Hsh0]
  · isplitl [Hv0r Hv00' Hv01' Hv02' Hv03']
    · iapply (toks4 (F := F) (ℓ := v0Loc d) (qT (cI L) (jI L))).2
      isplitl [Hv0r]; · iexact Hv0r
      isplitl [Hv00']; · iexact Hv00'
      isplitl [Hv01']; · iexact Hv01'
      isplitl [Hv02']; · iexact Hv02'
      iexact Hv03'
    isplitl [Htb']; · iexact Htb'
    isplitl [Ho0' Ho1' Ho2' Ho3']
    · isplitl [Ho0']; · iapply (Entails.of_eq ((pointsTo_congr (out_val0 m hpre d L fi fr (tile_body_zero.sl.dma0 m d L) (tile_body_zero.sl.dma0_1 m d L) (tile_body_zero.sl.dma0_2 m d L) (tile_body_zero.sl.dma0_3 m d L) rfl hin0 _ _ _ _ _ rfl _ rfl)).trans (pts_out0 (F := F) d L _))); iexact Ho0'
      isplitl [Ho1']; · iapply (Entails.of_eq ((pointsTo_congr (out_val1 m hpre d L fi fr (tile_body_zero.sl.dma0 m d L) (tile_body_zero.sl.dma0_1 m d L) (tile_body_zero.sl.dma0_2 m d L) (tile_body_zero.sl.dma0_3 m d L) rfl hin1 _ _ _ _ _ rfl _ rfl)).trans (pts_out1 (F := F) d L _))); iexact Ho1'
      isplitl [Ho2']; · iapply (Entails.of_eq ((pointsTo_congr (out_val2 m hpre d L fi fr (tile_body_zero.sl.dma0 m d L) (tile_body_zero.sl.dma0_1 m d L) (tile_body_zero.sl.dma0_2 m d L) (tile_body_zero.sl.dma0_3 m d L) rfl hin2 _ _ _ _ _ rfl _ rfl)).trans (pts_out2 (F := F) d L _))); iexact Ho2'
      iapply (Entails.of_eq ((pointsTo_congr (out_val3 m hpre d L fi fr (tile_body_zero.sl.dma0 m d L) (tile_body_zero.sl.dma0_1 m d L) (tile_body_zero.sl.dma0_2 m d L) (tile_body_zero.sl.dma0_3 m d L) rfl hin3 _ _ _ _ _ rfl _ rfl)).trans (pts_out3 (F := F) d L _))); iexact Ho3'
    isplitl [Hshr Hsh0t Hsh1t Hsh2t Hsh3t]
    · iapply (toks4 (F := F) (ℓ := shLoc d (cV L)) (qS (jI L))).2
      isplitl [Hshr]; · iexact Hshr
      isplitl [Hsh0t]; · iexact Hsh0t
      isplitl [Hsh1t]; · iexact Hsh1t
      isplitl [Hsh2t]; · iexact Hsh2t
      iexact Hsh3t
    iexact Hsh0
  isplitl [Hix' Hrw' Hbufs]
  · isplitl [Hix']; · iexists _; iexact Hix'
    isplitl [Hrw']; · iexists _; iexact Hrw'
    iexact Hbufs
  isplitl [Hs3 Hs4 Hs5 Hs6 Hs7 Hs8 Hs9 Hs10 Hs11 Hs12 Hs13 Hs14 Hsc Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hsc]; · iexact Hsc
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  exact .inl hp

set_option maxHeartbeats 4000000 in
theorem tile_body_ne (h0 : (L 1).val ≠ 0) (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goRes m d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__embed L v0V (Memref.isWhole_whole _) tbV (Memref.isWhole_whole _) v1V (Memref.isWhole_whole _) ixV (Memref.isWhole_whole _) shV (Memref.isWhole_whole _) rwV (Memref.isWhole_whole _)
            cc0_scratch3 cc0_scratch4 cc0_scratch5 cc0_scratch6 cc0_scratch7 cc0_scratch8 cc0_scratch9 cc0_scratch10 cc0_scratch11 cc0_scratch12 cc0_scratch13 cc0_scratch14 cc0_scoped0)
          fun _ => iprop(tdRes m d L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hg : ¬ (Scalar.cmpi .ne (Scalar.extui (Scalar.cmpi .eq (BitVec.ofNat 32 (L 1).val) 0#32) : BitVec 32) 0#32 = 1#1) := fun h => h0 ((guard_iff (L 1)).mp h)
  simp only [cc0__embed_eq_skeleton]; unfold cc0__embed_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  rw [(K (F := F)).scopedBufs_V hF d (cV L) (jV L), SparseCore.Cfg.scopedSems0_V (Val := Elt F) d (cV L) (jV L), ownSems0_V, ownBufs_V]
  unfold bkit goRes tdRes
  rw [if_neg h0, if_neg h0, bigSep_fin4, bigSep_fin4]
  iintro ⟨#Hlv, ⟨⟨%κ, #Hinv⟩, Htoks, #Hrch, Hat, Hcred⟩, ⟨Hv0, Htb, ⟨Ho0, Ho1, Ho2, Ho3⟩, -⟩, ⟨⟨%fi, Hix⟩, ⟨%fr, Hrw⟩, Hbufs⟩, ⟨Hs3, Hs4, Hs5, Hs6, Hs7, Hs8, Hs9, Hs10, Hs11, Hs12, Hs13, Hs14, Hsc, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  -- the reshaped labels: four read tokens, one per label transfer
  ihave Hv0s := (toks4 (F := F) (qT (cI L) (jI L))).1 $$ Hv0
  icases Hv0s with ⟨Hv0r, Hv00, Hv01, Hv02, Hv03⟩
  ihave Hv00' := (Entails.of_eq (pts_v0 (F := F) d L _ _).symm) $$ Hv00
  ihave Hv01' := (Entails.of_eq (pts_v0 (F := F) d L _ _).symm) $$ Hv01
  ihave Hv02' := (Entails.of_eq (pts_v0 (F := F) d L _ _).symm) $$ Hv02
  ihave Hv03' := (Entails.of_eq (pts_v0 (F := F) d L _ _).symm) $$ Hv03
  ihave Htb' := (Entails.of_eq (pts_tb (F := F) d L _ _).symm) $$ Htb
  ihave Hix' := (Entails.of_eq (pts_ix (F := F) d L _).symm) $$ Hix
  ihave Hrw' := (Entails.of_eq (pts_rw (F := F) d L _).symm) $$ Hrw
  ihave Ho0' := (Entails.of_eq (pts_out0 (F := F) d L _).symm) $$ Ho0
  ihave Ho1' := (Entails.of_eq (pts_out1 (F := F) d L _).symm) $$ Ho1
  ihave Ho2' := (Entails.of_eq (pts_out2 (F := F) d L _).symm) $$ Ho2
  ihave Ho3' := (Entails.of_eq (pts_out3 (F := F) d L _).symm) $$ Ho3
  set_option sl_exec.dmaWindow true in
  sl_exec
  -- this subcore's duties hand over nothing
  ihave Hpays := (pays_intro_ne (F := F) m d L h0) $$ []
  · iempintro

  rw [wp_bind]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmine := (pays_elim (F := F) m d L) $$ Hgot
  ihave Hmine' := (Entails.of_eq (pts_sh (F := F) d L _ _).symm) $$ Hmine
  ihave Hq := (toks4 (F := F) (qS (jI L))).1 $$ Hmine'
  icases Hq with ⟨Hshr, Hsh0t, Hsh1t, Hsh2t, Hsh3t⟩
  have hin0 := offs_inb0 (F := F) m d L hpre fi (tile_body_ne.sl.dma0 m d L) (tile_body_ne.sl.dma0_1 m d L) (tile_body_ne.sl.dma0_2 m d L) (tile_body_ne.sl.dma0_3 m d L) rfl
  have hin1 := offs_inb1 (F := F) m d L hpre fi (tile_body_ne.sl.dma0 m d L) (tile_body_ne.sl.dma0_1 m d L) (tile_body_ne.sl.dma0_2 m d L) (tile_body_ne.sl.dma0_3 m d L) rfl
  have hin2 := offs_inb2 (F := F) m d L hpre fi (tile_body_ne.sl.dma0 m d L) (tile_body_ne.sl.dma0_1 m d L) (tile_body_ne.sl.dma0_2 m d L) (tile_body_ne.sl.dma0_3 m d L) rfl
  have hin3 := offs_inb3 (F := F) m d L hpre fi (tile_body_ne.sl.dma0 m d L) (tile_body_ne.sl.dma0_1 m d L) (tile_body_ne.sl.dma0_2 m d L) (tile_body_ne.sl.dma0_3 m d L) rfl
  set_option sl_exec.dmaWindow true in
  sl_exec
  sl_step
  isplitl [Hv0r Hv00' Hv01' Hv02' Hv03' Htb' Ho0' Ho1' Ho2' Ho3' Hshr Hsh0t Hsh1t Hsh2t Hsh3t ]
  · isplitl [Hv0r Hv00' Hv01' Hv02' Hv03']
    · iapply (toks4 (F := F) (ℓ := v0Loc d) (qT (cI L) (jI L))).2
      isplitl [Hv0r]; · iexact Hv0r
      isplitl [Hv00']; · iexact Hv00'
      isplitl [Hv01']; · iexact Hv01'
      isplitl [Hv02']; · iexact Hv02'
      iexact Hv03'
    isplitl [Htb']; · iexact Htb'
    isplitl [Ho0' Ho1' Ho2' Ho3']
    · isplitl [Ho0']; · iapply (Entails.of_eq ((pointsTo_congr (out_val0 m hpre d L fi fr (tile_body_ne.sl.dma0 m d L) (tile_body_ne.sl.dma0_1 m d L) (tile_body_ne.sl.dma0_2 m d L) (tile_body_ne.sl.dma0_3 m d L) rfl hin0 _ _ _ _ _ rfl _ rfl)).trans (pts_out0 (F := F) d L _))); iexact Ho0'
      isplitl [Ho1']; · iapply (Entails.of_eq ((pointsTo_congr (out_val1 m hpre d L fi fr (tile_body_ne.sl.dma0 m d L) (tile_body_ne.sl.dma0_1 m d L) (tile_body_ne.sl.dma0_2 m d L) (tile_body_ne.sl.dma0_3 m d L) rfl hin1 _ _ _ _ _ rfl _ rfl)).trans (pts_out1 (F := F) d L _))); iexact Ho1'
      isplitl [Ho2']; · iapply (Entails.of_eq ((pointsTo_congr (out_val2 m hpre d L fi fr (tile_body_ne.sl.dma0 m d L) (tile_body_ne.sl.dma0_1 m d L) (tile_body_ne.sl.dma0_2 m d L) (tile_body_ne.sl.dma0_3 m d L) rfl hin2 _ _ _ _ _ rfl _ rfl)).trans (pts_out2 (F := F) d L _))); iexact Ho2'
      iapply (Entails.of_eq ((pointsTo_congr (out_val3 m hpre d L fi fr (tile_body_ne.sl.dma0 m d L) (tile_body_ne.sl.dma0_1 m d L) (tile_body_ne.sl.dma0_2 m d L) (tile_body_ne.sl.dma0_3 m d L) rfl hin3 _ _ _ _ _ rfl _ rfl)).trans (pts_out3 (F := F) d L _))); iexact Ho3'
    isplitl [Hshr Hsh0t Hsh1t Hsh2t Hsh3t]
    · iapply (toks4 (F := F) (ℓ := shLoc d (cV L)) (qS (jI L))).2
      isplitl [Hshr]; · iexact Hshr
      isplitl [Hsh0t]; · iexact Hsh0t
      isplitl [Hsh1t]; · iexact Hsh1t
      isplitl [Hsh2t]; · iexact Hsh2t
      iexact Hsh3t
    iempintro
  isplitl [Hix' Hrw' Hbufs]
  · isplitl [Hix']; · iexists _; iexact Hix'
    isplitl [Hrw']; · iexists _; iexact Hrw'
    iexact Hbufs
  isplitl [Hs3 Hs4 Hs5 Hs6 Hs7 Hs8 Hs9 Hs10 Hs11 Hs12 Hs13 Hs14 Hsc Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hsc]; · iexact Hsc
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  exact .inl hp

/-- The task of the vector subcore at `L`: both arms of the guard. -/
theorem tile_body  (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goRes m d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__embed L v0V (Memref.isWhole_whole _) tbV (Memref.isWhole_whole _) v1V (Memref.isWhole_whole _) ixV (Memref.isWhole_whole _) shV (Memref.isWhole_whole _) rwV (Memref.isWhole_whole _)
            cc0_scratch3 cc0_scratch4 cc0_scratch5 cc0_scratch6 cc0_scratch7 cc0_scratch8 cc0_scratch9 cc0_scratch10 cc0_scratch11 cc0_scratch12 cc0_scratch13 cc0_scratch14 cc0_scoped0)
          fun _ => iprop(tdRes m d L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  by_cases h0 : (L 1).val = 0
  · exact tile_body_zero m d L h0 hF hpre O W hO hOlev
  · exact tile_body_ne m d L h0 hF hpre O W hO hOlev

end Tile

/-! ## The obligation -/

theorem defs₀_vector (c : Fin τ.nSC) (s : Fin τ.nSub) :
    defs₀ (F := F) (.scVector c s) 0 ()
      = SparseCore.onTile hcore0 hsub0 (fun c s => cc0__embed (coordsV c s)
          v0V (Memref.isWhole_whole _) tbV (Memref.isWhole_whole _) v1V (Memref.isWhole_whole _) ixV (Memref.isWhole_whole _) shV (Memref.isWhole_whole _) rwV (Memref.isWhole_whole _)
          cc0_scratch3 cc0_scratch4 cc0_scratch5 cc0_scratch6 cc0_scratch7 cc0_scratch8 cc0_scratch9 cc0_scratch10 cc0_scratch11 cc0_scratch12 cc0_scratch13 cc0_scratch14 cc0_scoped0) ⟨⟩ c s := rfl

set_option maxRecDepth 16384 in
theorem tileObl (hF : (K (F := F)).Facts) (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO hOlev

end Cert.Proof.KI

end
-- ==== Proof.KI.Main.lean ====
/-
  @main on the TensorCore, and the program's run. @main reshapes the labels to [32, 4, 128], starts the lookup on the
  two SparseCores — handing each its read tokens of the reshaped labels and of the table and its 64 chunks of the
  result, and taking them back with the chunks filled —, and inserts the unit axis into the result. At the end the
  two argument arrays hold what they held and the result holds the lookup as one function of them.
-/
import proofs.«202797_g70420283785446_cont_9to1_m_562_18_alg».proof.Proof.KI.Common
import proofs.«202797_g70420283785446_cont_9to1_m_562_18_alg».proof.Proof.KI.Chunks
import proofs.«202797_g70420283785446_cont_9to1_m_562_18_alg».proof.Proof.KI.Split
import proofs.«202797_g70420283785446_cont_9to1_m_562_18_alg».proof.Proof.KI.Body

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v0V" => (Memref.whole Cert.KernelIdeal.main_v0_scv : Memref Cert.KernelIdeal.sig Kind.scVector Space.hbm Cert.KernelIdeal.S32x4x128 EltTy.i32)
local notation "tbV" => (Memref.whole Cert.KernelIdeal.main_arg1_scv : Memref Cert.KernelIdeal.sig Kind.scVector Space.hbm Cert.KernelIdeal.S2x128 EltTy.f32)
local notation "v1V" => (Memref.whole Cert.KernelIdeal.main_v1_scv : Memref Cert.KernelIdeal.sig Kind.scVector Space.hbm Cert.KernelIdeal.S16384x128 EltTy.f32)
local notation "ixV" => (Memref.whole Cert.KernelIdeal.cc0_scratch0 : Memref Cert.KernelIdeal.sig Kind.scVector Space.vmem Cert.KernelIdeal.S4x128 EltTy.i32)
local notation "shV" => (Memref.whole Cert.KernelIdeal.cc0_scratch1 : Memref Cert.KernelIdeal.sig Kind.scVector Space.shared Cert.KernelIdeal.S2x128 EltTy.f32)
local notation "rwV" => (Memref.whole Cert.KernelIdeal.cc0_scratch2 : Memref Cert.KernelIdeal.sig Kind.scVector Space.vmem Cert.KernelIdeal.S512x128 EltTy.f32)

open Idealize.ShloMosaic.StableHlo (held held_split held_sdiff_result wp_hlo_within)

variable (m : (ℓ : Loc nD τ sig) → Buf (Elt F) ℓ) (ρ : Dev nD → PrngReg)
variable [FloatOps F]

abbrev a0' : DevRef τ sig := Proc.devRef .tc (main_arg0 : Ref sig .tc)
abbrev tb' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

/-- The reshape of the labels and the insertion of the result's unit axis, as @main states them. -/
abbrev opR : HloOp τ sig (Elt F) := StableHlo.reshape main_arg0 main_v0 rfl shapeCasts_S16384_S32x4x128
abbrev opB : HloOp τ sig (Elt F) := StableHlo.unary main_v1 main_v2 (broadcastInDim S16384x1x128 ![0, 2] bcast_S16384x128_S16384x1x128_0_2 : (⟨S16384x128, .f32⟩ : BufTy).Contents (Elt F) → (⟨S16384x1x128, .f32⟩ : BufTy).Contents (Elt F))

/-- @main's result: the lookup's rows with the unit axis inserted. -/
def res2 (d : Dev nD) : Buf (Elt F) (v2Loc d) :=
  (broadcastInDim S16384x1x128 ![0, 2] bcast_S16384x128_S16384x1x128_0_2 : (⟨S16384x128, .f32⟩ : BufTy).Contents (Elt F) → (⟨S16384x1x128, .f32⟩ : BufTy).Contents (Elt F)) (outG m d)

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (tbLoc d ↦{fullShare} W main_arg1) ∗ (v0Loc d ↦{fullShare} W main_v0)
          ∗ (v1Loc d ↦{fullShare} W main_v1) ∗ v2Loc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; -/
def V0 (d : Dev nD) : Valuation τ sig (Elt F) := fun b => m (d, b)
/-- and the one the insertion of the unit axis starts from: the kernel's result filled. -/
def V1 (d : Dev nD) : Valuation τ sig (Elt F) := Function.update (V0 m d) v1' (outG m d)

omit [FloatOps F] in
theorem held_pair (d : Dev nD) (x y : DevRef τ sig) (h : x ≠ y) (W : Valuation τ sig (Elt F)) :
    (held (T d) {x, y} W : sProp 𝕄) = iprop((((d, x) : Loc nD τ sig) ↦{fullShare} W x) ∗ ((d, y) : Loc nD τ sig) ↦{fullShare} W y) := by
  unfold held
  rw [SparseCore.bigSep_insert' (by simpa using h), bigSep_singleton]

theorem held_R0 (d : Dev nD) : (held (T d) {a0', v0'} (V0 m d) : sProp 𝕄) = iprop((a0Loc d ↦{fullShare} m (a0Loc d)) ∗ v0Loc d ↦{fullShare} m (v0Loc d)) :=
  held_pair d a0' v0' (by decide) _

theorem opR_res_v0 (d : Dev nD) : (opR (F := F)).result (V0 m d) v0' = lab3 m d := by
  rw [StableHlo.reshape_result]; rfl
theorem opR_res_a0 (d : Dev nD) : (opR (F := F)).result (V0 m d) a0' = m (a0Loc d) :=
  (opR (F := F)).result_of_not_mem _ (show a0' ∉ ({v0'} : Finset (DevRef τ sig)) by decide)
theorem opB_res_v2 (d : Dev nD) : (opB (F := F)).result (V1 m d) v2' = res2 m d := by
  rw [(opB (F := F)).result_of_mem _ (Finset.mem_singleton_self _)]
  show (broadcastInDim S16384x1x128 ![0, 2] bcast_S16384x128_S16384x1x128_0_2 : (⟨S16384x128, .f32⟩ : BufTy).Contents (Elt F) → _) (V1 m d v1') = _
  unfold V1 res2; rw [Function.update_self]
theorem opB_res_v1 (d : Dev nD) : (opB (F := F)).result (V1 m d) v1' = outG m d :=
  ((opB (F := F)).result_of_not_mem _ (show v1' ∉ ({v2'} : Finset (DevRef τ sig)) by decide)).trans (Function.update_self _ _ _)

theorem held_R (d : Dev nD) : (held (T d) {a0', v0'} ((opR (F := F)).result (V0 m d)) : sProp 𝕄) = iprop((a0Loc d ↦{fullShare} m (a0Loc d)) ∗ v0Loc d ↦{fullShare} lab3 m d) := by
  rw [held_pair d a0' v0' (by decide), opR_res_v0, opR_res_a0]
theorem held_B0 (d : Dev nD) : (held (T d) {v1', v2'} (V1 m d) : sProp 𝕄) = iprop((v1Loc d ↦{fullShare} outG m d) ∗ v2Loc d ↦{fullShare} m (v2Loc d)) := by
  rw [held_pair d v1' v2' (by decide), show V1 m d v1' = outG m d from Function.update_self _ _ _,
    show V1 m d v2' = m (v2Loc d) from Function.update_of_ne (show v2' ≠ v1' by decide) _ _]
theorem held_B (d : Dev nD) : (held (T d) {v1', v2'} ((opB (F := F)).result (V1 m d)) : sProp 𝕄) = iprop((v1Loc d ↦{fullShare} outG m d) ∗ v2Loc d ↦{fullShare} res2 m d) := by
  rw [held_pair d v1' v2' (by decide), opB_res_v2, opB_res_v1]
theorem st_eq (d : Dev nD) : (bigSep Finset.univ fun c : Fin ((K (F := F)).nCore 0) => (P m).st 0 d c)
    = iprop((bigSep Finset.univ fun c : Fin (grid0.bound 0) => v0Loc d ↦{qC (Fin.cast bound_zero c)} lab3 m d)
        ∗ (bigSep Finset.univ fun c : Fin (grid0.bound 0) => tbLoc d ↦{qC (Fin.cast bound_zero c)} m (tbLoc d))
        ∗ bigSep Finset.univ fun c : Fin (grid0.bound 0) => bigSep Finset.univ fun s : Fin (grid0.bound 1) => bigSep Finset.univ fun j : Fin 4 => v1Loc d ↦[outSet (coordsV c s) j]{fullShare} m (v1Loc d)) := by
  rw [← bigSep_sep', ← bigSep_sep']; exact bigSep_congr fun c _ => rfl
theorem dn_eq (d : Dev nD) : (bigSep Finset.univ fun c : Fin ((K (F := F)).nCore 0) => (P m).dn 0 d c)
    = iprop((bigSep Finset.univ fun c : Fin (grid0.bound 0) => v0Loc d ↦{qC (Fin.cast bound_zero c)} lab3 m d)
        ∗ (bigSep Finset.univ fun c : Fin (grid0.bound 0) => tbLoc d ↦{qC (Fin.cast bound_zero c)} m (tbLoc d))
        ∗ bigSep Finset.univ fun c : Fin (grid0.bound 0) => bigSep Finset.univ fun s : Fin (grid0.bound 1) => bigSep Finset.univ fun j : Fin 4 => v1Loc d ↦[outSet (coordsV c s) j]{fullShare} outG m d) := by
  rw [← bigSep_sep', ← bigSep_sep']; exact bigSep_congr fun c _ => rfl

theorem st0_eq (d : Dev nD) : (bigSep Finset.univ fun c : Fin ((K (F := F)).nCore 0) => (P m).st 0 d c) = bigSep Finset.univ fun c : Fin (grid0.bound 0) => stRes m d c :=
  bigSep_congr fun c _ => rfl
theorem dn0_eq (d : Dev nD) : (bigSep Finset.univ fun c : Fin ((K (F := F)).nCore 0) => (P m).dn 0 d c) = bigSep Finset.univ fun c : Fin (grid0.bound 0) => dnRes m d c :=
  bigSep_congr fun c _ => rfl

omit [FloatOps F] in
/-- A read-only array held whole is one token per SparseCore and a remainder. -/
theorem toks2 {ℓ : Loc nD τ sig} (f : Buf (Elt F) ℓ) :
    (ℓ ↦{fullShare} f : sProp 𝕄) ⊣⊢ iprop((ℓ ↦{Transfers.shareDrop fullShare 2} f) ∗ bigSep Finset.univ fun c : Fin (grid0.bound 0) => ℓ ↦{qC (Fin.cast bound_zero c)} f) :=
  Transfers.pointsTo_toks fullShare 2

/-- What @main leaves the claim: the arguments at their launch contents, the result at the lookup. -/
abbrev FIN (d : Dev nD) : sProp 𝕄 := iprop((a0Loc d ↦{fullShare} m (a0Loc d)) ∗ (tbLoc d ↦{fullShare} m (tbLoc d)) ∗ v2Loc d ↦{fullShare} res2 m d)

set_option maxHeartbeats 1000000 in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Htb, Hv0, Hv1, Hv2⟩, -, -⟩, -⟩
  -- the reshape of the labels
  iapply (wp_hlo_within 𝒱 (SparseCore.T d) none Set.univ (op := opR) (S := {a0', v0'}) (Finset.Subset.refl _) (V := V0 m d)) $$ [Hb Ha0 Hv0]
  · isplitl [Hb]; · iexact Hb
    iapply (Entails.of_eq (held_R0 (F := F) m d).symm)
    isplitl [Ha0]; · iexact Ha0
    iexact Hv0
  iintro ⟨Hb, Hheld⟩
  rw [wp_ret]; imodintro
  ihave Hh := (Entails.of_eq (held_R (F := F) m d)) $$ Hheld
  icases Hh with ⟨Ha0, Hv0⟩
  -- the call: each SparseCore its tokens and its chunks, and back
  ihave Hv0s := (toks2 (F := F) (lab3 m d)).1 $$ Hv0
  icases Hv0s with ⟨Hv0r, Hv0t⟩
  ihave Htbs := (toks2 (F := F) (m (tbLoc d))).1 $$ Htb
  icases Htbs with ⟨Htbr, Htbt⟩
  ihave Hv1c := (Entails.of_eq (v1_chunks (F := F) d (m (v1Loc d)))) $$ Hv1
  iapply ((K (F := F)).wp_run (D (F := F)) 𝒱 (EH := EH) (P := P m) κ d 0) $$ [Hst Hv0t Htbt Hv1c Hb Ha0 Hv0r Htbr Hv2]
  isplitr; · iexact Hctx
  isplitl [Hst]; · iexact Hst
  isplitl [Hv0t Htbt Hv1c]
  · iapply (Entails.of_eq (st_eq (F := F) m d).symm)
    isplitl [Hv0t]; · iexact Hv0t
    isplitl [Htbt]; · iexact Htbt
    iexact Hv1c
  iintro ⟨Hst, Hdn⟩
  ihave Hdn' := (Entails.of_eq (dn_eq (F := F) m d)) $$ Hdn
  icases Hdn' with ⟨Hv0t, Htbt, Hv1c⟩
  ihave Hv0 := (toks2 (F := F) (lab3 m d)).2 $$ [Hv0r Hv0t]
  · isplitl [Hv0r]; · iexact Hv0r
    iexact Hv0t
  ihave Htb := (toks2 (F := F) (m (tbLoc d))).2 $$ [Htbr Htbt]
  · isplitl [Htbr]; · iexact Htbr
    iexact Htbt
  ihave Hv1 := (Entails.of_eq (v1_chunks (F := F) d (outG m d)).symm) $$ Hv1c
  -- the unit axis
  iapply (wp_hlo_within 𝒱 (SparseCore.T d) none Set.univ (op := opB) (S := {v1', v2'}) (Finset.Subset.refl _) (V := V1 m d)) $$ [Hb Hv1 Hv2]
  · isplitl [Hb]; · iexact Hb
    iapply (Entails.of_eq (held_B0 (F := F) m d).symm)
    isplitl [Hv1]; · iexact Hv1
    iexact Hv2
  iintro ⟨Hb, Hheld⟩
  ihave Hh := (Entails.of_eq (held_B (F := F) m d)) $$ Hheld
  icases Hh with ⟨-, Hv2⟩
  rw [wp_ret]; imodintro; imodintro
  isplitl [Hst]; · iexact Hst
  isplitl [Ha0]; · iexact Ha0
  isplitl [Htb]; · iexact Htb
  iexact Hv2

def fq (d : Dev nD) (s' : Phys nD τ sig (Elt F)) : Prop :=
  s'.mem.mem (v2Loc d) = res2 m d ∧ s'.mem.mem (a0Loc d) = m (a0Loc d) ∧ s'.mem.mem (tbLoc d) = m (tbLoc d)

theorem hfin (d : Dev nD) (s' : Phys nD τ sig (Elt F)) : iprop(FIN m d ∗ SI s') ⊢ (⌜fq m d s'⌝ : sProp 𝕄) := by
  iintro ⟨⟨Ha0, Htb, Hv2⟩, HSI⟩
  ihave H0 := (persistent_entails_right (SI_pointsTo_agree (st := s') (ℓ := a0Loc d) (I := Finset.univ) (q := fullShare) (f := m (a0Loc d)))) $$ [HSI Ha0]
  · isplitl [HSI] <;> iassumption
  icases H0 with ⟨%h0, HSI, -⟩
  ihave H1 := (persistent_entails_right (SI_pointsTo_agree (st := s') (ℓ := tbLoc d) (I := Finset.univ) (q := fullShare) (f := m (tbLoc d)))) $$ [HSI Htb]
  · isplitl [HSI] <;> iassumption
  icases H1 with ⟨%h1, HSI, -⟩
  ihave H2 := (SI_pointsTo_agree (st := s') (ℓ := v2Loc d) (I := Finset.univ) (q := fullShare) (f := res2 m d)) $$ [HSI Hv2]
  · isplitl [HSI] <;> iassumption
  icases H2 with %h2
  ipureintro
  exact ⟨funext fun i => h2 i (Finset.mem_univ i), funext fun i => h0 i (Finset.mem_univ i), funext fun i => h1 i (Finset.mem_univ i)⟩

/-! ## The program's run -/

def QC : PUnit × MemSt nD τ sig (Elt F) → Prop := fun r => ∀ c : Dev nD,
  r.2.mem (v2Loc c) = res2 m c ∧ r.2.mem (a0Loc c) = m (a0Loc c) ∧ r.2.mem (tbLoc c) = m (tbLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => vecSplit m)
    m ρ main (fun _ => iprop(emp)) (FIN m) (u₀ (F := F)) (hu₀ m) (hmain m ρ) (fq m) (hfin m) (QC m) (fun _ h => h)

/-- The result read index by index: entry (b, 0, h) is entry (row of label b, h) of the table. -/
theorem res2_eq (d : Dev nD) : res2 m d = Cert.Spec.emb (F := F) (m (a0Loc d)) (m (tbLoc d)) := by
  funext i
  rfl

end Cert.Proof.KI

end
-- ==== Proof.KB.Common.lean ====
/-
  The embedding-lookup kernel as the launch theorem sees it, and what its threads hand one another.

  Thirty-two vector subcores (2 SparseCores × 16) each own 512 consecutive rows of the result. A subcore fetches its
  four chunks of 128 labels; subcore 0 of each SparseCore copies the two-row table into that SparseCore's shared
  memory; all sixteen meet at the subcore barrier; then each gathers, chunk by chunk, the table rows its labels name
  out of the shared copy and writes them to its rows of the result.

  Who holds what: the reshaped labels and the table are read-only and go out as read shares (one token per
  SparseCore, split again into one token per subcore); the result is dealt by its 128 disjoint chunks of 128 rows;
  the shared copy of the table is handed whole to subcore 0, which fills it and, arriving at the barrier, hands
  subcore j the j-th read token of it (the barrier's payload) and keeps the remainder; every subcore gives its token
  back when its task ends, so the SparseCore's sequencer gets its buffer back whole.
-/
import proofs.«202797_g70420283785446_cont_9to1_m_562_18_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Value
import Idealize.ShloMosaic.Lib.ValueIdx
import Idealize.ShloMosaic.Lib.Tactic
import proofs.«202797_g70420283785446_cont_9to1_m_562_18_alg».proof.Proof.Gen.Kernel
import proofs.«202797_g70420283785446_cont_9to1_m_562_18_alg».proof.Proof.Gen.Kernel.Skeleton
import proofs.«202797_g70420283785446_cont_9to1_m_562_18_alg».proof.Proof.Spec

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and their contents -/

variable (m : (ℓ : Loc nD τ sig) → Buf (Elt F) ℓ) (ρ : Dev nD → PrngReg)

/-- The labels, the table, the reshaped labels, the kernel's result and @main's result, on device `d`. -/
abbrev a0Loc (d : Dev nD) : Loc nD τ sig := (SparseCore.T d).loc main_arg0
abbrev tbLoc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2

local notation "v0V" => (Memref.whole Cert.Kernel.main_v0_scv : Memref Cert.Kernel.sig Kind.scVector Space.hbm Cert.Kernel.S32x4x128 EltTy.i32)
local notation "tbV" => (Memref.whole Cert.Kernel.main_arg1_scv : Memref Cert.Kernel.sig Kind.scVector Space.hbm Cert.Kernel.S2x128 EltTy.f32)
local notation "v1V" => (Memref.whole Cert.Kernel.main_v1_scv : Memref Cert.Kernel.sig Kind.scVector Space.hbm Cert.Kernel.S16384x128 EltTy.f32)
local notation "ixV" => (Memref.whole Cert.Kernel.cc0_scratch0 : Memref Cert.Kernel.sig Kind.scVector Space.vmem Cert.Kernel.S4x128 EltTy.i32)
local notation "shV" => (Memref.whole Cert.Kernel.cc0_scratch1 : Memref Cert.Kernel.sig Kind.scVector Space.shared Cert.Kernel.S2x128 EltTy.f32)
local notation "rwV" => (Memref.whole Cert.Kernel.cc0_scratch2 : Memref Cert.Kernel.sig Kind.scVector Space.vmem Cert.Kernel.S512x128 EltTy.f32)

theorem nSub_eq : τ.nSub = 16 := rfl
theorem nSC_eq : τ.nSC = 2 := rfl
theorem bound_zero : grid0.bound 0 = 2 := rfl
theorem bound_one : grid0.bound 1 = 16 := rfl

/-- SparseCore `c`'s shared copy of the table, as every subcore of it addresses it. -/
abbrev shRef (c : Fin τ.nSC) : DevRef τ sig := ⟨.shared, ⟨0, by decide⟩, c⟩
abbrev shLoc (d : Dev nD) (c : Fin τ.nSC) : Loc nD τ sig := (d, shRef c)

/-- The labels as @main's reshape leaves them: label (w, j, k) is label 512 w + 128 j + k (row-major). -/
def lab3 (d : Dev nD) : Buf (Elt F) (v0Loc d) :=
  fun i => shapeCast S32x4x128 (m (a0Loc d) : S16384.Idx → Elt F .i32) shapeCasts_S16384_S32x4x128 i

/-- The kernel's result as one function of the argument arrays: row b is the table row label b names. -/
def outG (d : Dev nD) : Buf (Elt F) (v1Loc d) :=
  fun i => (m (tbLoc d) : S2x128.Idx → Elt F .f32)
    (ix2 (Cert.Spec.rowOf ((m (a0Loc d) : S16384.Idx → BitVec 32) (ix1 (i 0)))) (i 1))

/-- The shared copy holds the table. -/
def tabS (d : Dev nD) (c : Fin τ.nSC) : Buf (Elt F) (shLoc d c) := fun i => (m (tbLoc d) : S2x128.Idx → Elt F .f32) i

/-- The precondition as the kernel uses it: every label is the word 0 or the word 1. -/
def PreOK : Prop := ∀ (d : Dev nD) (b : Fin 16384), (m (a0Loc d) : S16384.Idx → BitVec 32) (ix1 b) = 0#32 ∨ (m (a0Loc d) : S16384.Idx → BitVec 32) (ix1 b) = 1#32

/-! ## Read shares -/

/-- SparseCore `c`'s read token of an array every subcore reads, -/
abbrev qC (c : Fin 2) : PosShare TreeShare := Transfers.shareTok fullShare 2 c
/-- and subcore `i`'s token of that. -/
abbrev qT (c : Fin 2) (i : Fin 16) : PosShare TreeShare := Transfers.shareTok (qC c) 16 i
/-- Subcore `i`'s read token of its SparseCore's shared copy of the table, and what is left beside the sixteen. -/
abbrev qS (i : Fin 16) : PosShare TreeShare := Transfers.shareTok fullShare 16 i
abbrev qS0 : PosShare TreeShare := Transfers.shareDrop fullShare 16

/-! ## Grid coordinates -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
abbrev cI (L : grid0.Coords) : Fin 2 := Fin.cast bound_zero (L 0)
abbrev jI (L : grid0.Coords) : Fin 16 := Fin.cast bound_one (L 1)

/-- Chunk `j` of the rows of the result the subcore at `L` writes: rows 1024 (L 1) + 512 (L 0) + 128 j onwards, 128 of them, as the kernel slices them. -/
abbrev outRect (L : grid0.Coords) (j : Fin 4) : Rect S16384x128 :=
  Rect.unit (s := S16384x128) (k0_off2 L (BitVec.ofNat 32 (128 * j.val))) S128x128.size (k0_off2_inb L j)
abbrev outSet (L : grid0.Coords) (j : Fin 4) : Finset S16384x128.Idx := ((v1V).slice (outRect L j) (fun _ => rfl)).view.set

variable [FloatOps F]

/-! ## The barrier cells -/

/-- Subcore `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What a duty in subcore `j`'s round hands over: subcore 0's, the `j`-th read token of the shared copy, filled with the table; the others', nothing. -/
def bPay (g : GSem nD τ sig) (n : ℕ) : sProp 𝕄 :=
  match g with
  | ((d, .scVector c j), _) => if n = 0 then iprop(shLoc d c ↦{qS (Fin.cast nSub_eq j)} tabS m d c) else iprop(emp)
  | _ => iprop(emp)

/-- The barrier cells' schedule: one round on each, of one unit duty per subcore of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a subcore owe for the barrier: a unit on every subcore's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Subcore `(c, i)`'s barrier kit: every subcore's cell invariant of its SparseCore and that each has reached round 0,
    its own position at the origin of round 0, its duty token in every subcore's round 0, and the credit for the
    sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- What the TensorCore hands SparseCore `c` at the call: its read tokens of the reshaped labels and of the table, and the
    64 chunks of the result its sixteen subcores write, at the launch contents; -/
def stRes (d : Dev nD) (c : Fin (grid0.bound 0)) : sProp 𝕄 :=
  iprop((v0Loc d ↦{qC (Fin.cast bound_zero c)} lab3 m d) ∗ (tbLoc d ↦{qC (Fin.cast bound_zero c)} m (tbLoc d))
    ∗ bigSep Finset.univ fun s : Fin (grid0.bound 1) => bigSep Finset.univ fun j : Fin 4 => v1Loc d ↦[outSet (coordsV c s) j]{fullShare} m (v1Loc d))
/-- and what comes back: the same, the chunks holding the lookup's rows. -/
def dnRes (d : Dev nD) (c : Fin (grid0.bound 0)) : sProp 𝕄 :=
  iprop((v0Loc d ↦{qC (Fin.cast bound_zero c)} lab3 m d) ∗ (tbLoc d ↦{qC (Fin.cast bound_zero c)} m (tbLoc d))
    ∗ bigSep Finset.univ fun s : Fin (grid0.bound 1) => bigSep Finset.univ fun j : Fin 4 => v1Loc d ↦[outSet (coordsV c s) j]{fullShare} outG m d)

/-- What the subcore at `L` is handed with its task: its read tokens, its four chunks of the result, and — subcore 0 —
    the SparseCore's shared buffer whole, at whatever it holds; -/
def goRes (d : Dev nD) (L : grid0.Coords) : sProp 𝕄 :=
  iprop((v0Loc d ↦{qT (cI L) (jI L)} lab3 m d) ∗ (tbLoc d ↦{qT (cI L) (jI L)} m (tbLoc d))
    ∗ (bigSep Finset.univ fun j : Fin 4 => v1Loc d ↦[outSet L j]{fullShare} m (v1Loc d))
    ∗ (if (L 1).val = 0 then iprop(∃ f, shLoc d (cV L) ↦{fullShare} f) else iprop(emp)))
/-- and what it hands back: the tokens, its chunks holding the lookup's rows, its read token of the shared copy (now the
    table) and — subcore 0 — what is left of that buffer beside the sixteen tokens. -/
def tdRes (d : Dev nD) (L : grid0.Coords) : sProp 𝕄 :=
  iprop((v0Loc d ↦{qT (cI L) (jI L)} lab3 m d) ∗ (tbLoc d ↦{qT (cI L) (jI L)} m (tbLoc d))
    ∗ (bigSep Finset.univ fun j : Fin 4 => v1Loc d ↦[outSet L j]{fullShare} outG m d)
    ∗ (shLoc d (cV L) ↦{qS (jI L)} tabS m d (cV L))
    ∗ (if (L 1).val = 0 then iprop(shLoc d (cV L) ↦{qS0} tabS m d (cV L)) else iprop(emp)))

/-- The grid point of SparseCore `c`'s subcore `i` of the call. -/
abbrev LL (c : Fin ((K (F := F)).nCore 0)) (i : Fin ((K (F := F)).nSub 0)) : grid0.Coords := coordsV ⟨c.val, c.isLt⟩ ⟨i.val, i.isLt⟩

def P : (K (F := F)).Pay (nD := nD) (Val := Elt F) (Name := ℕ) (U := UU) where
  st := fun q d c => match q with | 0 => stRes m d ⟨c.val, c.isLt⟩
  dn := fun q d c => match q with | 0 => dnRes m d ⟨c.val, c.isLt⟩
  go := fun q d c i => match q with | 0 => goRes m d (LL c i)
  td := fun q d c i => match q with | 0 => tdRes m d (LL c i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance goRes_storable (d : Dev nD) (L : grid0.Coords) : BI.Storable (upEmb : UEmb _ 𝕄) (goRes m d L) := by
  unfold goRes; split <;> infer_instance
instance tdRes_storable (d : Dev nD) (L : grid0.Coords) : BI.Storable (upEmb : UEmb _ 𝕄) (tdRes m d L) := by
  unfold tdRes; split <;> infer_instance
instance stRes_storable (d : Dev nD) (c : Fin (grid0.bound 0)) : BI.Storable (upEmb : UEmb _ 𝕄) (stRes m d c) := by
  unfold stRes; infer_instance
instance dnRes_storable (d : Dev nD) (c : Fin (grid0.bound 0)) : BI.Storable (upEmb : UEmb _ 𝕄) (dnRes m d c) := by
  unfold dnRes; infer_instance

instance P_storable : (P (F := F) m).IsStorable where
  st q d c := match q with | 0 => (inferInstance : BI.Storable (upEmb : UEmb _ 𝕄) (stRes m d ⟨c.val, c.isLt⟩))
  dn q d c := match q with | 0 => (inferInstance : BI.Storable (upEmb : UEmb _ 𝕄) (dnRes m d ⟨c.val, c.isLt⟩))
  go q d c i := match q with | 0 => (inferInstance : BI.Storable (upEmb : UEmb _ 𝕄) (goRes m d (LL c i)))
  td q d c i := match q with | 0 => (inferInstance : BI.Storable (upEmb : UEmb _ 𝕄) (tdRes m d (LL c i)))

end Cert.Proof.KB

end
-- ==== Proof.KB.Chunks.lean ====
/-
  The result's 16384 rows cut into 128 chunks of 128 rows: chunk 8 s + 4 c + j is the j-th chunk of the subcore at
  grid point (c, s) — its rows start at 1024 s + 512 c + 128 j. The chunks are pairwise disjoint and cover the array,
  so the array held whole is the chunks held one by one, SparseCore by SparseCore, subcore by subcore.
-/
import proofs.«202797_g70420283785446_cont_9to1_m_562_18_alg».proof.Proof.KB.Common

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v0V" => (Memref.whole Cert.Kernel.main_v0_scv : Memref Cert.Kernel.sig Kind.scVector Space.hbm Cert.Kernel.S32x4x128 EltTy.i32)
local notation "tbV" => (Memref.whole Cert.Kernel.main_arg1_scv : Memref Cert.Kernel.sig Kind.scVector Space.hbm Cert.Kernel.S2x128 EltTy.f32)
local notation "v1V" => (Memref.whole Cert.Kernel.main_v1_scv : Memref Cert.Kernel.sig Kind.scVector Space.hbm Cert.Kernel.S16384x128 EltTy.f32)
local notation "ixV" => (Memref.whole Cert.Kernel.cc0_scratch0 : Memref Cert.Kernel.sig Kind.scVector Space.vmem Cert.Kernel.S4x128 EltTy.i32)
local notation "shV" => (Memref.whole Cert.Kernel.cc0_scratch1 : Memref Cert.Kernel.sig Kind.scVector Space.shared Cert.Kernel.S2x128 EltTy.f32)
local notation "rwV" => (Memref.whole Cert.Kernel.cc0_scratch2 : Memref Cert.Kernel.sig Kind.scVector Space.vmem Cert.Kernel.S512x128 EltTy.f32)

theorem hdiv : 128 ∣ S16384x128.size 0 := ⟨128, rfl⟩

/-- The chunk number of chunk `j` of the subcore at `L`. -/
def chunkNo (L : grid0.Coords) (j : Fin 4) : Fin 128 := ⟨8 * (L 1).val + 4 * (L 0).val + j.val, by
  have h0 : (L 0).val < 2 := (L 0).isLt
  have h1 : (L 1).val < 16 := (L 1).isLt
  have hj := j.isLt
  omega⟩

theorem outRect_eq (L : grid0.Coords) (j : Fin 4) : outRect L j = Rect.part (s := S16384x128) (a₀ := 0) hdiv (chunkNo L j) := by
  unfold outRect Rect.part Rect.block
  congr 1 <;> funext a
  · rw [k0_off2_eq]
    match a with
    | 0 => simp [Shape.partIx, Shape.partSize, chunkNo]; omega
    | 1 => simp [Shape.partIx, Shape.partSize]
  · match a with
    | 0 => simp [Shape.partSize]
    | 1 => simp [Shape.partSize]

theorem outSet_eq (L : grid0.Coords) (j : Fin 4) : outSet L j = (Rect.part (s := S16384x128) (a₀ := 0) hdiv (chunkNo L j)).set := by
  show ((View.whole (main_v1_scv : Ref sig .scVector)).slice (outRect L j)).set = _
  rw [View.set_slice, outRect_eq]; exact Finset.map_refl

/-- Grid point and chunk from the chunk number, and back. -/
def chunkEquiv : (Fin (grid0.bound 0) × Fin (grid0.bound 1)) × Fin 4 ≃ Fin 128 where
  toFun x := chunkNo (coordsV x.1.1 x.1.2) x.2
  invFun p := ((⟨(p.val / 4) % 2, Nat.mod_lt _ (by decide)⟩, ⟨p.val / 8, by have := p.isLt; show p.val / 8 < 16; omega⟩), ⟨p.val % 4, Nat.mod_lt _ (by decide)⟩)
  left_inv x := by
    obtain ⟨⟨c, s⟩, j⟩ := x
    have hc : c.val < 2 := c.isLt
    have hs : s.val < 16 := s.isLt
    have hj := j.isLt
    refine Prod.ext (Prod.ext (Fin.ext ?_) (Fin.ext ?_)) (Fin.ext ?_) <;> simp [chunkNo, coordsV] <;> omega
  right_inv p := by
    have hp := p.isLt
    refine Fin.ext ?_
    simp [chunkNo, coordsV]; omega

variable (m : (ℓ : Loc nD τ sig) → Buf (Elt F) ℓ)

/-- The result held whole is its 128 chunks, grouped by SparseCore and subcore. -/
theorem v1_chunks (d : Dev nD) (f : Buf (Elt F) (v1Loc d)) :
    (v1Loc d ↦{fullShare} f : sProp 𝕄)
      = bigSep Finset.univ fun c : Fin (grid0.bound 0) => bigSep Finset.univ fun s : Fin (grid0.bound 1) => bigSep Finset.univ fun j : Fin 4 =>
          v1Loc d ↦[outSet (coordsV c s) j]{fullShare} f := by
  have h1 : (v1Loc d ↦{fullShare} f : sProp 𝕄) = bigSep Finset.univ fun p : Fin 128 => v1Loc d ↦[(Rect.part (s := S16384x128) (a₀ := 0) hdiv p).set]{fullShare} f := by
    rw [← pointsTo_biUnion Finset.univ (ℓ := v1Loc d) (fun p : Fin 128 => (Rect.part (s := S16384x128) (a₀ := 0) hdiv p).set)
      (fun i _ j _ h => Rect.part_disjoint hdiv h), Rect.biUnion_part hdiv]; try rfl
  rw [h1, bigSep_univ_equiv chunkEquiv, bigSep_univ_prod, bigSep_univ_prod]
  refine bigSep_congr fun c _ => bigSep_congr fun s _ => bigSep_congr fun j _ => ?_
  rw [outSet_eq]; rfl

end Cert.Proof.KB

end
-- ==== Proof.KB.Split.lean ====
/-
  Two launch lemmas of the embedding-lookup kernel.

  The split: what the TensorCore hands one SparseCore at the call — its read tokens of the reshaped labels and of the
  table, the 64 chunks of the result its subcores write — and that SparseCore's shared buffer are dealt among its sixteen
  vector subcores. Each read token is cut into sixteen tokens and a remainder; the remainder waits inside the wand and
  is rejoined with the sixteen on the way back. The chunks are already grouped by subcore. The shared buffer goes whole
  to subcore 0; every subcore returns its read token of it and subcore 0 also the remainder beside the sixteen, all
  holding the table, and these join into the buffer whole again.

  The launch element: the barrier's cells are allocated for every vector subcore at once, their semaphores found at zero
  among the free semaphores, their invariants opened, and each subcore is dealt its kit — every cell invariant of its
  SparseCore, its duty token in every subcore's round, its own position, and the credit for the sixteen units of its
  own round. The call runs on both SparseCores, so every vector subcore has a kit.
-/
import proofs.«202797_g70420283785446_cont_9to1_m_562_18_alg».proof.Proof.KB.Common

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable (m : (ℓ : Loc nD τ sig) → Buf (Elt F) ℓ)
variable [FloatOps F]

local notation "𝕄" => MT nD τ sig (HIx 1) (Elt F) ℕ UU ℕ

/-! ## How one SparseCore's operands split among its sixteen subcores, and join back -/

omit [FloatOps F] in
/-- A big separating conjunction over the call's subcores is one over the grid's second coordinate. -/
theorem bigSep_tasks (Φ : Fin (grid0.bound 1) → sProp 𝕄) :
    (bigSep Finset.univ fun i : Fin ((K (F := F)).nSub 0) => Φ ⟨i.val, i.isLt⟩) = bigSep Finset.univ Φ :=
  bigSep_congr fun _ _ => congrArg Φ (Fin.ext rfl)

omit [FloatOps F] in
/-- and one over the grid's second coordinate is one over the sixteen read tokens' numbers. -/
theorem bigSep_bound1 (Φ : Fin 16 → sProp 𝕄) :
    (bigSep Finset.univ fun s : Fin (grid0.bound 1) => Φ (Fin.cast bound_one s)) = bigSep Finset.univ Φ :=
  bigSep_congr fun _ _ => congrArg Φ (Fin.ext rfl)

omit [FloatOps F] in
/-- A share of an array is sixteen read tokens, one per subcore, and a remainder. -/
theorem toks16 (ℓ : Loc nD τ sig) (f : Buf (Elt F) ℓ) (q : PosShare TreeShare) :
    (ℓ ↦{q} f : sProp 𝕄) ⊣⊢ iprop((ℓ ↦{Transfers.shareDrop q 16} f)
      ∗ bigSep Finset.univ fun s : Fin (grid0.bound 1) => ℓ ↦{Transfers.shareTok q 16 (Fin.cast bound_one s)} f) := by
  rw [bigSep_bound1 (F := F) (fun i => ℓ ↦{Transfers.shareTok q 16 i} f)]
  exact Transfers.pointsTo_toks q 16

omit [FloatOps F] in
/-- What only subcore 0 holds is held once. -/
theorem bigSep_zero (X : sProp 𝕄) :
    (bigSep Finset.univ fun s : Fin (grid0.bound 1) => if s.val = 0 then X else iprop(emp)) = X := by
  rw [SparseCore.bigSep_erase' (Finset.mem_univ (⟨0, by decide⟩ : Fin (grid0.bound 1))),
    show (bigSep ((Finset.univ : Finset (Fin (grid0.bound 1))).erase ⟨0, by decide⟩) fun s : Fin (grid0.bound 1) => if s.val = 0 then X else iprop(emp))
      = bigSep ((Finset.univ : Finset (Fin (grid0.bound 1))).erase ⟨0, by decide⟩) fun _ => (iprop(emp) : sProp 𝕄) from
      bigSep_congr fun s hs => if_neg fun h => (Finset.mem_erase.mp hs).1 (Fin.ext h), bigSep_emp', if_pos rfl]
  exact equiv_iff.mp sep_emp

/-- What the subcore at `(c, s)` is handed, and hands back, with the grid point spelt out. -/
def goC (d : Dev nD) (c : Fin (grid0.bound 0)) (sc : Fin τ.nSC) (s : Fin (grid0.bound 1)) : sProp 𝕄 :=
  iprop((v0Loc d ↦{qT (Fin.cast bound_zero c) (Fin.cast bound_one s)} lab3 m d) ∗ (tbLoc d ↦{qT (Fin.cast bound_zero c) (Fin.cast bound_one s)} m (tbLoc d))
    ∗ (bigSep Finset.univ fun j : Fin 4 => v1Loc d ↦[outSet (coordsV c s) j]{fullShare} m (v1Loc d))
    ∗ (if s.val = 0 then iprop(∃ f, shLoc d sc ↦{fullShare} f) else iprop(emp)))
def tdC (d : Dev nD) (c : Fin (grid0.bound 0)) (sc : Fin τ.nSC) (s : Fin (grid0.bound 1)) : sProp 𝕄 :=
  iprop((v0Loc d ↦{qT (Fin.cast bound_zero c) (Fin.cast bound_one s)} lab3 m d) ∗ (tbLoc d ↦{qT (Fin.cast bound_zero c) (Fin.cast bound_one s)} m (tbLoc d))
    ∗ (bigSep Finset.univ fun j : Fin 4 => v1Loc d ↦[outSet (coordsV c s) j]{fullShare} outG m d)
    ∗ (shLoc d sc ↦{qS (Fin.cast bound_one s)} tabS m d sc)
    ∗ (if s.val = 0 then iprop(shLoc d sc ↦{qS0} tabS m d sc) else iprop(emp)))

theorem goRes_LL (d : Dev nD) (c : Fin ((K (F := F)).nCore 0)) (i : Fin ((K (F := F)).nSub 0)) :
    goRes m d (LL c i) = goC m d ⟨c.val, c.isLt⟩ (coreOf c) ⟨i.val, i.isLt⟩ := rfl
theorem tdRes_LL (d : Dev nD) (c : Fin ((K (F := F)).nCore 0)) (i : Fin ((K (F := F)).nSub 0)) :
    tdRes m d (LL c i) = tdC m d ⟨c.val, c.isLt⟩ (coreOf c) ⟨i.val, i.isLt⟩ := rfl

/-- The split over one SparseCore's shared buffer alone: the read-only arrays' tokens go out and their remainders wait
    inside the wand; the chunks go as they are grouped; the buffer goes whole to subcore 0 and comes back as its sixteen
    read tokens and their remainder, holding the table. -/
theorem split_core (d : Dev nD) (c : Fin (grid0.bound 0)) (sc : Fin τ.nSC) :
    iprop(stRes m d c ∗ (∃ f, shLoc d sc ↦{fullShare} f))
      ⊢ iprop((bigSep Finset.univ fun s : Fin (grid0.bound 1) => goC m d c sc s)
        ∗ ((bigSep Finset.univ fun s : Fin (grid0.bound 1) => tdC m d c sc s) -∗ iprop(dnRes m d c ∗ ∃ f, shLoc d sc ↦{fullShare} f))) := by
  unfold stRes dnRes goC tdC
  rw [bigSep_sep', bigSep_sep', bigSep_sep', bigSep_sep', bigSep_sep', bigSep_sep', bigSep_sep', bigSep_zero, bigSep_zero]
  iintro ⟨⟨Hv, Ht, Hch⟩, Hsh⟩
  ihave Hv' := (toks16 (F := F) (v0Loc d) (lab3 m d) (qC (Fin.cast bound_zero c))).1 $$ Hv
  icases Hv' with ⟨Hvr, Hvt⟩
  ihave Ht' := (toks16 (F := F) (tbLoc d) (m (tbLoc d)) (qC (Fin.cast bound_zero c))).1 $$ Ht
  icases Ht' with ⟨Htr, Htt⟩
  isplitl [Hvt Htt Hch Hsh]
  · isplitl [Hvt]; · iexact Hvt
    isplitl [Htt]; · iexact Htt
    isplitl [Hch]; · iexact Hch
    iexact Hsh
  iintro ⟨Hvt, Htt, Hch, Hst, Hs0⟩
  isplitl [Hvr Hvt Htr Htt Hch]
  · isplitl [Hvr Hvt]
    · iapply (toks16 (F := F) (v0Loc d) (lab3 m d) (qC (Fin.cast bound_zero c))).2
      isplitl [Hvr]; · iexact Hvr
      iexact Hvt
    isplitl [Htr Htt]
    · iapply (toks16 (F := F) (tbLoc d) (m (tbLoc d)) (qC (Fin.cast bound_zero c))).2
      isplitl [Htr]; · iexact Htr
      iexact Htt
    iexact Hch
  iexists (tabS m d sc)
  iapply (toks16 (F := F) (shLoc d sc) (tabS m d sc) fullShare).2
  isplitl [Hs0]; · iexact Hs0
  iexact Hst

omit [FloatOps F] in
/-- The shared buffer is among the sequencer's own: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop(stRes m d ⟨c.val, c.isLt⟩ ∗ ownBufs (S d (coreOf c))) ⊢ |={Set.univ}=> iprop(
      (bigSep Finset.univ fun i : Fin ((K (F := F)).nSub 0) => goRes m d (LL c i))
      ∗ ((bigSep Finset.univ fun i : Fin ((K (F := F)).nSub 0) => tdRes m d (LL c i))
          -∗ iprop(dnRes m d ⟨c.val, c.isLt⟩ ∗ ownBufs (S d (coreOf c)))))
  simp only [goRes_LL, tdRes_LL]
  rw [bigSep_tasks (F := F) (fun s => goC m d ⟨c.val, c.isLt⟩ (coreOf c) s), bigSep_tasks (F := F) (fun s => tdC m d ⟨c.val, c.isLt⟩ (coreOf c) s), ownBufs_S]
  iintro ⟨Hst, Hsh, Hrest⟩; imodintro
  ihave H := (split_core m d ⟨c.val, c.isLt⟩ (coreOf c)) $$ [Hst Hsh]
  · isplitl [Hst]; · iexact Hst
    iexact Hsh
  icases H with ⟨Hgo, Hback⟩
  isplitl [Hgo]; · iexact Hgo
  iintro Htd
  ihave H2 := Hback $$ Htd
  icases H2 with ⟨Hdn, Hsh⟩
  isplitl [Hdn]; · iexact Hdn
  isplitl [Hsh]; · iexact Hsh
  iexact Hrest

/-! ## The launch element of the ghost state, and what the launch hands over -/

abbrev DCI : Type := Dev nD × Fin τ.nSC × Fin τ.nSub
abbrev bcell₃ (x : DCI) : GSem nD τ sig := bcell x.1 x.2.1 x.2.2

/-- Every vector subcore's barrier cell, -/
def bCells : Finset (GSem nD τ sig) := Finset.univ.image bcell₃
/-- and subcore `i`'s token in subcore `j`'s cell, for every pair of subcores of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each subcore the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each subcore is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One subcore's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each subcore its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

end Cert.Proof.KB

end
-- ==== Proof.KB.Labels.lean ====
/-
  Facts about the labels, pure: after @main's reshape label (w, j, k) is label number 512 w + 128 j + k; under the
  precondition every reshaped label is the word 0 or 1, so read as a row number it is below 2, and that row number is
  the row the specification assigns the word.
-/
import proofs.«202797_g70420283785446_cont_9to1_m_562_18_alg».proof.Proof.KB.Common

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v0V" => (Memref.whole Cert.Kernel.main_v0_scv : Memref Cert.Kernel.sig Kind.scVector Space.hbm Cert.Kernel.S32x4x128 EltTy.i32)
local notation "tbV" => (Memref.whole Cert.Kernel.main_arg1_scv : Memref Cert.Kernel.sig Kind.scVector Space.hbm Cert.Kernel.S2x128 EltTy.f32)
local notation "v1V" => (Memref.whole Cert.Kernel.main_v1_scv : Memref Cert.Kernel.sig Kind.scVector Space.hbm Cert.Kernel.S16384x128 EltTy.f32)
local notation "ixV" => (Memref.whole Cert.Kernel.cc0_scratch0 : Memref Cert.Kernel.sig Kind.scVector Space.vmem Cert.Kernel.S4x128 EltTy.i32)
local notation "shV" => (Memref.whole Cert.Kernel.cc0_scratch1 : Memref Cert.Kernel.sig Kind.scVector Space.shared Cert.Kernel.S2x128 EltTy.f32)
local notation "rwV" => (Memref.whole Cert.Kernel.cc0_scratch2 : Memref Cert.Kernel.sig Kind.scVector Space.vmem Cert.Kernel.S512x128 EltTy.f32)

variable (m : (ℓ : Loc nD τ sig) → Buf (Elt F) ℓ)

/-- The reshaped labels read at an index are the labels at the row-major position. -/
theorem lab3_apply (d : Dev nD) (w : Fin 32) (j : Fin 4) (k : Fin 128) :
    lab3 m d (ix3 w j k) = (m (a0Loc d) : S16384.Idx → Elt F .i32) (ix1 ⟨512 * w.val + 128 * j.val + k.val, by have := w.isLt; have := j.isLt; have := k.isLt; omega⟩) := by
  unfold lab3
  refine shapeCast_apply (s := S16384) (t := S32x4x128) _ shapeCasts_S16384_S32x4x128 _ _ ?_
  rw [Shape.rowMajor_val_one, Shape.rowMajor_val_three]
  show 512 * w.val + 128 * j.val + k.val = (w.val * 4 + j.val) * 128 + k.val
  omega

/-- Under the precondition every reshaped label is the word 0 or the word 1. -/
theorem lab3_01 (hpre : PreOK m) (d : Dev nD) (i : S32x4x128.Idx) : lab3 m d i = (0#32 : BitVec 32) ∨ lab3 m d i = (1#32 : BitVec 32) := by
  unfold lab3 shapeCast
  have h := hpre d ((Shape.reshapeEquiv shapeCasts_S16384_S32x4x128 i) 0)
  rw [eq_ix1 (Shape.reshapeEquiv shapeCasts_S16384_S32x4x128 i)]
  exact h

/-- A label word 0 or 1 read as a row number is below 2, -/
theorem toNat_lt_two {w : BitVec 32} (h : w = 0#32 ∨ w = 1#32) : w.toNat < 2 := by
  rcases h with rfl | rfl <;> decide

/-- and that row is the row the specification gives the word. -/
theorem rowOf_eq_toNat {w : BitVec 32} (h : w = 0#32 ∨ w = 1#32) (hw : w.toNat < 2) : (⟨w.toNat, hw⟩ : Fin 2) = Cert.Spec.rowOf w := by
  rcases h with rfl | rfl
  · exact Fin.ext (show (0#32 : BitVec 32).toNat = (Cert.Spec.rowOf 0#32).val by decide)
  · exact Fin.ext (show (1#32 : BitVec 32).toNat = (Cert.Spec.rowOf 1#32).val by decide)

/-- The result as one function of the arguments, read at row 512 w + 128 j + k: the table row the reshaped label (w, j, k) names. -/
theorem outG_apply (d : Dev nD) (w : Fin 32) (j : Fin 4) (k : Fin 128) (h : Fin 128) :
    outG m d (ix2 ⟨512 * w.val + 128 * j.val + k.val, by have := w.isLt; have := j.isLt; have := k.isLt; omega⟩ h)
      = (m (tbLoc d) : S2x128.Idx → Elt F .f32) (ix2 (Cert.Spec.rowOf (lab3 m d (ix3 w j k))) h) := by
  rw [lab3_apply]; rfl

end Cert.Proof.KB

end
-- ==== Proof.KB.Value.lean ====
/-
  Pure facts about the subcore's index scratch and its label rows. The scratch is four rows of 128 words; the four
  label copies each overwrite one row, so after them row j holds what copy j carried, whatever the scratch held before
  and in whatever order the rows are read. Copy j carries row j of the subcore's block of the reshaped labels: labels
  (2 (L 1) + (L 0), j, ·).
-/
import proofs.«202797_g70420283785446_cont_9to1_m_562_18_alg».proof.Proof.KB.Common
import proofs.«202797_g70420283785446_cont_9to1_m_562_18_alg».proof.Proof.KB.Labels
import Idealize.ShloMosaic.Lib.ValueLayout

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v0V" => (Memref.whole Cert.Kernel.main_v0_scv : Memref Cert.Kernel.sig Kind.scVector Space.hbm Cert.Kernel.S32x4x128 EltTy.i32)
local notation "tbV" => (Memref.whole Cert.Kernel.main_arg1_scv : Memref Cert.Kernel.sig Kind.scVector Space.hbm Cert.Kernel.S2x128 EltTy.f32)
local notation "v1V" => (Memref.whole Cert.Kernel.main_v1_scv : Memref Cert.Kernel.sig Kind.scVector Space.hbm Cert.Kernel.S16384x128 EltTy.f32)
local notation "ixV" => (Memref.whole Cert.Kernel.cc0_scratch0 : Memref Cert.Kernel.sig Kind.scVector Space.vmem Cert.Kernel.S4x128 EltTy.i32)
local notation "shV" => (Memref.whole Cert.Kernel.cc0_scratch1 : Memref Cert.Kernel.sig Kind.scVector Space.shared Cert.Kernel.S2x128 EltTy.f32)
local notation "rwV" => (Memref.whole Cert.Kernel.cc0_scratch2 : Memref Cert.Kernel.sig Kind.scVector Space.vmem Cert.Kernel.S512x128 EltTy.f32)

/-- Row 0 of the index scratch, as the kernel slices it. -/
abbrev ixRow0 : Memref sig .scVector .vmem S128 .i32 := ((ixV).slice (Rect.unit (s := S4x128) ![0, 0] S1x128.size inb_S4x128_S1x128_0_0) (fun _ => rfl)).squeeze S128 squeezes_S1x128_S128
/-- Row 1 of the index scratch, as the kernel slices it. -/
abbrev ixRow1 : Memref sig .scVector .vmem S128 .i32 := ((ixV).slice (Rect.unit (s := S4x128) ![1, 0] S1x128.size inb_S4x128_S1x128_1_0) (fun _ => rfl)).squeeze S128 squeezes_S1x128_S128
/-- Row 2 of the index scratch, as the kernel slices it. -/
abbrev ixRow2 : Memref sig .scVector .vmem S128 .i32 := ((ixV).slice (Rect.unit (s := S4x128) ![2, 0] S1x128.size inb_S4x128_S1x128_2_0) (fun _ => rfl)).squeeze S128 squeezes_S1x128_S128
/-- Row 3 of the index scratch, as the kernel slices it. -/
abbrev ixRow3 : Memref sig .scVector .vmem S128 .i32 := ((ixV).slice (Rect.unit (s := S4x128) ![3, 0] S1x128.size inb_S4x128_S1x128_3_0) (fun _ => rfl)).squeeze S128 squeezes_S1x128_S128

theorem set_ixRow0 : (ixRow0).view.set = (Rect.unit (s := S4x128) ![0, 0] S1x128.size inb_S4x128_S1x128_0_0).set := by
  show (((View.whole (cc0_scratch0 : Ref sig .scVector)).slice _).reshape S128 _).set = _
  rw [View.set_reshape, View.set_slice_whole]
theorem set_ixRow1 : (ixRow1).view.set = (Rect.unit (s := S4x128) ![1, 0] S1x128.size inb_S4x128_S1x128_1_0).set := by
  show (((View.whole (cc0_scratch0 : Ref sig .scVector)).slice _).reshape S128 _).set = _
  rw [View.set_reshape, View.set_slice_whole]
theorem set_ixRow2 : (ixRow2).view.set = (Rect.unit (s := S4x128) ![2, 0] S1x128.size inb_S4x128_S1x128_2_0).set := by
  show (((View.whole (cc0_scratch0 : Ref sig .scVector)).slice _).reshape S128 _).set = _
  rw [View.set_reshape, View.set_slice_whole]
theorem set_ixRow3 : (ixRow3).view.set = (Rect.unit (s := S4x128) ![3, 0] S1x128.size inb_S4x128_S1x128_3_0).set := by
  show (((View.whole (cc0_scratch0 : Ref sig .scVector)).slice _).reshape S128 _).set = _
  rw [View.set_reshape, View.set_slice_whole]

/-- An index of the scratch lies in row j exactly when its first coordinate is j. -/
theorem mem_ixRow0 (i : S4x128.Idx) : i ∈ (ixRow0).view.set ↔ (i 0).val = 0 := by
  rw [set_ixRow0, Rect.mem_set_unit]
  constructor
  · intro h; have h0 := h 0; simp at h0; omega
  · intro h a
    match a with
    | 0 => simp; omega
    | 1 => simp; exact (i 1).isLt
theorem mem_ixRow1 (i : S4x128.Idx) : i ∈ (ixRow1).view.set ↔ (i 0).val = 1 := by
  rw [set_ixRow1, Rect.mem_set_unit]
  constructor
  · intro h; have h0 := h 0; simp at h0; omega
  · intro h a
    match a with
    | 0 => simp; omega
    | 1 => simp; exact (i 1).isLt
theorem mem_ixRow2 (i : S4x128.Idx) : i ∈ (ixRow2).view.set ↔ (i 0).val = 2 := by
  rw [set_ixRow2, Rect.mem_set_unit]
  constructor
  · intro h; have h0 := h 0; simp at h0; omega
  · intro h a
    match a with
    | 0 => simp; omega
    | 1 => simp; exact (i 1).isLt
theorem mem_ixRow3 (i : S4x128.Idx) : i ∈ (ixRow3).view.set ↔ (i 0).val = 3 := by
  rw [set_ixRow3, Rect.mem_set_unit]
  constructor
  · intro h; have h0 := h 0; simp at h0; omega
  · intro h a
    match a with
    | 0 => simp; omega
    | 1 => simp; exact (i 1).isLt

/-- A copy into row 1 is not seen through row 0. -/
theorem read_ixRow0_write1 (f : (ixV).view.ty.Contents (Elt F)) (w : S128.Idx → Elt F .i32) :
    (ixRow0).view.read (Elt F) (View.write (Elt F) (ixRow1).view f w Finset.univ) = (ixRow0).view.read (Elt F) f :=
  View.read_congr fun i hi => View.write_of_not_mem _ _ _ (by
    rw [View.setOn_univ]; intro hb
    have h1 := (mem_ixRow0 i).mp hi
    have h2 := (mem_ixRow1 i).mp hb
    omega)
/-- A copy into row 2 is not seen through row 0. -/
theorem read_ixRow0_write2 (f : (ixV).view.ty.Contents (Elt F)) (w : S128.Idx → Elt F .i32) :
    (ixRow0).view.read (Elt F) (View.write (Elt F) (ixRow2).view f w Finset.univ) = (ixRow0).view.read (Elt F) f :=
  View.read_congr fun i hi => View.write_of_not_mem _ _ _ (by
    rw [View.setOn_univ]; intro hb
    have h1 := (mem_ixRow0 i).mp hi
    have h2 := (mem_ixRow2 i).mp hb
    omega)
/-- A copy into row 3 is not seen through row 0. -/
theorem read_ixRow0_write3 (f : (ixV).view.ty.Contents (Elt F)) (w : S128.Idx → Elt F .i32) :
    (ixRow0).view.read (Elt F) (View.write (Elt F) (ixRow3).view f w Finset.univ) = (ixRow0).view.read (Elt F) f :=
  View.read_congr fun i hi => View.write_of_not_mem _ _ _ (by
    rw [View.setOn_univ]; intro hb
    have h1 := (mem_ixRow0 i).mp hi
    have h2 := (mem_ixRow3 i).mp hb
    omega)
/-- A copy into row 0 is not seen through row 1. -/
theorem read_ixRow1_write0 (f : (ixV).view.ty.Contents (Elt F)) (w : S128.Idx → Elt F .i32) :
    (ixRow1).view.read (Elt F) (View.write (Elt F) (ixRow0).view f w Finset.univ) = (ixRow1).view.read (Elt F) f :=
  View.read_congr fun i hi => View.write_of_not_mem _ _ _ (by
    rw [View.setOn_univ]; intro hb
    have h1 := (mem_ixRow1 i).mp hi
    have h2 := (mem_ixRow0 i).mp hb
    omega)
/-- A copy into row 2 is not seen through row 1. -/
theorem read_ixRow1_write2 (f : (ixV).view.ty.Contents (Elt F)) (w : S128.Idx → Elt F .i32) :
    (ixRow1).view.read (Elt F) (View.write (Elt F) (ixRow2).view f w Finset.univ) = (ixRow1).view.read (Elt F) f :=
  View.read_congr fun i hi => View.write_of_not_mem _ _ _ (by
    rw [View.setOn_univ]; intro hb
    have h1 := (mem_ixRow1 i).mp hi
    have h2 := (mem_ixRow2 i).mp hb
    omega)
/-- A copy into row 3 is not seen through row 1. -/
theorem read_ixRow1_write3 (f : (ixV).view.ty.Contents (Elt F)) (w : S128.Idx → Elt F .i32) :
    (ixRow1).view.read (Elt F) (View.write (Elt F) (ixRow3).view f w Finset.univ) = (ixRow1).view.read (Elt F) f :=
  View.read_congr fun i hi => View.write_of_not_mem _ _ _ (by
    rw [View.setOn_univ]; intro hb
    have h1 := (mem_ixRow1 i).mp hi
    have h2 := (mem_ixRow3 i).mp hb
    omega)
/-- A copy into row 0 is not seen through row 2. -/
theorem read_ixRow2_write0 (f : (ixV).view.ty.Contents (Elt F)) (w : S128.Idx → Elt F .i32) :
    (ixRow2).view.read (Elt F) (View.write (Elt F) (ixRow0).view f w Finset.univ) = (ixRow2).view.read (Elt F) f :=
  View.read_congr fun i hi => View.write_of_not_mem _ _ _ (by
    rw [View.setOn_univ]; intro hb
    have h1 := (mem_ixRow2 i).mp hi
    have h2 := (mem_ixRow0 i).mp hb
    omega)
/-- A copy into row 1 is not seen through row 2. -/
theorem read_ixRow2_write1 (f : (ixV).view.ty.Contents (Elt F)) (w : S128.Idx → Elt F .i32) :
    (ixRow2).view.read (Elt F) (View.write (Elt F) (ixRow1).view f w Finset.univ) = (ixRow2).view.read (Elt F) f :=
  View.read_congr fun i hi => View.write_of_not_mem _ _ _ (by
    rw [View.setOn_univ]; intro hb
    have h1 := (mem_ixRow2 i).mp hi
    have h2 := (mem_ixRow1 i).mp hb
    omega)
/-- A copy into row 3 is not seen through row 2. -/
theorem read_ixRow2_write3 (f : (ixV).view.ty.Contents (Elt F)) (w : S128.Idx → Elt F .i32) :
    (ixRow2).view.read (Elt F) (View.write (Elt F) (ixRow3).view f w Finset.univ) = (ixRow2).view.read (Elt F) f :=
  View.read_congr fun i hi => View.write_of_not_mem _ _ _ (by
    rw [View.setOn_univ]; intro hb
    have h1 := (mem_ixRow2 i).mp hi
    have h2 := (mem_ixRow3 i).mp hb
    omega)
/-- A copy into row 0 is not seen through row 3. -/
theorem read_ixRow3_write0 (f : (ixV).view.ty.Contents (Elt F)) (w : S128.Idx → Elt F .i32) :
    (ixRow3).view.read (Elt F) (View.write (Elt F) (ixRow0).view f w Finset.univ) = (ixRow3).view.read (Elt F) f :=
  View.read_congr fun i hi => View.write_of_not_mem _ _ _ (by
    rw [View.setOn_univ]; intro hb
    have h1 := (mem_ixRow3 i).mp hi
    have h2 := (mem_ixRow0 i).mp hb
    omega)
/-- A copy into row 1 is not seen through row 3. -/
theorem read_ixRow3_write1 (f : (ixV).view.ty.Contents (Elt F)) (w : S128.Idx → Elt F .i32) :
    (ixRow3).view.read (Elt F) (View.write (Elt F) (ixRow1).view f w Finset.univ) = (ixRow3).view.read (Elt F) f :=
  View.read_congr fun i hi => View.write_of_not_mem _ _ _ (by
    rw [View.setOn_univ]; intro hb
    have h1 := (mem_ixRow3 i).mp hi
    have h2 := (mem_ixRow1 i).mp hb
    omega)
/-- A copy into row 2 is not seen through row 3. -/
theorem read_ixRow3_write2 (f : (ixV).view.ty.Contents (Elt F)) (w : S128.Idx → Elt F .i32) :
    (ixRow3).view.read (Elt F) (View.write (Elt F) (ixRow2).view f w Finset.univ) = (ixRow3).view.read (Elt F) f :=
  View.read_congr fun i hi => View.write_of_not_mem _ _ _ (by
    rw [View.setOn_univ]; intro hb
    have h1 := (mem_ixRow3 i).mp hi
    have h2 := (mem_ixRow2 i).mp hb
    omega)

/-- The index scratch after the four label copies, in the order they are issued. -/
def ixW (fi : (ixV).view.ty.Contents (Elt F)) (p0 p1 p2 p3 : S128.Idx → Elt F .i32) : (ixV).view.ty.Contents (Elt F) :=
  View.write (Elt F) ixRow3.view (View.write (Elt F) ixRow2.view (View.write (Elt F) ixRow1.view (View.write (Elt F) ixRow0.view fi p0 Finset.univ) p1 Finset.univ) p2 Finset.univ) p3 Finset.univ

variable (fi : (ixV).view.ty.Contents (Elt F)) (p0 p1 p2 p3 : S128.Idx → Elt F .i32)

theorem read_ixW0 : ixRow0.view.read (Elt F) (ixW fi p0 p1 p2 p3) = p0 := by
  unfold ixW; rw [read_ixRow0_write3, read_ixRow0_write2, read_ixRow0_write1, View.read_write_univ]
theorem read_ixW1 : ixRow1.view.read (Elt F) (ixW fi p0 p1 p2 p3) = p1 := by
  unfold ixW; rw [read_ixRow1_write3, read_ixRow1_write2, View.read_write_univ]
theorem read_ixW2 : ixRow2.view.read (Elt F) (ixW fi p0 p1 p2 p3) = p2 := by
  unfold ixW; rw [read_ixRow2_write3, View.read_write_univ]
theorem read_ixW3 : ixRow3.view.read (Elt F) (ixW fi p0 p1 p2 p3) = p3 := by
  unfold ixW; rw [View.read_write_univ]

/-! ## The label rows the copies carry -/

variable (m : (ℓ : Loc nD τ sig) → Buf (Elt F) ℓ)

/-- A vector index of length 128 is matched with (0, ·) of the row it was squeezed out of. -/
theorem reshape_S128 (h : S128.numel = S1x128.numel) (x : S128.Idx) : Shape.reshapeEquiv h x = ix2 (⟨0, Nat.one_pos⟩ : Fin 1) (⟨(x 0).val, (x 0).isLt⟩ : Fin 128) :=
  Shape.reshapeEquiv_eq_of_rowMajor h (by
    rw [Shape.rowMajor_val_two, Shape.rowMajor_val_one]
    show (0 : ℕ) * 128 + (x 0).val = (x 0).val
    omega)

/-- Entry (0, y) of row 0 of a four-row block is entry (0, y) of the block. -/
theorem emb_row0 (y : Fin 128) :
    (Rect.unit (s := S4x128) ![0, 0] S1x128.size inb_S4x128_S1x128_0_0).emb (ix2 (⟨0, Nat.one_pos⟩ : Fin 1) y) = ix2 (⟨0, by decide⟩ : Fin 4) y := by
  funext a
  apply Fin.ext
  match a with
  | 0 => rw [Rect.emb_apply]; simp
  | 1 => rw [Rect.emb_apply]; simp
/-- Entry (0, y) of row 1 of a four-row block is entry (1, y) of the block. -/
theorem emb_row1 (y : Fin 128) :
    (Rect.unit (s := S4x128) ![1, 0] S1x128.size inb_S4x128_S1x128_1_0).emb (ix2 (⟨0, Nat.one_pos⟩ : Fin 1) y) = ix2 (⟨1, by decide⟩ : Fin 4) y := by
  funext a
  apply Fin.ext
  match a with
  | 0 => rw [Rect.emb_apply]; simp
  | 1 => rw [Rect.emb_apply]; simp
/-- Entry (0, y) of row 2 of a four-row block is entry (2, y) of the block. -/
theorem emb_row2 (y : Fin 128) :
    (Rect.unit (s := S4x128) ![2, 0] S1x128.size inb_S4x128_S1x128_2_0).emb (ix2 (⟨0, Nat.one_pos⟩ : Fin 1) y) = ix2 (⟨2, by decide⟩ : Fin 4) y := by
  funext a
  apply Fin.ext
  match a with
  | 0 => rw [Rect.emb_apply]; simp
  | 1 => rw [Rect.emb_apply]; simp
/-- Entry (0, y) of row 3 of a four-row block is entry (3, y) of the block. -/
theorem emb_row3 (y : Fin 128) :
    (Rect.unit (s := S4x128) ![3, 0] S1x128.size inb_S4x128_S1x128_3_0).emb (ix2 (⟨0, Nat.one_pos⟩ : Fin 1) y) = ix2 (⟨3, by decide⟩ : Fin 4) y := by
  funext a
  apply Fin.ext
  match a with
  | 0 => rw [Rect.emb_apply]; simp
  | 1 => rw [Rect.emb_apply]; simp

/-- The subcore's block number among the 32 blocks of labels. -/
theorem wid_lt (L : grid0.Coords) : 2 * (L 1).val + (L 0).val < 32 := by
  have h0 : (L 0).val < 2 := (L 0).isLt
  have h1 : (L 1).val < 16 := (L 1).isLt
  omega

/-- Row 0 of the subcore's block of the reshaped labels, as the kernel slices it. -/
abbrev v0Row0 (L : grid0.Coords) : Memref sig .scVector .hbm S128 .i32 :=
  ((((v0V).slice (Rect.unit (s := S32x4x128) (k0_off1 L) S1x4x128.size (k0_off1_inb L)) (fun _ => rfl)).squeeze S4x128 squeezes_S1x4x128_S4x128).slice
    (Rect.unit (s := S4x128) ![0, 0] S1x128.size inb_S4x128_S1x128_0_0) (fun _ => rfl)).squeeze S128 squeezes_S1x128_S128

theorem v0Row0_emb (L : grid0.Coords) (x : S128.Idx) :
    (v0Row0 L).view.emb x = ix3 (⟨2 * (L 1).val + (L 0).val, wid_lt L⟩ : Fin 32) (⟨0, by decide⟩ : Fin 4) (⟨(x 0).val, (x 0).isLt⟩ : Fin 128) := by
  simp only [Memref.view_squeeze, Memref.view_slice, Memref.view_whole, View.emb_reshape, View.emb_slice, View.emb_whole,
    Function.Embedding.trans_apply, Function.Embedding.refl_apply, Equiv.coe_toEmbedding]
  rw [reshape_S128, emb_row0, reshapeEquiv_ix2_1ab]
  funext a
  apply Fin.ext
  match a with
  | 0 => rw [Rect.emb_apply]; simp only [Rect.off_unit, Rect.stride_unit, k0_off1_eq]; simp; rfl
  | 1 => rw [Rect.emb_apply]; simp only [Rect.off_unit, Rect.stride_unit, k0_off1_eq]; simp; rfl
  | 2 => rw [Rect.emb_apply]; simp only [Rect.off_unit, Rect.stride_unit, k0_off1_eq]; simp; rfl

theorem v0Row0_read (d : Dev nD) (L : grid0.Coords) (x : S128.Idx) :
    (v0Row0 L).view.read (Elt F) (lab3 m d) x = lab3 m d (ix3 (⟨2 * (L 1).val + (L 0).val, wid_lt L⟩ : Fin 32) (⟨0, by decide⟩ : Fin 4) (⟨(x 0).val, (x 0).isLt⟩ : Fin 128)) := by
  rw [View.read_apply, v0Row0_emb]; rfl

/-- Row 1 of the subcore's block of the reshaped labels, as the kernel slices it. -/
abbrev v0Row1 (L : grid0.Coords) : Memref sig .scVector .hbm S128 .i32 :=
  ((((v0V).slice (Rect.unit (s := S32x4x128) (k0_off1 L) S1x4x128.size (k0_off1_inb L)) (fun _ => rfl)).squeeze S4x128 squeezes_S1x4x128_S4x128).slice
    (Rect.unit (s := S4x128) ![1, 0] S1x128.size inb_S4x128_S1x128_1_0) (fun _ => rfl)).squeeze S128 squeezes_S1x128_S128

theorem v0Row1_emb (L : grid0.Coords) (x : S128.Idx) :
    (v0Row1 L).view.emb x = ix3 (⟨2 * (L 1).val + (L 0).val, wid_lt L⟩ : Fin 32) (⟨1, by decide⟩ : Fin 4) (⟨(x 0).val, (x 0).isLt⟩ : Fin 128) := by
  simp only [Memref.view_squeeze, Memref.view_slice, Memref.view_whole, View.emb_reshape, View.emb_slice, View.emb_whole,
    Function.Embedding.trans_apply, Function.Embedding.refl_apply, Equiv.coe_toEmbedding]
  rw [reshape_S128, emb_row1, reshapeEquiv_ix2_1ab]
  funext a
  apply Fin.ext
  match a with
  | 0 => rw [Rect.emb_apply]; simp only [Rect.off_unit, Rect.stride_unit, k0_off1_eq]; simp; rfl
  | 1 => rw [Rect.emb_apply]; simp only [Rect.off_unit, Rect.stride_unit, k0_off1_eq]; simp; rfl
  | 2 => rw [Rect.emb_apply]; simp only [Rect.off_unit, Rect.stride_unit, k0_off1_eq]; simp; rfl

theorem v0Row1_read (d : Dev nD) (L : grid0.Coords) (x : S128.Idx) :
    (v0Row1 L).view.read (Elt F) (lab3 m d) x = lab3 m d (ix3 (⟨2 * (L 1).val + (L 0).val, wid_lt L⟩ : Fin 32) (⟨1, by decide⟩ : Fin 4) (⟨(x 0).val, (x 0).isLt⟩ : Fin 128)) := by
  rw [View.read_apply, v0Row1_emb]; rfl

/-- Row 2 of the subcore's block of the reshaped labels, as the kernel slices it. -/
abbrev v0Row2 (L : grid0.Coords) : Memref sig .scVector .hbm S128 .i32 :=
  ((((v0V).slice (Rect.unit (s := S32x4x128) (k0_off1 L) S1x4x128.size (k0_off1_inb L)) (fun _ => rfl)).squeeze S4x128 squeezes_S1x4x128_S4x128).slice
    (Rect.unit (s := S4x128) ![2, 0] S1x128.size inb_S4x128_S1x128_2_0) (fun _ => rfl)).squeeze S128 squeezes_S1x128_S128

theorem v0Row2_emb (L : grid0.Coords) (x : S128.Idx) :
    (v0Row2 L).view.emb x = ix3 (⟨2 * (L 1).val + (L 0).val, wid_lt L⟩ : Fin 32) (⟨2, by decide⟩ : Fin 4) (⟨(x 0).val, (x 0).isLt⟩ : Fin 128) := by
  simp only [Memref.view_squeeze, Memref.view_slice, Memref.view_whole, View.emb_reshape, View.emb_slice, View.emb_whole,
    Function.Embedding.trans_apply, Function.Embedding.refl_apply, Equiv.coe_toEmbedding]
  rw [reshape_S128, emb_row2, reshapeEquiv_ix2_1ab]
  funext a
  apply Fin.ext
  match a with
  | 0 => rw [Rect.emb_apply]; simp only [Rect.off_unit, Rect.stride_unit, k0_off1_eq]; simp; rfl
  | 1 => rw [Rect.emb_apply]; simp only [Rect.off_unit, Rect.stride_unit, k0_off1_eq]; simp; rfl
  | 2 => rw [Rect.emb_apply]; simp only [Rect.off_unit, Rect.stride_unit, k0_off1_eq]; simp; rfl

theorem v0Row2_read (d : Dev nD) (L : grid0.Coords) (x : S128.Idx) :
    (v0Row2 L).view.read (Elt F) (lab3 m d) x = lab3 m d (ix3 (⟨2 * (L 1).val + (L 0).val, wid_lt L⟩ : Fin 32) (⟨2, by decide⟩ : Fin 4) (⟨(x 0).val, (x 0).isLt⟩ : Fin 128)) := by
  rw [View.read_apply, v0Row2_emb]; rfl

/-- Row 3 of the subcore's block of the reshaped labels, as the kernel slices it. -/
abbrev v0Row3 (L : grid0.Coords) : Memref sig .scVector .hbm S128 .i32 :=
  ((((v0V).slice (Rect.unit (s := S32x4x128) (k0_off1 L) S1x4x128.size (k0_off1_inb L)) (fun _ => rfl)).squeeze S4x128 squeezes_S1x4x128_S4x128).slice
    (Rect.unit (s := S4x128) ![3, 0] S1x128.size inb_S4x128_S1x128_3_0) (fun _ => rfl)).squeeze S128 squeezes_S1x128_S128

theorem v0Row3_emb (L : grid0.Coords) (x : S128.Idx) :
    (v0Row3 L).view.emb x = ix3 (⟨2 * (L 1).val + (L 0).val, wid_lt L⟩ : Fin 32) (⟨3, by decide⟩ : Fin 4) (⟨(x 0).val, (x 0).isLt⟩ : Fin 128) := by
  simp only [Memref.view_squeeze, Memref.view_slice, Memref.view_whole, View.emb_reshape, View.emb_slice, View.emb_whole,
    Function.Embedding.trans_apply, Function.Embedding.refl_apply, Equiv.coe_toEmbedding]
  rw [reshape_S128, emb_row3, reshapeEquiv_ix2_1ab]
  funext a
  apply Fin.ext
  match a with
  | 0 => rw [Rect.emb_apply]; simp only [Rect.off_unit, Rect.stride_unit, k0_off1_eq]; simp; rfl
  | 1 => rw [Rect.emb_apply]; simp only [Rect.off_unit, Rect.stride_unit, k0_off1_eq]; simp; rfl
  | 2 => rw [Rect.emb_apply]; simp only [Rect.off_unit, Rect.stride_unit, k0_off1_eq]; simp; rfl

theorem v0Row3_read (d : Dev nD) (L : grid0.Coords) (x : S128.Idx) :
    (v0Row3 L).view.read (Elt F) (lab3 m d) x = lab3 m d (ix3 (⟨2 * (L 1).val + (L 0).val, wid_lt L⟩ : Fin 32) (⟨3, by decide⟩ : Fin 4) (⟨(x 0).val, (x 0).isLt⟩ : Fin 128)) := by
  rw [View.read_apply, v0Row3_emb]; rfl

end Cert.Proof.KB

end
-- ==== Proof.KB.Gather.lean ====
/-
  One gathered entry, pure: the gather of the two-row table by a list of 128 label words, each the word 0 or 1, holds
  at row r, lane h the table's entry (row of word r, lane h) — the row the specification assigns the word.
-/
import proofs.«202797_g70420283785446_cont_9to1_m_562_18_alg».proof.Proof.KB.Common
import proofs.«202797_g70420283785446_cont_9to1_m_562_18_alg».proof.Proof.KB.Labels

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v0V" => (Memref.whole Cert.Kernel.main_v0_scv : Memref Cert.Kernel.sig Kind.scVector Space.hbm Cert.Kernel.S32x4x128 EltTy.i32)
local notation "tbV" => (Memref.whole Cert.Kernel.main_arg1_scv : Memref Cert.Kernel.sig Kind.scVector Space.hbm Cert.Kernel.S2x128 EltTy.f32)
local notation "v1V" => (Memref.whole Cert.Kernel.main_v1_scv : Memref Cert.Kernel.sig Kind.scVector Space.hbm Cert.Kernel.S16384x128 EltTy.f32)
local notation "ixV" => (Memref.whole Cert.Kernel.cc0_scratch0 : Memref Cert.Kernel.sig Kind.scVector Space.vmem Cert.Kernel.S4x128 EltTy.i32)
local notation "shV" => (Memref.whole Cert.Kernel.cc0_scratch1 : Memref Cert.Kernel.sig Kind.scVector Space.shared Cert.Kernel.S2x128 EltTy.f32)
local notation "rwV" => (Memref.whole Cert.Kernel.cc0_scratch2 : Memref Cert.Kernel.sig Kind.scVector Space.vmem Cert.Kernel.S512x128 EltTy.f32)

/-- Entry r of a list of 128 words in row-major order is the list at r. -/
theorem rowMajor_symm_S128 (hn : S128.numel = S128x128.size (gathers_S2x128_S128x128).axis') (k : Fin (S128x128.size (gathers_S2x128_S128x128).axis')) :
    S128.rowMajor.symm (k.cast hn.symm) = ix1 (⟨k.val, k.isLt⟩ : Fin 128) := by
  apply S128.rowMajor.injective
  rw [Equiv.apply_symm_apply]
  apply Fin.ext
  rw [Shape.rowMajor_val_one]
  rfl

theorem gather_entry (tab : S2x128.Idx → Elt F .f32) (offs : S128.Idx → Elt F .i32)
    (hn : S128.numel = S128x128.size (gathers_S2x128_S128x128).axis')
    (hin : ∀ x, (offs x).toNat < S2x128.size (gathers_S2x128_S128x128).axis)
    (h01 : ∀ x, offs x = (0#32 : BitVec 32) ∨ offs x = (1#32 : BitVec 32)) (r : Fin 128) (h : Fin 128) :
    SparseCore.gatherPayload gathers_S2x128_S128x128 tab (SparseCore.rows offs hn hin) (ix2 r h)
      = tab (ix2 (Cert.Spec.rowOf (offs (ix1 r))) h) := by
  unfold SparseCore.gatherPayload
  refine congrArg tab (funext fun b => Fin.ext ?_)
  match b with
  | 0 =>
    have e := Shape.Gathers.idx_axis gathers_S2x128_S128x128 (SparseCore.rows offs hn hin) (ix2 r h)
    refine (congrArg Fin.val e).trans ?_
    show (offs (S128.rowMajor.symm (Fin.cast hn.symm (ix2 r h (gathers_S2x128_S128x128).axis')))).toNat = _
    rw [rowMajor_symm_S128 hn]
    exact congrArg Fin.val (rowOf_eq_toNat (h01 (ix1 r)) (hin (ix1 r)))
  | 1 => exact Shape.Gathers.idx_of_ne gathers_S2x128_S128x128 (SparseCore.rows offs hn hin) (ix2 r h) 1 (by decide)

end Cert.Proof.KB

end
-- ==== Proof.KB.OutVal.lean ====
/-
  The value of one chunk of the result, pure. Chunk J of the subcore at L holds what the write-out carried: window J of
  the row scratch after the four gathers, which is gather J's payload — the table rows (from the shared copy) the words
  of row J of the index scratch name —, and those words are labels (2 (L 1) + (L 0), J, ·), each 0 or 1. So row r of
  the chunk, row 512 (2 (L 1) + (L 0)) + 128 J + r of the result, is the table row that label names: the lookup.
-/
import proofs.«202797_g70420283785446_cont_9to1_m_562_18_alg».proof.Proof.KB.Common
import proofs.«202797_g70420283785446_cont_9to1_m_562_18_alg».proof.Proof.KB.Labels
import proofs.«202797_g70420283785446_cont_9to1_m_562_18_alg».proof.Proof.KB.Value
import proofs.«202797_g70420283785446_cont_9to1_m_562_18_alg».proof.Proof.KB.Gather
import Idealize.ShloMosaic.Lib.Writes

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v0V" => (Memref.whole Cert.Kernel.main_v0_scv : Memref Cert.Kernel.sig Kind.scVector Space.hbm Cert.Kernel.S32x4x128 EltTy.i32)
local notation "tbV" => (Memref.whole Cert.Kernel.main_arg1_scv : Memref Cert.Kernel.sig Kind.scVector Space.hbm Cert.Kernel.S2x128 EltTy.f32)
local notation "v1V" => (Memref.whole Cert.Kernel.main_v1_scv : Memref Cert.Kernel.sig Kind.scVector Space.hbm Cert.Kernel.S16384x128 EltTy.f32)
local notation "ixV" => (Memref.whole Cert.Kernel.cc0_scratch0 : Memref Cert.Kernel.sig Kind.scVector Space.vmem Cert.Kernel.S4x128 EltTy.i32)
local notation "shV" => (Memref.whole Cert.Kernel.cc0_scratch1 : Memref Cert.Kernel.sig Kind.scVector Space.shared Cert.Kernel.S2x128 EltTy.f32)
local notation "rwV" => (Memref.whole Cert.Kernel.cc0_scratch2 : Memref Cert.Kernel.sig Kind.scVector Space.vmem Cert.Kernel.S512x128 EltTy.f32)

/-- Window j of the row scratch: rows 128 j onwards, 128 of them. -/
abbrev rwR0 : Rect S512x128 := Rect.unit (s := S512x128) ![0, 0] S128x128.size inb_S512x128_S128x128_0_0
abbrev rwR1 : Rect S512x128 := Rect.unit (s := S512x128) ![128, 0] S128x128.size inb_S512x128_S128x128_128_0
abbrev rwR2 : Rect S512x128 := Rect.unit (s := S512x128) ![256, 0] S128x128.size inb_S512x128_S128x128_256_0
abbrev rwR3 : Rect S512x128 := Rect.unit (s := S512x128) ![384, 0] S128x128.size inb_S512x128_S128x128_384_0
abbrev rwWin0 : Memref sig .scVector .vmem S128x128 .f32 := (rwV).slice rwR0 (fun _ => rfl)
abbrev rwWin1 : Memref sig .scVector .vmem S128x128 .f32 := (rwV).slice rwR1 (fun _ => rfl)
abbrev rwWin2 : Memref sig .scVector .vmem S128x128 .f32 := (rwV).slice rwR2 (fun _ => rfl)
abbrev rwWin3 : Memref sig .scVector .vmem S128x128 .f32 := (rwV).slice rwR3 (fun _ => rfl)
/-- The shared copy, whole, as the gathers slice it. -/
abbrev shAll : Memref sig .scVector .shared S2x128 .f32 := (shV).slice (Rect.unit (s := S2x128) ![0, 0] S2x128.size inb_S2x128_S2x128_0_0) (fun _ => rfl)
/-- The row scratch after the four gathers: window j holds g j. -/
abbrev rwW (fr : (rwV).view.ty.Contents (Elt F)) (g0 g1 g2 g3 : S128x128.Idx → Elt F .f32) : (rwV).view.ty.Contents (Elt F) :=
  (rwV).view.writes (Elt F) fr [⟨rwR3, g3⟩, ⟨rwR2, g2⟩, ⟨rwR1, g1⟩, ⟨rwR0, g0⟩]
/-- The four chunks of the result the subcore writes, as the kernel slices them. -/
abbrev outM0 (L : grid0.Coords) : Memref sig .scVector .hbm S128x128 .f32 := (v1V).slice (Rect.unit (s := S16384x128) (k0_off2 L 0#32) S128x128.size (k0_off2_inb L 0)) (fun _ => rfl)
abbrev outM1 (L : grid0.Coords) : Memref sig .scVector .hbm S128x128 .f32 := (v1V).slice (Rect.unit (s := S16384x128) (k0_off2 L 128#32) S128x128.size (k0_off2_inb L 1)) (fun _ => rfl)
abbrev outM2 (L : grid0.Coords) : Memref sig .scVector .hbm S128x128 .f32 := (v1V).slice (Rect.unit (s := S16384x128) (k0_off2 L 256#32) S128x128.size (k0_off2_inb L 2)) (fun _ => rfl)
abbrev outM3 (L : grid0.Coords) : Memref sig .scVector .hbm S128x128 .f32 := (v1V).slice (Rect.unit (s := S16384x128) (k0_off2 L 384#32) S128x128.size (k0_off2_inb L 3)) (fun _ => rfl)
theorem pts_out0 (d : Dev nD) (L : grid0.Coords) (f : Buf (Elt F) (v1Loc d)) : ((outM0 L).view.loc (V d (cV L) (jV L)) ↦[(outM0 L).view.set]{fullShare} f : sProp 𝕄) = v1Loc d ↦[outSet L 0]{fullShare} f := rfl
theorem pts_out1 (d : Dev nD) (L : grid0.Coords) (f : Buf (Elt F) (v1Loc d)) : ((outM1 L).view.loc (V d (cV L) (jV L)) ↦[(outM1 L).view.set]{fullShare} f : sProp 𝕄) = v1Loc d ↦[outSet L 1]{fullShare} f := rfl
theorem pts_out2 (d : Dev nD) (L : grid0.Coords) (f : Buf (Elt F) (v1Loc d)) : ((outM2 L).view.loc (V d (cV L) (jV L)) ↦[(outM2 L).view.set]{fullShare} f : sProp 𝕄) = v1Loc d ↦[outSet L 2]{fullShare} f := rfl
theorem pts_out3 (d : Dev nD) (L : grid0.Coords) (f : Buf (Elt F) (v1Loc d)) : ((outM3 L).view.loc (V d (cV L) (jV L)) ↦[(outM3 L).view.set]{fullShare} f : sProp 𝕄) = v1Loc d ↦[outSet L 3]{fullShare} f := rfl

/-- Where entry x of window j of the row scratch sits: row 128 j + x 0. -/
theorem rwR0_emb0 (x : S128x128.Idx) : ((rwR0).emb x 0 : ℕ) = 0 + (x 0).val := by rw [Rect.emb_apply]; simp
theorem rwR1_emb0 (x : S128x128.Idx) : ((rwR1).emb x 0 : ℕ) = 128 + (x 0).val := by rw [Rect.emb_apply]; simp
theorem rwR2_emb0 (x : S128x128.Idx) : ((rwR2).emb x 0 : ℕ) = 256 + (x 0).val := by rw [Rect.emb_apply]; simp
theorem rwR3_emb0 (x : S128x128.Idx) : ((rwR3).emb x 0 : ℕ) = 384 + (x 0).val := by rw [Rect.emb_apply]; simp
theorem rwR0_not_mem1 (x : S128x128.Idx) : (rwR0).emb x ∉ (Finset.univ : Finset rwR1.shape.Idx).map (rwR1).emb := by
  rw [Rect.map_emb_univ, Rect.mem_set_unit]
  intro h
  have h0 := h 0
  rw [rwR0_emb0] at h0
  have hx : (x 0).val < 128 := (x 0).isLt
  simp at h0
  all_goals omega
theorem rwR0_not_mem2 (x : S128x128.Idx) : (rwR0).emb x ∉ (Finset.univ : Finset rwR2.shape.Idx).map (rwR2).emb := by
  rw [Rect.map_emb_univ, Rect.mem_set_unit]
  intro h
  have h0 := h 0
  rw [rwR0_emb0] at h0
  have hx : (x 0).val < 128 := (x 0).isLt
  simp at h0
  all_goals omega
theorem rwR0_not_mem3 (x : S128x128.Idx) : (rwR0).emb x ∉ (Finset.univ : Finset rwR3.shape.Idx).map (rwR3).emb := by
  rw [Rect.map_emb_univ, Rect.mem_set_unit]
  intro h
  have h0 := h 0
  rw [rwR0_emb0] at h0
  have hx : (x 0).val < 128 := (x 0).isLt
  simp at h0
  all_goals omega
theorem rwR1_not_mem0 (x : S128x128.Idx) : (rwR1).emb x ∉ (Finset.univ : Finset rwR0.shape.Idx).map (rwR0).emb := by
  rw [Rect.map_emb_univ, Rect.mem_set_unit]
  intro h
  have h0 := h 0
  rw [rwR1_emb0] at h0
  have hx : (x 0).val < 128 := (x 0).isLt
  simp at h0
  all_goals omega
theorem rwR1_not_mem2 (x : S128x128.Idx) : (rwR1).emb x ∉ (Finset.univ : Finset rwR2.shape.Idx).map (rwR2).emb := by
  rw [Rect.map_emb_univ, Rect.mem_set_unit]
  intro h
  have h0 := h 0
  rw [rwR1_emb0] at h0
  have hx : (x 0).val < 128 := (x 0).isLt
  simp at h0
  all_goals omega
theorem rwR1_not_mem3 (x : S128x128.Idx) : (rwR1).emb x ∉ (Finset.univ : Finset rwR3.shape.Idx).map (rwR3).emb := by
  rw [Rect.map_emb_univ, Rect.mem_set_unit]
  intro h
  have h0 := h 0
  rw [rwR1_emb0] at h0
  have hx : (x 0).val < 128 := (x 0).isLt
  simp at h0
  all_goals omega
theorem rwR2_not_mem0 (x : S128x128.Idx) : (rwR2).emb x ∉ (Finset.univ : Finset rwR0.shape.Idx).map (rwR0).emb := by
  rw [Rect.map_emb_univ, Rect.mem_set_unit]
  intro h
  have h0 := h 0
  rw [rwR2_emb0] at h0
  have hx : (x 0).val < 128 := (x 0).isLt
  simp at h0
  all_goals omega
theorem rwR2_not_mem1 (x : S128x128.Idx) : (rwR2).emb x ∉ (Finset.univ : Finset rwR1.shape.Idx).map (rwR1).emb := by
  rw [Rect.map_emb_univ, Rect.mem_set_unit]
  intro h
  have h0 := h 0
  rw [rwR2_emb0] at h0
  have hx : (x 0).val < 128 := (x 0).isLt
  simp at h0
  all_goals omega
theorem rwR2_not_mem3 (x : S128x128.Idx) : (rwR2).emb x ∉ (Finset.univ : Finset rwR3.shape.Idx).map (rwR3).emb := by
  rw [Rect.map_emb_univ, Rect.mem_set_unit]
  intro h
  have h0 := h 0
  rw [rwR2_emb0] at h0
  have hx : (x 0).val < 128 := (x 0).isLt
  simp at h0
  all_goals omega
theorem rwR3_not_mem0 (x : S128x128.Idx) : (rwR3).emb x ∉ (Finset.univ : Finset rwR0.shape.Idx).map (rwR0).emb := by
  rw [Rect.map_emb_univ, Rect.mem_set_unit]
  intro h
  have h0 := h 0
  rw [rwR3_emb0] at h0
  have hx : (x 0).val < 128 := (x 0).isLt
  simp at h0
  all_goals omega
theorem rwR3_not_mem1 (x : S128x128.Idx) : (rwR3).emb x ∉ (Finset.univ : Finset rwR1.shape.Idx).map (rwR1).emb := by
  rw [Rect.map_emb_univ, Rect.mem_set_unit]
  intro h
  have h0 := h 0
  rw [rwR3_emb0] at h0
  have hx : (x 0).val < 128 := (x 0).isLt
  simp at h0
  all_goals omega
theorem rwR3_not_mem2 (x : S128x128.Idx) : (rwR3).emb x ∉ (Finset.univ : Finset rwR2.shape.Idx).map (rwR2).emb := by
  rw [Rect.map_emb_univ, Rect.mem_set_unit]
  intro h
  have h0 := h 0
  rw [rwR3_emb0] at h0
  have hx : (x 0).val < 128 := (x 0).isLt
  simp at h0
  all_goals omega

variable (fr : (rwV).view.ty.Contents (Elt F)) (g0 g1 g2 g3 : S128x128.Idx → Elt F .f32)

/-- Through window j the row scratch after the gathers reads gather j's payload. -/
theorem read_rwW3 : rwWin3.view.read (Elt F) (rwW fr g0 g1 g2 g3) = g3 := by
  funext x
  show (rwV).view.read (Elt F) ((rwV).view.writes (Elt F) fr [⟨rwR3, g3⟩, ⟨rwR2, g2⟩, ⟨rwR1, g1⟩, ⟨rwR0, g0⟩]) (rwR3.emb x) = g3 x
  exact View.read_writes_cons_emb _ _ rwR3 g3 _ x
theorem read_rwW2 : rwWin2.view.read (Elt F) (rwW fr g0 g1 g2 g3) = g2 := by
  funext x
  show (rwV).view.read (Elt F) ((rwV).view.writes (Elt F) fr [⟨rwR3, g3⟩, ⟨rwR2, g2⟩, ⟨rwR1, g1⟩, ⟨rwR0, g0⟩]) (rwR2.emb x) = g2 x
  rw [View.writes_cons, View.read_slice_write_of_not_mem rwR3 _ g3 Finset.univ (rwR2_not_mem3 x)]
  exact View.read_writes_cons_emb _ _ rwR2 g2 _ x
theorem read_rwW1 : rwWin1.view.read (Elt F) (rwW fr g0 g1 g2 g3) = g1 := by
  funext x
  show (rwV).view.read (Elt F) ((rwV).view.writes (Elt F) fr [⟨rwR3, g3⟩, ⟨rwR2, g2⟩, ⟨rwR1, g1⟩, ⟨rwR0, g0⟩]) (rwR1.emb x) = g1 x
  rw [View.writes_cons, View.read_slice_write_of_not_mem rwR3 _ g3 Finset.univ (rwR1_not_mem3 x),
    View.writes_cons, View.read_slice_write_of_not_mem rwR2 _ g2 Finset.univ (rwR1_not_mem2 x)]
  exact View.read_writes_cons_emb _ _ rwR1 g1 _ x
theorem read_rwW0 : rwWin0.view.read (Elt F) (rwW fr g0 g1 g2 g3) = g0 := by
  funext x
  show (rwV).view.read (Elt F) ((rwV).view.writes (Elt F) fr [⟨rwR3, g3⟩, ⟨rwR2, g2⟩, ⟨rwR1, g1⟩, ⟨rwR0, g0⟩]) (rwR0.emb x) = g0 x
  rw [View.writes_cons, View.read_slice_write_of_not_mem rwR3 _ g3 Finset.univ (rwR0_not_mem3 x),
    View.writes_cons, View.read_slice_write_of_not_mem rwR2 _ g2 Finset.univ (rwR0_not_mem2 x),
    View.writes_cons, View.read_slice_write_of_not_mem rwR1 _ g1 Finset.univ (rwR0_not_mem1 x)]
  exact View.read_writes_cons_emb _ _ rwR0 g0 _ x

variable (m : (ℓ : Loc nD τ sig) → Buf (Elt F) ℓ)

/-- The shared copy read whole is the table. -/
theorem read_shAll (d : Dev nD) (c : Fin τ.nSC) : shAll.view.read (Elt F) (tabS m d c) = (m (tbLoc d) : S2x128.Idx → Elt F .f32) := by
  funext x
  rw [View.read_apply]
  refine (cast_eq _ _).trans ?_
  unfold tabS
  refine congrArg (m (tbLoc d) : S2x128.Idx → Elt F .f32) (funext fun a => Fin.ext ?_)
  match a with
  | 0 => show ((Rect.unit (s := S2x128) ![0, 0] S2x128.size inb_S2x128_S2x128_0_0).emb x 0 : ℕ) = _; rw [Rect.emb_apply]; simp
  | 1 => show ((Rect.unit (s := S2x128) ![0, 0] S2x128.size inb_S2x128_S2x128_0_0).emb x 1 : ℕ) = _; rw [Rect.emb_apply]; simp

/-- An index of a whole rectangle is itself. -/
theorem whole_emb (y : S128x128.Idx) : (Rect.whole S128x128).emb y = y := by
  funext a
  apply Fin.ext
  rw [Rect.emb_apply]
  simp [Rect.whole]

/-- Under the precondition the words gather 0 reads are row numbers of the table. -/
theorem hin_of_pre0 (hpre : PreOK m) (d : Dev nD) (L : grid0.Coords) (fi : (ixV).view.ty.Contents (Elt F)) (p0 p1 p2 p3 : S128.Idx → Elt F .i32)
    (hp : p0 = (v0Row0 L).view.read (Elt F) (lab3 m d)) :
    ∀ x, (ixRow0.view.read (Elt F) (ixW fi p0 p1 p2 p3) x).toNat < S2x128.size gathers_S2x128_S128x128.axis := by
  intro x
  rw [read_ixW0, hp, v0Row0_read]
  exact toNat_lt_two (lab3_01 m hpre d _)

/-- Where entry (r, h) of chunk 0 sits in the result: row 512 (2 (L 1) + (L 0)) + 128 · 0 + r. -/
theorem outM0_emb (L : grid0.Coords) (r h : Fin 128) :
    (outM0 L).view.emb (ix2 r h) = ix2 (⟨512 * (2 * (L 1).val + (L 0).val) + 128 * 0 + r.val, by have := wid_lt L; have := r.isLt; omega⟩ : Fin 16384) h := by
  have e : k0_off2 L 0#32 = ![1024 * (L 1).val + 512 * (L 0).val + 128 * (0 : Fin 4).val, 0] := k0_off2_eq L 0
  funext a
  apply Fin.ext
  match a with
  | 0 =>
    show (k0_off2 L 0#32) 0 + 1 * r.val = 512 * (2 * (L 1).val + (L 0).val) + 128 * 0 + r.val
    rw [e]; simp; omega
  | 1 =>
    show (k0_off2 L 0#32) 1 + 1 * h.val = h.val
    rw [e]; simp

theorem out_val0 (hpre : PreOK m) (d : Dev nD) (L : grid0.Coords) (fi : (ixV).view.ty.Contents (Elt F)) (fr : (rwV).view.ty.Contents (Elt F))
    (p0 p1 p2 p3 : S128.Idx → Elt F .i32) (hp : p0 = (v0Row0 L).view.read (Elt F) (lab3 m d))
    (hin : ∀ x, (ixRow0.view.read (Elt F) (ixW fi p0 p1 p2 p3) x).toNat < S2x128.size gathers_S2x128_S128x128.axis)
    (hn : S128.numel = S128x128.size gathers_S2x128_S128x128.axis')
    (g0 g1 g2 g3 : S128x128.Idx → Elt F .f32)
    (hg : g0 = SparseCore.gatherPayload gathers_S2x128_S128x128 (shAll.view.read (Elt F) (tabS m d (cV L))) (SparseCore.rows (ixRow0.view.read (Elt F) (ixW fi p0 p1 p2 p3)) hn hin))
    (pay : S128x128.Idx → Elt F .f32) (hpay : pay = rwWin0.view.read (Elt F) (rwW fr g0 g1 g2 g3)) :
    ∀ i ∈ (outM0 L).view.set, (outM0 L).view.writes (Elt F) (m (v1Loc d)) [⟨Rect.whole S128x128, pay⟩] i = outG m d i := by
  intro i hi
  obtain ⟨y, -, rfl⟩ := Finset.mem_map.mp hi
  obtain ⟨r, h, rfl⟩ : ∃ (r : Fin 128) (h : Fin 128), y = ix2 r h := ⟨y 0, y 1, eq_ix2 y⟩
  have e1 : (outM0 L).view.writes (Elt F) (m (v1Loc d)) [⟨Rect.whole S128x128, pay⟩] ((outM0 L).view.emb (ix2 r h)) = pay (ix2 r h) := by
    have h1 := View.read_writes_cons_emb (outM0 L).view (m (v1Loc d)) (Rect.whole S128x128) pay [] (ix2 r h)
    rw [whole_emb, View.read_apply] at h1
    exact (cast_eq _ _).symm.trans h1
  have h01 : ∀ x, ixRow0.view.read (Elt F) (ixW fi p0 p1 p2 p3) x = (0#32 : BitVec 32) ∨ ixRow0.view.read (Elt F) (ixW fi p0 p1 p2 p3) x = (1#32 : BitVec 32) := by
    intro x; rw [read_ixW0, hp, v0Row0_read]; exact lab3_01 m hpre d _
  refine e1.trans ?_
  rw [hpay, read_rwW0, hg, read_shAll, gather_entry _ _ hn hin h01 r h, outM0_emb, read_ixW0, hp, v0Row0_read]
  exact (outG_apply m d ⟨2 * (L 1).val + (L 0).val, wid_lt L⟩ ⟨0, by decide⟩ r h).symm

/-- Under the precondition the words gather 1 reads are row numbers of the table. -/
theorem hin_of_pre1 (hpre : PreOK m) (d : Dev nD) (L : grid0.Coords) (fi : (ixV).view.ty.Contents (Elt F)) (p0 p1 p2 p3 : S128.Idx → Elt F .i32)
    (hp : p1 = (v0Row1 L).view.read (Elt F) (lab3 m d)) :
    ∀ x, (ixRow1.view.read (Elt F) (ixW fi p0 p1 p2 p3) x).toNat < S2x128.size gathers_S2x128_S128x128.axis := by
  intro x
  rw [read_ixW1, hp, v0Row1_read]
  exact toNat_lt_two (lab3_01 m hpre d _)

/-- Where entry (r, h) of chunk 1 sits in the result: row 512 (2 (L 1) + (L 0)) + 128 · 1 + r. -/
theorem outM1_emb (L : grid0.Coords) (r h : Fin 128) :
    (outM1 L).view.emb (ix2 r h) = ix2 (⟨512 * (2 * (L 1).val + (L 0).val) + 128 * 1 + r.val, by have := wid_lt L; have := r.isLt; omega⟩ : Fin 16384) h := by
  have e : k0_off2 L 128#32 = ![1024 * (L 1).val + 512 * (L 0).val + 128 * (1 : Fin 4).val, 0] := k0_off2_eq L 1
  funext a
  apply Fin.ext
  match a with
  | 0 =>
    show (k0_off2 L 128#32) 0 + 1 * r.val = 512 * (2 * (L 1).val + (L 0).val) + 128 * 1 + r.val
    rw [e]; simp; omega
  | 1 =>
    show (k0_off2 L 128#32) 1 + 1 * h.val = h.val
    rw [e]; simp

theorem out_val1 (hpre : PreOK m) (d : Dev nD) (L : grid0.Coords) (fi : (ixV).view.ty.Contents (Elt F)) (fr : (rwV).view.ty.Contents (Elt F))
    (p0 p1 p2 p3 : S128.Idx → Elt F .i32) (hp : p1 = (v0Row1 L).view.read (Elt F) (lab3 m d))
    (hin : ∀ x, (ixRow1.view.read (Elt F) (ixW fi p0 p1 p2 p3) x).toNat < S2x128.size gathers_S2x128_S128x128.axis)
    (hn : S128.numel = S128x128.size gathers_S2x128_S128x128.axis')
    (g0 g1 g2 g3 : S128x128.Idx → Elt F .f32)
    (hg : g1 = SparseCore.gatherPayload gathers_S2x128_S128x128 (shAll.view.read (Elt F) (tabS m d (cV L))) (SparseCore.rows (ixRow1.view.read (Elt F) (ixW fi p0 p1 p2 p3)) hn hin))
    (pay : S128x128.Idx → Elt F .f32) (hpay : pay = rwWin1.view.read (Elt F) (rwW fr g0 g1 g2 g3)) :
    ∀ i ∈ (outM1 L).view.set, (outM1 L).view.writes (Elt F) (m (v1Loc d)) [⟨Rect.whole S128x128, pay⟩] i = outG m d i := by
  intro i hi
  obtain ⟨y, -, rfl⟩ := Finset.mem_map.mp hi
  obtain ⟨r, h, rfl⟩ : ∃ (r : Fin 128) (h : Fin 128), y = ix2 r h := ⟨y 0, y 1, eq_ix2 y⟩
  have e1 : (outM1 L).view.writes (Elt F) (m (v1Loc d)) [⟨Rect.whole S128x128, pay⟩] ((outM1 L).view.emb (ix2 r h)) = pay (ix2 r h) := by
    have h1 := View.read_writes_cons_emb (outM1 L).view (m (v1Loc d)) (Rect.whole S128x128) pay [] (ix2 r h)
    rw [whole_emb, View.read_apply] at h1
    exact (cast_eq _ _).symm.trans h1
  have h01 : ∀ x, ixRow1.view.read (Elt F) (ixW fi p0 p1 p2 p3) x = (0#32 : BitVec 32) ∨ ixRow1.view.read (Elt F) (ixW fi p0 p1 p2 p3) x = (1#32 : BitVec 32) := by
    intro x; rw [read_ixW1, hp, v0Row1_read]; exact lab3_01 m hpre d _
  refine e1.trans ?_
  rw [hpay, read_rwW1, hg, read_shAll, gather_entry _ _ hn hin h01 r h, outM1_emb, read_ixW1, hp, v0Row1_read]
  exact (outG_apply m d ⟨2 * (L 1).val + (L 0).val, wid_lt L⟩ ⟨1, by decide⟩ r h).symm

/-- Under the precondition the words gather 2 reads are row numbers of the table. -/
theorem hin_of_pre2 (hpre : PreOK m) (d : Dev nD) (L : grid0.Coords) (fi : (ixV).view.ty.Contents (Elt F)) (p0 p1 p2 p3 : S128.Idx → Elt F .i32)
    (hp : p2 = (v0Row2 L).view.read (Elt F) (lab3 m d)) :
    ∀ x, (ixRow2.view.read (Elt F) (ixW fi p0 p1 p2 p3) x).toNat < S2x128.size gathers_S2x128_S128x128.axis := by
  intro x
  rw [read_ixW2, hp, v0Row2_read]
  exact toNat_lt_two (lab3_01 m hpre d _)

/-- Where entry (r, h) of chunk 2 sits in the result: row 512 (2 (L 1) + (L 0)) + 128 · 2 + r. -/
theorem outM2_emb (L : grid0.Coords) (r h : Fin 128) :
    (outM2 L).view.emb (ix2 r h) = ix2 (⟨512 * (2 * (L 1).val + (L 0).val) + 128 * 2 + r.val, by have := wid_lt L; have := r.isLt; omega⟩ : Fin 16384) h := by
  have e : k0_off2 L 256#32 = ![1024 * (L 1).val + 512 * (L 0).val + 128 * (2 : Fin 4).val, 0] := k0_off2_eq L 2
  funext a
  apply Fin.ext
  match a with
  | 0 =>
    show (k0_off2 L 256#32) 0 + 1 * r.val = 512 * (2 * (L 1).val + (L 0).val) + 128 * 2 + r.val
    rw [e]; simp; omega
  | 1 =>
    show (k0_off2 L 256#32) 1 + 1 * h.val = h.val
    rw [e]; simp

theorem out_val2 (hpre : PreOK m) (d : Dev nD) (L : grid0.Coords) (fi : (ixV).view.ty.Contents (Elt F)) (fr : (rwV).view.ty.Contents (Elt F))
    (p0 p1 p2 p3 : S128.Idx → Elt F .i32) (hp : p2 = (v0Row2 L).view.read (Elt F) (lab3 m d))
    (hin : ∀ x, (ixRow2.view.read (Elt F) (ixW fi p0 p1 p2 p3) x).toNat < S2x128.size gathers_S2x128_S128x128.axis)
    (hn : S128.numel = S128x128.size gathers_S2x128_S128x128.axis')
    (g0 g1 g2 g3 : S128x128.Idx → Elt F .f32)
    (hg : g2 = SparseCore.gatherPayload gathers_S2x128_S128x128 (shAll.view.read (Elt F) (tabS m d (cV L))) (SparseCore.rows (ixRow2.view.read (Elt F) (ixW fi p0 p1 p2 p3)) hn hin))
    (pay : S128x128.Idx → Elt F .f32) (hpay : pay = rwWin2.view.read (Elt F) (rwW fr g0 g1 g2 g3)) :
    ∀ i ∈ (outM2 L).view.set, (outM2 L).view.writes (Elt F) (m (v1Loc d)) [⟨Rect.whole S128x128, pay⟩] i = outG m d i := by
  intro i hi
  obtain ⟨y, -, rfl⟩ := Finset.mem_map.mp hi
  obtain ⟨r, h, rfl⟩ : ∃ (r : Fin 128) (h : Fin 128), y = ix2 r h := ⟨y 0, y 1, eq_ix2 y⟩
  have e1 : (outM2 L).view.writes (Elt F) (m (v1Loc d)) [⟨Rect.whole S128x128, pay⟩] ((outM2 L).view.emb (ix2 r h)) = pay (ix2 r h) := by
    have h1 := View.read_writes_cons_emb (outM2 L).view (m (v1Loc d)) (Rect.whole S128x128) pay [] (ix2 r h)
    rw [whole_emb, View.read_apply] at h1
    exact (cast_eq _ _).symm.trans h1
  have h01 : ∀ x, ixRow2.view.read (Elt F) (ixW fi p0 p1 p2 p3) x = (0#32 : BitVec 32) ∨ ixRow2.view.read (Elt F) (ixW fi p0 p1 p2 p3) x = (1#32 : BitVec 32) := by
    intro x; rw [read_ixW2, hp, v0Row2_read]; exact lab3_01 m hpre d _
  refine e1.trans ?_
  rw [hpay, read_rwW2, hg, read_shAll, gather_entry _ _ hn hin h01 r h, outM2_emb, read_ixW2, hp, v0Row2_read]
  exact (outG_apply m d ⟨2 * (L 1).val + (L 0).val, wid_lt L⟩ ⟨2, by decide⟩ r h).symm

/-- Under the precondition the words gather 3 reads are row numbers of the table. -/
theorem hin_of_pre3 (hpre : PreOK m) (d : Dev nD) (L : grid0.Coords) (fi : (ixV).view.ty.Contents (Elt F)) (p0 p1 p2 p3 : S128.Idx → Elt F .i32)
    (hp : p3 = (v0Row3 L).view.read (Elt F) (lab3 m d)) :
    ∀ x, (ixRow3.view.read (Elt F) (ixW fi p0 p1 p2 p3) x).toNat < S2x128.size gathers_S2x128_S128x128.axis := by
  intro x
  rw [read_ixW3, hp, v0Row3_read]
  exact toNat_lt_two (lab3_01 m hpre d _)

/-- Where entry (r, h) of chunk 3 sits in the result: row 512 (2 (L 1) + (L 0)) + 128 · 3 + r. -/
theorem outM3_emb (L : grid0.Coords) (r h : Fin 128) :
    (outM3 L).view.emb (ix2 r h) = ix2 (⟨512 * (2 * (L 1).val + (L 0).val) + 128 * 3 + r.val, by have := wid_lt L; have := r.isLt; omega⟩ : Fin 16384) h := by
  have e : k0_off2 L 384#32 = ![1024 * (L 1).val + 512 * (L 0).val + 128 * (3 : Fin 4).val, 0] := k0_off2_eq L 3
  funext a
  apply Fin.ext
  match a with
  | 0 =>
    show (k0_off2 L 384#32) 0 + 1 * r.val = 512 * (2 * (L 1).val + (L 0).val) + 128 * 3 + r.val
    rw [e]; simp; omega
  | 1 =>
    show (k0_off2 L 384#32) 1 + 1 * h.val = h.val
    rw [e]; simp

theorem out_val3 (hpre : PreOK m) (d : Dev nD) (L : grid0.Coords) (fi : (ixV).view.ty.Contents (Elt F)) (fr : (rwV).view.ty.Contents (Elt F))
    (p0 p1 p2 p3 : S128.Idx → Elt F .i32) (hp : p3 = (v0Row3 L).view.read (Elt F) (lab3 m d))
    (hin : ∀ x, (ixRow3.view.read (Elt F) (ixW fi p0 p1 p2 p3) x).toNat < S2x128.size gathers_S2x128_S128x128.axis)
    (hn : S128.numel = S128x128.size gathers_S2x128_S128x128.axis')
    (g0 g1 g2 g3 : S128x128.Idx → Elt F .f32)
    (hg : g3 = SparseCore.gatherPayload gathers_S2x128_S128x128 (shAll.view.read (Elt F) (tabS m d (cV L))) (SparseCore.rows (ixRow3.view.read (Elt F) (ixW fi p0 p1 p2 p3)) hn hin))
    (pay : S128x128.Idx → Elt F .f32) (hpay : pay = rwWin3.view.read (Elt F) (rwW fr g0 g1 g2 g3)) :
    ∀ i ∈ (outM3 L).view.set, (outM3 L).view.writes (Elt F) (m (v1Loc d)) [⟨Rect.whole S128x128, pay⟩] i = outG m d i := by
  intro i hi
  obtain ⟨y, -, rfl⟩ := Finset.mem_map.mp hi
  obtain ⟨r, h, rfl⟩ : ∃ (r : Fin 128) (h : Fin 128), y = ix2 r h := ⟨y 0, y 1, eq_ix2 y⟩
  have e1 : (outM3 L).view.writes (Elt F) (m (v1Loc d)) [⟨Rect.whole S128x128, pay⟩] ((outM3 L).view.emb (ix2 r h)) = pay (ix2 r h) := by
    have h1 := View.read_writes_cons_emb (outM3 L).view (m (v1Loc d)) (Rect.whole S128x128) pay [] (ix2 r h)
    rw [whole_emb, View.read_apply] at h1
    exact (cast_eq _ _).symm.trans h1
  have h01 : ∀ x, ixRow3.view.read (Elt F) (ixW fi p0 p1 p2 p3) x = (0#32 : BitVec 32) ∨ ixRow3.view.read (Elt F) (ixW fi p0 p1 p2 p3) x = (1#32 : BitVec 32) := by
    intro x; rw [read_ixW3, hp, v0Row3_read]; exact lab3_01 m hpre d _
  refine e1.trans ?_
  rw [hpay, read_rwW3, hg, read_shAll, gather_entry _ _ hn hin h01 r h, outM3_emb, read_ixW3, hp, v0Row3_read]
  exact (outG_apply m d ⟨2 * (L 1).val + (L 0).val, wid_lt L⟩ ⟨3, by decide⟩ r h).symm

end Cert.Proof.KB

end
-- ==== Proof.KB.Body.lean ====
/-
  The task of one vector subcore of the embedding lookup, at a symbolic grid point, and the launch theorem's obligation
  for it.

  The subcore holds read tokens of the reshaped labels and of the table, its four chunks of the result and — subcore 0 —
  its SparseCore's shared buffer. It starts four copies of 128 labels each into the rows of its index scratch: the
  labels are read by four transfers at once, so its token of them is cut into four read tokens, one per transfer.
  Subcore 0 copies the table into the shared buffer, which then holds the table; it cuts that into sixteen read tokens
  and a remainder and, arriving at the barrier, pays each subcore's round its token. Past the barrier every subcore
  holds its own token of the shared copy and cuts it into four, one per gather. Gather j reads row j of the index
  scratch as offsets: those words are labels, each 0 or 1, so they name rows of the two-row table. Each gathered
  window is written out to its chunk of the result, which then holds, row by row, the table row its label names.
  At the end every token is joined back, the two scratch buffers are whole again and all thirteen semaphores are at zero.
-/
import proofs.«202797_g70420283785446_cont_9to1_m_562_18_alg».proof.Proof.KB.Common
import proofs.«202797_g70420283785446_cont_9to1_m_562_18_alg».proof.Proof.KB.OutVal

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v0V" => (Memref.whole Cert.Kernel.main_v0_scv : Memref Cert.Kernel.sig Kind.scVector Space.hbm Cert.Kernel.S32x4x128 EltTy.i32)
local notation "tbV" => (Memref.whole Cert.Kernel.main_arg1_scv : Memref Cert.Kernel.sig Kind.scVector Space.hbm Cert.Kernel.S2x128 EltTy.f32)
local notation "v1V" => (Memref.whole Cert.Kernel.main_v1_scv : Memref Cert.Kernel.sig Kind.scVector Space.hbm Cert.Kernel.S16384x128 EltTy.f32)
local notation "ixV" => (Memref.whole Cert.Kernel.cc0_scratch0 : Memref Cert.Kernel.sig Kind.scVector Space.vmem Cert.Kernel.S4x128 EltTy.i32)
local notation "shV" => (Memref.whole Cert.Kernel.cc0_scratch1 : Memref Cert.Kernel.sig Kind.scVector Space.shared Cert.Kernel.S2x128 EltTy.f32)
local notation "rwV" => (Memref.whole Cert.Kernel.cc0_scratch2 : Memref Cert.Kernel.sig Kind.scVector Space.vmem Cert.Kernel.S512x128 EltTy.f32)

variable (m : (ℓ : Loc nD τ sig) → Buf (Elt F) ℓ)

/-- A semaphore of the subcore at `(c, i)` of device `d`, as a cell. -/
abbrev dcell (d : Dev nD) (c : Fin τ.nSC) (i : Fin τ.nSub) (s : DmaSems sig S_) : GSem nD τ sig := (V d c i, .dma s.sem)

theorem dcell_ne {d : Dev nD} {c : Fin τ.nSC} {i : Fin τ.nSub} {a b : DmaSems sig S_} (h : (SemLoc.dma a.sem : SemLoc sig) ≠ .dma b.sem) :
    dcell d c i a ≠ dcell d c i b := fun e => h (Prod.mk.inj e).2
theorem dcell_mem {d : Dev nD} {c : Fin τ.nSC} {i : Fin τ.nSub} {a : DmaSems sig S_} (h : (SemLoc.dma a.sem : SemLoc sig).isScoped .scVector = true) :
    dcell d c i a ∈ ownCells (V d c i) := (mem_ownCells (g := dcell d c i a)).mpr ⟨rfl, h⟩

/-- The subcore's thirteen transfer semaphores at zero, and its other cells. -/
theorem ownSems0_V (d : Dev nD) (c : Fin τ.nSC) (i : Fin τ.nSub) :
    (ownSems0 (V d c i) : sProp 𝕄)
      = iprop(semVal (dcell d c i cc0_scratch3) 0 ∗ semVal (dcell d c i cc0_scratch4) 0 ∗ semVal (dcell d c i cc0_scratch5) 0 ∗ semVal (dcell d c i cc0_scratch6) 0 ∗ semVal (dcell d c i cc0_scratch7) 0 ∗ semVal (dcell d c i cc0_scratch8) 0 ∗ semVal (dcell d c i cc0_scratch9) 0 ∗ semVal (dcell d c i cc0_scratch10) 0 ∗ semVal (dcell d c i cc0_scratch11) 0 ∗ semVal (dcell d c i cc0_scratch12) 0 ∗ semVal (dcell d c i cc0_scratch13) 0 ∗ semVal (dcell d c i cc0_scratch14) 0 ∗ semVal (dcell d c i cc0_scoped0) 0
          ∗ bigSep ((((((((((((((ownCells (V d c i)).erase (dcell d c i cc0_scratch3)).erase (dcell d c i cc0_scratch4)).erase (dcell d c i cc0_scratch5)).erase (dcell d c i cc0_scratch6)).erase (dcell d c i cc0_scratch7)).erase (dcell d c i cc0_scratch8)).erase (dcell d c i cc0_scratch9)).erase (dcell d c i cc0_scratch10)).erase (dcell d c i cc0_scratch11)).erase (dcell d c i cc0_scratch12)).erase (dcell d c i cc0_scratch13)).erase (dcell d c i cc0_scratch14)).erase (dcell d c i cc0_scoped0)) fun g => semVal g 0) := by
  unfold SparseCore.Cfg.ownSems0
  rw [SparseCore.bigSep_erase' (dcell_mem (a := cc0_scratch3) (by decide)),
    SparseCore.bigSep_erase' (Finset.mem_erase.mpr ⟨dcell_ne (a := cc0_scratch4) (b := cc0_scratch3) (by decide), dcell_mem (a := cc0_scratch4) (by decide)⟩),
    SparseCore.bigSep_erase' (Finset.mem_erase.mpr ⟨dcell_ne (a := cc0_scratch5) (b := cc0_scratch4) (by decide), Finset.mem_erase.mpr ⟨dcell_ne (a := cc0_scratch5) (b := cc0_scratch3) (by decide), dcell_mem (a := cc0_scratch5) (by decide)⟩⟩),
    SparseCore.bigSep_erase' (Finset.mem_erase.mpr ⟨dcell_ne (a := cc0_scratch6) (b := cc0_scratch5) (by decide), Finset.mem_erase.mpr ⟨dcell_ne (a := cc0_scratch6) (b := cc0_scratch4) (by decide), Finset.mem_erase.mpr ⟨dcell_ne (a := cc0_scratch6) (b := cc0_scratch3) (by decide), dcell_mem (a := cc0_scratch6) (by decide)⟩⟩⟩),
    SparseCore.bigSep_erase' (Finset.mem_erase.mpr ⟨dcell_ne (a := cc0_scratch7) (b := cc0_scratch6) (by decide), Finset.mem_erase.mpr ⟨dcell_ne (a := cc0_scratch7) (b := cc0_scratch5) (by decide), Finset.mem_erase.mpr ⟨dcell_ne (a := cc0_scratch7) (b := cc0_scratch4) (by decide), Finset.mem_erase.mpr ⟨dcell_ne (a := cc0_scratch7) (b := cc0_scratch3) (by decide), dcell_mem (a := cc0_scratch7) (by decide)⟩⟩⟩⟩),
    SparseCore.bigSep_erase' (Finset.mem_erase.mpr ⟨dcell_ne (a := cc0_scratch8) (b := cc0_scratch7) (by decide), Finset.mem_erase.mpr ⟨dcell_ne (a := cc0_scratch8) (b := cc0_scratch6) (by decide), Finset.mem_erase.mpr ⟨dcell_ne (a := cc0_scratch8) (b := cc0_scratch5) (by decide), Finset.mem_erase.mpr ⟨dcell_ne (a := cc0_scratch8) (b := cc0_scratch4) (by decide), Finset.mem_erase.mpr ⟨dcell_ne (a := cc0_scratch8) (b := cc0_scratch3) (by decide), dcell_mem (a := cc0_scratch8) (by decide)⟩⟩⟩⟩⟩),
    SparseCore.bigSep_erase' (Finset.mem_erase.mpr ⟨dcell_ne (a := cc0_scratch9) (b := cc0_scratch8) (by decide), Finset.mem_erase.mpr ⟨dcell_ne (a := cc0_scratch9) (b := cc0_scratch7) (by decide), Finset.mem_erase.mpr ⟨dcell_ne (a := cc0_scratch9) (b := cc0_scratch6) (by decide), Finset.mem_erase.mpr ⟨dcell_ne (a := cc0_scratch9) (b := cc0_scratch5) (by decide), Finset.mem_erase.mpr ⟨dcell_ne (a := cc0_scratch9) (b := cc0_scratch4) (by decide), Finset.mem_erase.mpr ⟨dcell_ne (a := cc0_scratch9) (b := cc0_scratch3) (by decide), dcell_mem (a := cc0_scratch9) (by decide)⟩⟩⟩⟩⟩⟩),
    SparseCore.bigSep_erase' (Finset.mem_erase.mpr ⟨dcell_ne (a := cc0_scratch10) (b := cc0_scratch9) (by decide), Finset.mem_erase.mpr ⟨dcell_ne (a := cc0_scratch10) (b := cc0_scratch8) (by decide), Finset.mem_erase.mpr ⟨dcell_ne (a := cc0_scratch10) (b := cc0_scratch7) (by decide), Finset.mem_erase.mpr ⟨dcell_ne (a := cc0_scratch10) (b := cc0_scratch6) (by decide), Finset.mem_erase.mpr ⟨dcell_ne (a := cc0_scratch10) (b := cc0_scratch5) (by decide), Finset.mem_erase.mpr ⟨dcell_ne (a := cc0_scratch10) (b := cc0_scratch4) (by decide), Finset.mem_erase.mpr ⟨dcell_ne (a := cc0_scratch10) (b := cc0_scratch3) (by decide), dcell_mem (a := cc0_scratch10) (by decide)⟩⟩⟩⟩⟩⟩⟩),
    SparseCore.bigSep_erase' (Finset.mem_erase.mpr ⟨dcell_ne (a := cc0_scratch11) (b := cc0_scratch10) (by decide), Finset.mem_erase.mpr ⟨dcell_ne (a := cc0_scratch11) (b := cc0_scratch9) (by decide), Finset.mem_erase.mpr ⟨dcell_ne (a := cc0_scratch11) (b := cc0_scratch8) (by decide), Finset.mem_erase.mpr ⟨dcell_ne (a := cc0_scratch11) (b := cc0_scratch7) (by decide), Finset.mem_erase.mpr ⟨dcell_ne (a := cc0_scratch11) (b := cc0_scratch6) (by decide), Finset.mem_erase.mpr ⟨dcell_ne (a := cc0_scratch11) (b := cc0_scratch5) (by decide), Finset.mem_erase.mpr ⟨dcell_ne (a := cc0_scratch11) (b := cc0_scratch4) (by decide), Finset.mem_erase.mpr ⟨dcell_ne (a := cc0_scratch11) (b := cc0_scratch3) (by decide), dcell_mem (a := cc0_scratch11) (by decide)⟩⟩⟩⟩⟩⟩⟩⟩),
    SparseCore.bigSep_erase' (Finset.mem_erase.mpr ⟨dcell_ne (a := cc0_scratch12) (b := cc0_scratch11) (by decide), Finset.mem_erase.mpr ⟨dcell_ne (a := cc0_scratch12) (b := cc0_scratch10) (by decide), Finset.mem_erase.mpr ⟨dcell_ne (a := cc0_scratch12) (b := cc0_scratch9) (by decide), Finset.mem_erase.mpr ⟨dcell_ne (a := cc0_scratch12) (b := cc0_scratch8) (by decide), Finset.mem_erase.mpr ⟨dcell_ne (a := cc0_scratch12) (b := cc0_scratch7) (by decide), Finset.mem_erase.mpr ⟨dcell_ne (a := cc0_scratch12) (b := cc0_scratch6) (by decide), Finset.mem_erase.mpr ⟨dcell_ne (a := cc0_scratch12) (b := cc0_scratch5) (by decide), Finset.mem_erase.mpr ⟨dcell_ne (a := cc0_scratch12) (b := cc0_scratch4) (by decide), Finset.mem_erase.mpr ⟨dcell_ne (a := cc0_scratch12) (b := cc0_scratch3) (by decide), dcell_mem (a := cc0_scratch12) (by decide)⟩⟩⟩⟩⟩⟩⟩⟩⟩),
    SparseCore.bigSep_erase' (Finset.mem_erase.mpr ⟨dcell_ne (a := cc0_scratch13) (b := cc0_scratch12) (by decide), Finset.mem_erase.mpr ⟨dcell_ne (a := cc0_scratch13) (b := cc0_scratch11) (by decide), Finset.mem_erase.mpr ⟨dcell_ne (a := cc0_scratch13) (b := cc0_scratch10) (by decide), Finset.mem_erase.mpr ⟨dcell_ne (a := cc0_scratch13) (b := cc0_scratch9) (by decide), Finset.mem_erase.mpr ⟨dcell_ne (a := cc0_scratch13) (b := cc0_scratch8) (by decide), Finset.mem_erase.mpr ⟨dcell_ne (a := cc0_scratch13) (b := cc0_scratch7) (by decide), Finset.mem_erase.mpr ⟨dcell_ne (a := cc0_scratch13) (b := cc0_scratch6) (by decide), Finset.mem_erase.mpr ⟨dcell_ne (a := cc0_scratch13) (b := cc0_scratch5) (by decide), Finset.mem_erase.mpr ⟨dcell_ne (a := cc0_scratch13) (b := cc0_scratch4) (by decide), Finset.mem_erase.mpr ⟨dcell_ne (a := cc0_scratch13) (b := cc0_scratch3) (by decide), dcell_mem (a := cc0_scratch13) (by decide)⟩⟩⟩⟩⟩⟩⟩⟩⟩⟩),
    SparseCore.bigSep_erase' (Finset.mem_erase.mpr ⟨dcell_ne (a := cc0_scratch14) (b := cc0_scratch13) (by decide), Finset.mem_erase.mpr ⟨dcell_ne (a := cc0_scratch14) (b := cc0_scratch12) (by decide), Finset.mem_erase.mpr ⟨dcell_ne (a := cc0_scratch14) (b := cc0_scratch11) (by decide), Finset.mem_erase.mpr ⟨dcell_ne (a := cc0_scratch14) (b := cc0_scratch10) (by decide), Finset.mem_erase.mpr ⟨dcell_ne (a := cc0_scratch14) (b := cc0_scratch9) (by decide), Finset.mem_erase.mpr ⟨dcell_ne (a := cc0_scratch14) (b := cc0_scratch8) (by decide), Finset.mem_erase.mpr ⟨dcell_ne (a := cc0_scratch14) (b := cc0_scratch7) (by decide), Finset.mem_erase.mpr ⟨dcell_ne (a := cc0_scratch14) (b := cc0_scratch6) (by decide), Finset.mem_erase.mpr ⟨dcell_ne (a := cc0_scratch14) (b := cc0_scratch5) (by decide), Finset.mem_erase.mpr ⟨dcell_ne (a := cc0_scratch14) (b := cc0_scratch4) (by decide), Finset.mem_erase.mpr ⟨dcell_ne (a := cc0_scratch14) (b := cc0_scratch3) (by decide), dcell_mem (a := cc0_scratch14) (by decide)⟩⟩⟩⟩⟩⟩⟩⟩⟩⟩⟩),
    SparseCore.bigSep_erase' (Finset.mem_erase.mpr ⟨dcell_ne (a := cc0_scoped0) (b := cc0_scratch14) (by decide), Finset.mem_erase.mpr ⟨dcell_ne (a := cc0_scoped0) (b := cc0_scratch13) (by decide), Finset.mem_erase.mpr ⟨dcell_ne (a := cc0_scoped0) (b := cc0_scratch12) (by decide), Finset.mem_erase.mpr ⟨dcell_ne (a := cc0_scoped0) (b := cc0_scratch11) (by decide), Finset.mem_erase.mpr ⟨dcell_ne (a := cc0_scoped0) (b := cc0_scratch10) (by decide), Finset.mem_erase.mpr ⟨dcell_ne (a := cc0_scoped0) (b := cc0_scratch9) (by decide), Finset.mem_erase.mpr ⟨dcell_ne (a := cc0_scoped0) (b := cc0_scratch8) (by decide), Finset.mem_erase.mpr ⟨dcell_ne (a := cc0_scoped0) (b := cc0_scratch7) (by decide), Finset.mem_erase.mpr ⟨dcell_ne (a := cc0_scoped0) (b := cc0_scratch6) (by decide), Finset.mem_erase.mpr ⟨dcell_ne (a := cc0_scoped0) (b := cc0_scratch5) (by decide), Finset.mem_erase.mpr ⟨dcell_ne (a := cc0_scoped0) (b := cc0_scratch4) (by decide), Finset.mem_erase.mpr ⟨dcell_ne (a := cc0_scoped0) (b := cc0_scratch3) (by decide), dcell_mem (a := cc0_scoped0) (by decide)⟩⟩⟩⟩⟩⟩⟩⟩⟩⟩⟩⟩)]

/-- The two scratch buffers of the subcore are among its own: they are them, at some contents, and the rest. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch2 ↦{fullShare} f)
          ∗ bigSep (((ownRefs (τ := τ) (.scVector c i)).erase ((Proc.scVector c i).devRef cc0_scratch0)).erase
              ((Proc.scVector c i).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch2 : Ref sig .scVector) ≠ cc0_scratch0 by decide),
    SparseCore.Cfg.mem_ownRefs_of_owner (p := Proc.scVector c i) (b := (Proc.scVector c i).devRef cc0_scratch2) rfl⟩)]

/-- The guard of the table copy: the word the kernel tests is 1 exactly on subcore 0. -/
theorem guard_iff : ∀ x : Fin (grid0.bound 1),
    (Scalar.cmpi .ne (Scalar.extui (Scalar.cmpi .eq (BitVec.ofNat 32 x.val) 0#32) : BitVec 32) 0#32 = 1#1) ↔ x.val = 0 := by decide

/-- A separating conjunction over four indices, written out. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A read share as four read tokens and what is left. -/
theorem toks4 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 4} f) ∗ (ℓ ↦[S]{Transfers.shareTok q 4 0} f) ∗ (ℓ ↦[S]{Transfers.shareTok q 4 1} f)
      ∗ (ℓ ↦[S]{Transfers.shareTok q 4 2} f) ∗ (ℓ ↦[S]{Transfers.shareTok q 4 3} f)) := by
  have h := Transfers.pointsTo_toks (Lvl := ℕ) (Name := ℕ) (U := UU) (Ix := HIx 1) (ℓ := ℓ) (S := S) (f := f) q 4
  rw [bigSep_fin4] at h; exact h

variable [FloatOps F]

section Tile
variable (d : Dev nD) (L : grid0.Coords)

theorem pts_v0 (q : PosShare TreeShare) (f : Buf (Elt F) (v0Loc d)) :
    ((v0V).view.loc (V d (cV L) (jV L)) ↦{q} f : sProp 𝕄) = v0Loc d ↦{q} f := rfl
theorem pts_tb (q : PosShare TreeShare) (f : Buf (Elt F) (tbLoc d)) :
    ((tbV).view.loc (V d (cV L) (jV L)) ↦{q} f : sProp 𝕄) = tbLoc d ↦{q} f := rfl
theorem pts_sh (q : PosShare TreeShare) (f : Buf (Elt F) (shLoc d (cV L))) :
    ((shV).view.loc (V d (cV L) (jV L)) ↦{q} f : sProp 𝕄) = shLoc d (cV L) ↦{q} f := rfl
theorem pts_ix (f : Buf (Elt F) ((V d (cV L) (jV L)).loc cc0_scratch0)) :
    ((ixV).view.loc (V d (cV L) (jV L)) ↦{fullShare} f : sProp 𝕄) = (V d (cV L) (jV L)).loc cc0_scratch0 ↦{fullShare} f := rfl
theorem pts_rw (f : Buf (Elt F) ((V d (cV L) (jV L)).loc cc0_scratch2)) :
    ((rwV).view.loc (V d (cV L) (jV L)) ↦{fullShare} f : sProp 𝕄) = (V d (cV L) (jV L)).loc cc0_scratch2 ↦{fullShare} f := rfl

/-- The offsets gather 0 reads are in range: row 0 of the index scratch holds labels, each the word 0 or 1. -/
theorem offs_inb0 (hpre : PreOK m) (fi : (ixV).view.ty.Contents (Elt F)) (p0 p1 p2 p3 : S128.Idx → Elt F .i32) (hp : p0 = (v0Row0 L).view.read (Elt F) (lab3 m d)) :
    ∀ x, (ixRow0.view.read (Elt F) (ixW fi p0 p1 p2 p3) x).toNat < S2x128.size gathers_S2x128_S128x128.axis := fun x => by
  subst hp; rw [read_ixW0, v0Row0_read]; exact toNat_lt_two (lab3_01 m hpre d _)
/-- The offsets gather 1 reads are in range: row 1 of the index scratch holds labels, each the word 0 or 1. -/
theorem offs_inb1 (hpre : PreOK m) (fi : (ixV).view.ty.Contents (Elt F)) (p0 p1 p2 p3 : S128.Idx → Elt F .i32) (hp : p1 = (v0Row1 L).view.read (Elt F) (lab3 m d)) :
    ∀ x, (ixRow1.view.read (Elt F) (ixW fi p0 p1 p2 p3) x).toNat < S2x128.size gathers_S2x128_S128x128.axis := fun x => by
  subst hp; rw [read_ixW1, v0Row1_read]; exact toNat_lt_two (lab3_01 m hpre d _)
/-- The offsets gather 2 reads are in range: row 2 of the index scratch holds labels, each the word 0 or 1. -/
theorem offs_inb2 (hpre : PreOK m) (fi : (ixV).view.ty.Contents (Elt F)) (p0 p1 p2 p3 : S128.Idx → Elt F .i32) (hp : p2 = (v0Row2 L).view.read (Elt F) (lab3 m d)) :
    ∀ x, (ixRow2.view.read (Elt F) (ixW fi p0 p1 p2 p3) x).toNat < S2x128.size gathers_S2x128_S128x128.axis := fun x => by
  subst hp; rw [read_ixW2, v0Row2_read]; exact toNat_lt_two (lab3_01 m hpre d _)
/-- The offsets gather 3 reads are in range: row 3 of the index scratch holds labels, each the word 0 or 1. -/
theorem offs_inb3 (hpre : PreOK m) (fi : (ixV).view.ty.Contents (Elt F)) (p0 p1 p2 p3 : S128.Idx → Elt F .i32) (hp : p3 = (v0Row3 L).view.read (Elt F) (lab3 m d)) :
    ∀ x, (ixRow3.view.read (Elt F) (ixW fi p0 p1 p2 p3) x).toNat < S2x128.size gathers_S2x128_S128x128.axis := fun x => by
  subst hp; rw [read_ixW3, v0Row3_read]; exact toNat_lt_two (lab3_01 m hpre d _)

/-- A whole-buffer copy of the table leaves the shared buffer holding the table. -/
theorem sh_pts_filled (fsh : Buf (Elt F) (shLoc d (cV L))) (pay : S2x128.Idx → Elt F .f32) (hpay : pay = (tbV).view.read (Elt F) (m (tbLoc d))) :
    ((shV).view.loc (V d (cV L) (jV L)) ↦{fullShare} View.write (Elt F) (shV).view fsh pay Finset.univ : sProp 𝕄)
      = shLoc d (cV L) ↦{fullShare} tabS m d (cV L) := by
  subst hpay
  have e : View.write (Elt F) (shV).view fsh ((tbV).view.read (Elt F) (m (tbLoc d))) Finset.univ = tabS m d (cV L) :=
    View.write_whole_univ (Val := Elt F) cc0_scratch1 fsh _
  exact congrArg (fun f : Buf (Elt F) (shLoc d (cV L)) => (shLoc d (cV L) ↦{fullShare} f : sProp 𝕄)) e

/-- Subcore 0's sixteen duties hand each subcore its read token of the filled shared copy; the remainder stays. -/
theorem pays_intro_zero (h0 : (L 1).val = 0) :
    (shLoc d (cV L) ↦{fullShare} tabS m d (cV L) : sProp 𝕄)
      ⊢ iprop((bigSep Finset.univ fun j : Fin (grid0.bound 1) => (bRd (F := F) m).payload (bcell d (cV L) (j.castLE hsub0)) 0 (jV L).val)
          ∗ shLoc d (cV L) ↦{qS0} tabS m d (cV L)) := by
  have e : (bigSep Finset.univ fun j : Fin (grid0.bound 1) => (bRd (F := F) m).payload (bcell d (cV L) (j.castLE hsub0)) 0 (jV L).val)
      = bigSep Finset.univ fun i : Fin 16 => (shLoc d (cV L) ↦{Transfers.shareTok fullShare 16 i} tabS m d (cV L) : sProp 𝕄) :=
    bigSep_congr fun j _ => by
      show bPay m (bcell d (cV L) (j.castLE hsub0)) (jV L).val = _
      unfold bPay; dsimp only
      rw [if_pos (show (jV L).val = 0 from h0)]
      rfl
  rw [e]
  refine (Transfers.pointsTo_toks_split fullShare 16).trans ?_
  iintro ⟨Hr, Ht⟩
  isplitl [Ht]; · iexact Ht
  iexact Hr

/-- Another subcore's duties hand over nothing. -/
theorem pays_intro_ne (h0 : (L 1).val ≠ 0) :
    (iprop(emp) : sProp 𝕄) ⊢ bigSep Finset.univ fun j : Fin (grid0.bound 1) => (bRd (F := F) m).payload (bcell d (cV L) (j.castLE hsub0)) 0 (jV L).val := by
  rw [show (bigSep Finset.univ fun j : Fin (grid0.bound 1) => (bRd (F := F) m).payload (bcell d (cV L) (j.castLE hsub0)) 0 (jV L).val)
      = bigSep Finset.univ fun _ : Fin (grid0.bound 1) => (iprop(emp) : sProp 𝕄) from
    bigSep_congr fun j _ => by
      show bPay m (bcell d (cV L) (j.castLE hsub0)) (jV L).val = _
      unfold bPay; dsimp only
      rw [if_neg (show ¬ (jV L).val = 0 from h0)], bigSep_emp']

/-- After the barrier a subcore's own round holds subcore 0's duty: its read token of the shared copy, the table in it. -/
theorem pays_elim : (bigSep ((bRd (F := F) m).duties (bcell d (cV L) (jV L)) 0 \ ∅) fun n => (bRd (F := F) m).payload (bcell d (cV L) (jV L)) 0 n)
    ⊢ (shLoc d (cV L) ↦{qS (jI L)} tabS m d (cV L) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]; exact BI.Entails.refl _

set_option maxHeartbeats 4000000 in
theorem tile_body_zero (h0 : (L 1).val = 0) (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goRes m d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__embed L v0V (Memref.isWhole_whole _) tbV (Memref.isWhole_whole _) v1V (Memref.isWhole_whole _) ixV (Memref.isWhole_whole _) shV (Memref.isWhole_whole _) rwV (Memref.isWhole_whole _)
            cc0_scratch3 cc0_scratch4 cc0_scratch5 cc0_scratch6 cc0_scratch7 cc0_scratch8 cc0_scratch9 cc0_scratch10 cc0_scratch11 cc0_scratch12 cc0_scratch13 cc0_scratch14 cc0_scoped0)
          fun _ => iprop(tdRes m d L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hg : (Scalar.cmpi .ne (Scalar.extui (Scalar.cmpi .eq (BitVec.ofNat 32 (L 1).val) 0#32) : BitVec 32) 0#32 = 1#1) := (guard_iff (L 1)).mpr h0
  simp only [cc0__embed_eq_skeleton]; unfold cc0__embed_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  rw [(K (F := F)).scopedBufs_V hF d (cV L) (jV L), SparseCore.Cfg.scopedSems0_V (Val := Elt F) d (cV L) (jV L), ownSems0_V, ownBufs_V]
  unfold bkit goRes tdRes
  rw [if_pos h0, if_pos h0, bigSep_fin4, bigSep_fin4]
  iintro ⟨#Hlv, ⟨⟨%κ, #Hinv⟩, Htoks, #Hrch, Hat, Hcred⟩, ⟨Hv0, Htb, ⟨Ho0, Ho1, Ho2, Ho3⟩, %fsh, Hsh⟩, ⟨⟨%fi, Hix⟩, ⟨%fr, Hrw⟩, Hbufs⟩, ⟨Hs3, Hs4, Hs5, Hs6, Hs7, Hs8, Hs9, Hs10, Hs11, Hs12, Hs13, Hs14, Hsc, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  -- the reshaped labels: four read tokens, one per label transfer
  ihave Hv0s := (toks4 (F := F) (qT (cI L) (jI L))).1 $$ Hv0
  icases Hv0s with ⟨Hv0r, Hv00, Hv01, Hv02, Hv03⟩
  ihave Hv00' := (Entails.of_eq (pts_v0 (F := F) d L _ _).symm) $$ Hv00
  ihave Hv01' := (Entails.of_eq (pts_v0 (F := F) d L _ _).symm) $$ Hv01
  ihave Hv02' := (Entails.of_eq (pts_v0 (F := F) d L _ _).symm) $$ Hv02
  ihave Hv03' := (Entails.of_eq (pts_v0 (F := F) d L _ _).symm) $$ Hv03
  ihave Htb' := (Entails.of_eq (pts_tb (F := F) d L _ _).symm) $$ Htb
  ihave Hsh' := (Entails.of_eq (pts_sh (F := F) d L _ _).symm) $$ Hsh
  ihave Hix' := (Entails.of_eq (pts_ix (F := F) d L _).symm) $$ Hix
  ihave Hrw' := (Entails.of_eq (pts_rw (F := F) d L _).symm) $$ Hrw
  ihave Ho0' := (Entails.of_eq (pts_out0 (F := F) d L _).symm) $$ Ho0
  ihave Ho1' := (Entails.of_eq (pts_out1 (F := F) d L _).symm) $$ Ho1
  ihave Ho2' := (Entails.of_eq (pts_out2 (F := F) d L _).symm) $$ Ho2
  ihave Ho3' := (Entails.of_eq (pts_out3 (F := F) d L _).symm) $$ Ho3
  set_option sl_exec.dmaWindow true in
  sl_exec
  -- the shared copy now holds the table: sixteen read tokens, one per subcore, and the remainder
  ihave Hsh2 := (Entails.of_eq (sh_pts_filled (F := F) m d L fsh (tile_body_zero.sl.dma0_4 m d) rfl)) $$ Hsh'
  ihave Hpays := (pays_intro_zero (F := F) m d L h0) $$ Hsh2
  icases Hpays with ⟨Hpays, Hsh0⟩

  rw [wp_bind]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmine := (pays_elim (F := F) m d L) $$ Hgot
  ihave Hmine' := (Entails.of_eq (pts_sh (F := F) d L _ _).symm) $$ Hmine
  ihave Hq := (toks4 (F := F) (qS (jI L))).1 $$ Hmine'
  icases Hq with ⟨Hshr, Hsh0t, Hsh1t, Hsh2t, Hsh3t⟩
  have hin0 := offs_inb0 (F := F) m d L hpre fi (tile_body_zero.sl.dma0 m d L) (tile_body_zero.sl.dma0_1 m d L) (tile_body_zero.sl.dma0_2 m d L) (tile_body_zero.sl.dma0_3 m d L) rfl
  have hin1 := offs_inb1 (F := F) m d L hpre fi (tile_body_zero.sl.dma0 m d L) (tile_body_zero.sl.dma0_1 m d L) (tile_body_zero.sl.dma0_2 m d L) (tile_body_zero.sl.dma0_3 m d L) rfl
  have hin2 := offs_inb2 (F := F) m d L hpre fi (tile_body_zero.sl.dma0 m d L) (tile_body_zero.sl.dma0_1 m d L) (tile_body_zero.sl.dma0_2 m d L) (tile_body_zero.sl.dma0_3 m d L) rfl
  have hin3 := offs_inb3 (F := F) m d L hpre fi (tile_body_zero.sl.dma0 m d L) (tile_body_zero.sl.dma0_1 m d L) (tile_body_zero.sl.dma0_2 m d L) (tile_body_zero.sl.dma0_3 m d L) rfl
  set_option sl_exec.dmaWindow true in
  sl_exec
  sl_step
  isplitl [Hv0r Hv00' Hv01' Hv02' Hv03' Htb' Ho0' Ho1' Ho2' Ho3' Hshr Hsh0t Hsh1t Hsh2t Hsh3t Hsh0]
  · isplitl [Hv0r Hv00' Hv01' Hv02' Hv03']
    · iapply (toks4 (F := F) (ℓ := v0Loc d) (qT (cI L) (jI L))).2
      isplitl [Hv0r]; · iexact Hv0r
      isplitl [Hv00']; · iexact Hv00'
      isplitl [Hv01']; · iexact Hv01'
      isplitl [Hv02']; · iexact Hv02'
      iexact Hv03'
    isplitl [Htb']; · iexact Htb'
    isplitl [Ho0' Ho1' Ho2' Ho3']
    · isplitl [Ho0']; · iapply (Entails.of_eq ((pointsTo_congr (out_val0 m hpre d L fi fr (tile_body_zero.sl.dma0 m d L) (tile_body_zero.sl.dma0_1 m d L) (tile_body_zero.sl.dma0_2 m d L) (tile_body_zero.sl.dma0_3 m d L) rfl hin0 _ _ _ _ _ rfl _ rfl)).trans (pts_out0 (F := F) d L _))); iexact Ho0'
      isplitl [Ho1']; · iapply (Entails.of_eq ((pointsTo_congr (out_val1 m hpre d L fi fr (tile_body_zero.sl.dma0 m d L) (tile_body_zero.sl.dma0_1 m d L) (tile_body_zero.sl.dma0_2 m d L) (tile_body_zero.sl.dma0_3 m d L) rfl hin1 _ _ _ _ _ rfl _ rfl)).trans (pts_out1 (F := F) d L _))); iexact Ho1'
      isplitl [Ho2']; · iapply (Entails.of_eq ((pointsTo_congr (out_val2 m hpre d L fi fr (tile_body_zero.sl.dma0 m d L) (tile_body_zero.sl.dma0_1 m d L) (tile_body_zero.sl.dma0_2 m d L) (tile_body_zero.sl.dma0_3 m d L) rfl hin2 _ _ _ _ _ rfl _ rfl)).trans (pts_out2 (F := F) d L _))); iexact Ho2'
      iapply (Entails.of_eq ((pointsTo_congr (out_val3 m hpre d L fi fr (tile_body_zero.sl.dma0 m d L) (tile_body_zero.sl.dma0_1 m d L) (tile_body_zero.sl.dma0_2 m d L) (tile_body_zero.sl.dma0_3 m d L) rfl hin3 _ _ _ _ _ rfl _ rfl)).trans (pts_out3 (F := F) d L _))); iexact Ho3'
    isplitl [Hshr Hsh0t Hsh1t Hsh2t Hsh3t]
    · iapply (toks4 (F := F) (ℓ := shLoc d (cV L)) (qS (jI L))).2
      isplitl [Hshr]; · iexact Hshr
      isplitl [Hsh0t]; · iexact Hsh0t
      isplitl [Hsh1t]; · iexact Hsh1t
      isplitl [Hsh2t]; · iexact Hsh2t
      iexact Hsh3t
    iexact Hsh0
  isplitl [Hix' Hrw' Hbufs]
  · isplitl [Hix']; · iexists _; iexact Hix'
    isplitl [Hrw']; · iexists _; iexact Hrw'
    iexact Hbufs
  isplitl [Hs3 Hs4 Hs5 Hs6 Hs7 Hs8 Hs9 Hs10 Hs11 Hs12 Hs13 Hs14 Hsc Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hsc]; · iexact Hsc
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  exact .inl hp

set_option maxHeartbeats 4000000 in
theorem tile_body_ne (h0 : (L 1).val ≠ 0) (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goRes m d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__embed L v0V (Memref.isWhole_whole _) tbV (Memref.isWhole_whole _) v1V (Memref.isWhole_whole _) ixV (Memref.isWhole_whole _) shV (Memref.isWhole_whole _) rwV (Memref.isWhole_whole _)
            cc0_scratch3 cc0_scratch4 cc0_scratch5 cc0_scratch6 cc0_scratch7 cc0_scratch8 cc0_scratch9 cc0_scratch10 cc0_scratch11 cc0_scratch12 cc0_scratch13 cc0_scratch14 cc0_scoped0)
          fun _ => iprop(tdRes m d L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hg : ¬ (Scalar.cmpi .ne (Scalar.extui (Scalar.cmpi .eq (BitVec.ofNat 32 (L 1).val) 0#32) : BitVec 32) 0#32 = 1#1) := fun h => h0 ((guard_iff (L 1)).mp h)
  simp only [cc0__embed_eq_skeleton]; unfold cc0__embed_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  rw [(K (F := F)).scopedBufs_V hF d (cV L) (jV L), SparseCore.Cfg.scopedSems0_V (Val := Elt F) d (cV L) (jV L), ownSems0_V, ownBufs_V]
  unfold bkit goRes tdRes
  rw [if_neg h0, if_neg h0, bigSep_fin4, bigSep_fin4]
  iintro ⟨#Hlv, ⟨⟨%κ, #Hinv⟩, Htoks, #Hrch, Hat, Hcred⟩, ⟨Hv0, Htb, ⟨Ho0, Ho1, Ho2, Ho3⟩, -⟩, ⟨⟨%fi, Hix⟩, ⟨%fr, Hrw⟩, Hbufs⟩, ⟨Hs3, Hs4, Hs5, Hs6, Hs7, Hs8, Hs9, Hs10, Hs11, Hs12, Hs13, Hs14, Hsc, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  -- the reshaped labels: four read tokens, one per label transfer
  ihave Hv0s := (toks4 (F := F) (qT (cI L) (jI L))).1 $$ Hv0
  icases Hv0s with ⟨Hv0r, Hv00, Hv01, Hv02, Hv03⟩
  ihave Hv00' := (Entails.of_eq (pts_v0 (F := F) d L _ _).symm) $$ Hv00
  ihave Hv01' := (Entails.of_eq (pts_v0 (F := F) d L _ _).symm) $$ Hv01
  ihave Hv02' := (Entails.of_eq (pts_v0 (F := F) d L _ _).symm) $$ Hv02
  ihave Hv03' := (Entails.of_eq (pts_v0 (F := F) d L _ _).symm) $$ Hv03
  ihave Htb' := (Entails.of_eq (pts_tb (F := F) d L _ _).symm) $$ Htb
  ihave Hix' := (Entails.of_eq (pts_ix (F := F) d L _).symm) $$ Hix
  ihave Hrw' := (Entails.of_eq (pts_rw (F := F) d L _).symm) $$ Hrw
  ihave Ho0' := (Entails.of_eq (pts_out0 (F := F) d L _).symm) $$ Ho0
  ihave Ho1' := (Entails.of_eq (pts_out1 (F := F) d L _).symm) $$ Ho1
  ihave Ho2' := (Entails.of_eq (pts_out2 (F := F) d L _).symm) $$ Ho2
  ihave Ho3' := (Entails.of_eq (pts_out3 (F := F) d L _).symm) $$ Ho3
  set_option sl_exec.dmaWindow true in
  sl_exec
  -- this subcore's duties hand over nothing
  ihave Hpays := (pays_intro_ne (F := F) m d L h0) $$ []
  · iempintro

  rw [wp_bind]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmine := (pays_elim (F := F) m d L) $$ Hgot
  ihave Hmine' := (Entails.of_eq (pts_sh (F := F) d L _ _).symm) $$ Hmine
  ihave Hq := (toks4 (F := F) (qS (jI L))).1 $$ Hmine'
  icases Hq with ⟨Hshr, Hsh0t, Hsh1t, Hsh2t, Hsh3t⟩
  have hin0 := offs_inb0 (F := F) m d L hpre fi (tile_body_ne.sl.dma0 m d L) (tile_body_ne.sl.dma0_1 m d L) (tile_body_ne.sl.dma0_2 m d L) (tile_body_ne.sl.dma0_3 m d L) rfl
  have hin1 := offs_inb1 (F := F) m d L hpre fi (tile_body_ne.sl.dma0 m d L) (tile_body_ne.sl.dma0_1 m d L) (tile_body_ne.sl.dma0_2 m d L) (tile_body_ne.sl.dma0_3 m d L) rfl
  have hin2 := offs_inb2 (F := F) m d L hpre fi (tile_body_ne.sl.dma0 m d L) (tile_body_ne.sl.dma0_1 m d L) (tile_body_ne.sl.dma0_2 m d L) (tile_body_ne.sl.dma0_3 m d L) rfl
  have hin3 := offs_inb3 (F := F) m d L hpre fi (tile_body_ne.sl.dma0 m d L) (tile_body_ne.sl.dma0_1 m d L) (tile_body_ne.sl.dma0_2 m d L) (tile_body_ne.sl.dma0_3 m d L) rfl
  set_option sl_exec.dmaWindow true in
  sl_exec
  sl_step
  isplitl [Hv0r Hv00' Hv01' Hv02' Hv03' Htb' Ho0' Ho1' Ho2' Ho3' Hshr Hsh0t Hsh1t Hsh2t Hsh3t ]
  · isplitl [Hv0r Hv00' Hv01' Hv02' Hv03']
    · iapply (toks4 (F := F) (ℓ := v0Loc d) (qT (cI L) (jI L))).2
      isplitl [Hv0r]; · iexact Hv0r
      isplitl [Hv00']; · iexact Hv00'
      isplitl [Hv01']; · iexact Hv01'
      isplitl [Hv02']; · iexact Hv02'
      iexact Hv03'
    isplitl [Htb']; · iexact Htb'
    isplitl [Ho0' Ho1' Ho2' Ho3']
    · isplitl [Ho0']; · iapply (Entails.of_eq ((pointsTo_congr (out_val0 m hpre d L fi fr (tile_body_ne.sl.dma0 m d L) (tile_body_ne.sl.dma0_1 m d L) (tile_body_ne.sl.dma0_2 m d L) (tile_body_ne.sl.dma0_3 m d L) rfl hin0 _ _ _ _ _ rfl _ rfl)).trans (pts_out0 (F := F) d L _))); iexact Ho0'
      isplitl [Ho1']; · iapply (Entails.of_eq ((pointsTo_congr (out_val1 m hpre d L fi fr (tile_body_ne.sl.dma0 m d L) (tile_body_ne.sl.dma0_1 m d L) (tile_body_ne.sl.dma0_2 m d L) (tile_body_ne.sl.dma0_3 m d L) rfl hin1 _ _ _ _ _ rfl _ rfl)).trans (pts_out1 (F := F) d L _))); iexact Ho1'
      isplitl [Ho2']; · iapply (Entails.of_eq ((pointsTo_congr (out_val2 m hpre d L fi fr (tile_body_ne.sl.dma0 m d L) (tile_body_ne.sl.dma0_1 m d L) (tile_body_ne.sl.dma0_2 m d L) (tile_body_ne.sl.dma0_3 m d L) rfl hin2 _ _ _ _ _ rfl _ rfl)).trans (pts_out2 (F := F) d L _))); iexact Ho2'
      iapply (Entails.of_eq ((pointsTo_congr (out_val3 m hpre d L fi fr (tile_body_ne.sl.dma0 m d L) (tile_body_ne.sl.dma0_1 m d L) (tile_body_ne.sl.dma0_2 m d L) (tile_body_ne.sl.dma0_3 m d L) rfl hin3 _ _ _ _ _ rfl _ rfl)).trans (pts_out3 (F := F) d L _))); iexact Ho3'
    isplitl [Hshr Hsh0t Hsh1t Hsh2t Hsh3t]
    · iapply (toks4 (F := F) (ℓ := shLoc d (cV L)) (qS (jI L))).2
      isplitl [Hshr]; · iexact Hshr
      isplitl [Hsh0t]; · iexact Hsh0t
      isplitl [Hsh1t]; · iexact Hsh1t
      isplitl [Hsh2t]; · iexact Hsh2t
      iexact Hsh3t
    iempintro
  isplitl [Hix' Hrw' Hbufs]
  · isplitl [Hix']; · iexists _; iexact Hix'
    isplitl [Hrw']; · iexists _; iexact Hrw'
    iexact Hbufs
  isplitl [Hs3 Hs4 Hs5 Hs6 Hs7 Hs8 Hs9 Hs10 Hs11 Hs12 Hs13 Hs14 Hsc Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hsc]; · iexact Hsc
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  exact .inl hp

/-- The task of the vector subcore at `L`: both arms of the guard. -/
theorem tile_body  (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goRes m d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__embed L v0V (Memref.isWhole_whole _) tbV (Memref.isWhole_whole _) v1V (Memref.isWhole_whole _) ixV (Memref.isWhole_whole _) shV (Memref.isWhole_whole _) rwV (Memref.isWhole_whole _)
            cc0_scratch3 cc0_scratch4 cc0_scratch5 cc0_scratch6 cc0_scratch7 cc0_scratch8 cc0_scratch9 cc0_scratch10 cc0_scratch11 cc0_scratch12 cc0_scratch13 cc0_scratch14 cc0_scoped0)
          fun _ => iprop(tdRes m d L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  by_cases h0 : (L 1).val = 0
  · exact tile_body_zero m d L h0 hF hpre O W hO hOlev
  · exact tile_body_ne m d L h0 hF hpre O W hO hOlev

end Tile

/-! ## The obligation -/

theorem defs₀_vector (c : Fin τ.nSC) (s : Fin τ.nSub) :
    defs₀ (F := F) (.scVector c s) 0 ()
      = SparseCore.onTile hcore0 hsub0 (fun c s => cc0__embed (coordsV c s)
          v0V (Memref.isWhole_whole _) tbV (Memref.isWhole_whole _) v1V (Memref.isWhole_whole _) ixV (Memref.isWhole_whole _) shV (Memref.isWhole_whole _) rwV (Memref.isWhole_whole _)
          cc0_scratch3 cc0_scratch4 cc0_scratch5 cc0_scratch6 cc0_scratch7 cc0_scratch8 cc0_scratch9 cc0_scratch10 cc0_scratch11 cc0_scratch12 cc0_scratch13 cc0_scratch14 cc0_scoped0) ⟨⟩ c s := rfl

set_option maxRecDepth 16384 in
theorem tileObl (hF : (K (F := F)).Facts) (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO hOlev

end Cert.Proof.KB

end
-- ==== Proof.KB.Main.lean ====
/-
  @main on the TensorCore, and the program's run. @main reshapes the labels to [32, 4, 128], starts the lookup on the
  two SparseCores — handing each its read tokens of the reshaped labels and of the table and its 64 chunks of the
  result, and taking them back with the chunks filled —, and inserts the unit axis into the result. At the end the
  two argument arrays hold what they held and the result holds the lookup as one function of them.
-/
import proofs.«202797_g70420283785446_cont_9to1_m_562_18_alg».proof.Proof.KB.Common
import proofs.«202797_g70420283785446_cont_9to1_m_562_18_alg».proof.Proof.KB.Chunks
import proofs.«202797_g70420283785446_cont_9to1_m_562_18_alg».proof.Proof.KB.Split
import proofs.«202797_g70420283785446_cont_9to1_m_562_18_alg».proof.Proof.KB.Body

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v0V" => (Memref.whole Cert.Kernel.main_v0_scv : Memref Cert.Kernel.sig Kind.scVector Space.hbm Cert.Kernel.S32x4x128 EltTy.i32)
local notation "tbV" => (Memref.whole Cert.Kernel.main_arg1_scv : Memref Cert.Kernel.sig Kind.scVector Space.hbm Cert.Kernel.S2x128 EltTy.f32)
local notation "v1V" => (Memref.whole Cert.Kernel.main_v1_scv : Memref Cert.Kernel.sig Kind.scVector Space.hbm Cert.Kernel.S16384x128 EltTy.f32)
local notation "ixV" => (Memref.whole Cert.Kernel.cc0_scratch0 : Memref Cert.Kernel.sig Kind.scVector Space.vmem Cert.Kernel.S4x128 EltTy.i32)
local notation "shV" => (Memref.whole Cert.Kernel.cc0_scratch1 : Memref Cert.Kernel.sig Kind.scVector Space.shared Cert.Kernel.S2x128 EltTy.f32)
local notation "rwV" => (Memref.whole Cert.Kernel.cc0_scratch2 : Memref Cert.Kernel.sig Kind.scVector Space.vmem Cert.Kernel.S512x128 EltTy.f32)

open Idealize.ShloMosaic.StableHlo (held held_split held_sdiff_result wp_hlo_within)

variable (m : (ℓ : Loc nD τ sig) → Buf (Elt F) ℓ) (ρ : Dev nD → PrngReg)
variable [FloatOps F]

abbrev a0' : DevRef τ sig := Proc.devRef .tc (main_arg0 : Ref sig .tc)
abbrev tb' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

/-- The reshape of the labels and the insertion of the result's unit axis, as @main states them. -/
abbrev opR : HloOp τ sig (Elt F) := StableHlo.reshape main_arg0 main_v0 rfl shapeCasts_S16384_S32x4x128
abbrev opB : HloOp τ sig (Elt F) := StableHlo.unary main_v1 main_v2 (broadcastInDim S16384x1x128 ![0, 2] bcast_S16384x128_S16384x1x128_0_2 : (⟨S16384x128, .f32⟩ : BufTy).Contents (Elt F) → (⟨S16384x1x128, .f32⟩ : BufTy).Contents (Elt F))

/-- @main's result: the lookup's rows with the unit axis inserted. -/
def res2 (d : Dev nD) : Buf (Elt F) (v2Loc d) :=
  (broadcastInDim S16384x1x128 ![0, 2] bcast_S16384x128_S16384x1x128_0_2 : (⟨S16384x128, .f32⟩ : BufTy).Contents (Elt F) → (⟨S16384x1x128, .f32⟩ : BufTy).Contents (Elt F)) (outG m d)

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (tbLoc d ↦{fullShare} W main_arg1) ∗ (v0Loc d ↦{fullShare} W main_v0)
          ∗ (v1Loc d ↦{fullShare} W main_v1) ∗ v2Loc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; -/
def V0 (d : Dev nD) : Valuation τ sig (Elt F) := fun b => m (d, b)
/-- and the one the insertion of the unit axis starts from: the kernel's result filled. -/
def V1 (d : Dev nD) : Valuation τ sig (Elt F) := Function.update (V0 m d) v1' (outG m d)

omit [FloatOps F] in
theorem held_pair (d : Dev nD) (x y : DevRef τ sig) (h : x ≠ y) (W : Valuation τ sig (Elt F)) :
    (held (T d) {x, y} W : sProp 𝕄) = iprop((((d, x) : Loc nD τ sig) ↦{fullShare} W x) ∗ ((d, y) : Loc nD τ sig) ↦{fullShare} W y) := by
  unfold held
  rw [SparseCore.bigSep_insert' (by simpa using h), bigSep_singleton]

theorem held_R0 (d : Dev nD) : (held (T d) {a0', v0'} (V0 m d) : sProp 𝕄) = iprop((a0Loc d ↦{fullShare} m (a0Loc d)) ∗ v0Loc d ↦{fullShare} m (v0Loc d)) :=
  held_pair d a0' v0' (by decide) _

theorem opR_res_v0 (d : Dev nD) : (opR (F := F)).result (V0 m d) v0' = lab3 m d := by
  rw [StableHlo.reshape_result]; rfl
theorem opR_res_a0 (d : Dev nD) : (opR (F := F)).result (V0 m d) a0' = m (a0Loc d) :=
  (opR (F := F)).result_of_not_mem _ (show a0' ∉ ({v0'} : Finset (DevRef τ sig)) by decide)
theorem opB_res_v2 (d : Dev nD) : (opB (F := F)).result (V1 m d) v2' = res2 m d := by
  rw [(opB (F := F)).result_of_mem _ (Finset.mem_singleton_self _)]
  show (broadcastInDim S16384x1x128 ![0, 2] bcast_S16384x128_S16384x1x128_0_2 : (⟨S16384x128, .f32⟩ : BufTy).Contents (Elt F) → _) (V1 m d v1') = _
  unfold V1 res2; rw [Function.update_self]
theorem opB_res_v1 (d : Dev nD) : (opB (F := F)).result (V1 m d) v1' = outG m d :=
  ((opB (F := F)).result_of_not_mem _ (show v1' ∉ ({v2'} : Finset (DevRef τ sig)) by decide)).trans (Function.update_self _ _ _)

theorem held_R (d : Dev nD) : (held (T d) {a0', v0'} ((opR (F := F)).result (V0 m d)) : sProp 𝕄) = iprop((a0Loc d ↦{fullShare} m (a0Loc d)) ∗ v0Loc d ↦{fullShare} lab3 m d) := by
  rw [held_pair d a0' v0' (by decide), opR_res_v0, opR_res_a0]
theorem held_B0 (d : Dev nD) : (held (T d) {v1', v2'} (V1 m d) : sProp 𝕄) = iprop((v1Loc d ↦{fullShare} outG m d) ∗ v2Loc d ↦{fullShare} m (v2Loc d)) := by
  rw [held_pair d v1' v2' (by decide), show V1 m d v1' = outG m d from Function.update_self _ _ _,
    show V1 m d v2' = m (v2Loc d) from Function.update_of_ne (show v2' ≠ v1' by decide) _ _]
theorem held_B (d : Dev nD) : (held (T d) {v1', v2'} ((opB (F := F)).result (V1 m d)) : sProp 𝕄) = iprop((v1Loc d ↦{fullShare} outG m d) ∗ v2Loc d ↦{fullShare} res2 m d) := by
  rw [held_pair d v1' v2' (by decide), opB_res_v2, opB_res_v1]
theorem st_eq (d : Dev nD) : (bigSep Finset.univ fun c : Fin ((K (F := F)).nCore 0) => (P m).st 0 d c)
    = iprop((bigSep Finset.univ fun c : Fin (grid0.bound 0) => v0Loc d ↦{qC (Fin.cast bound_zero c)} lab3 m d)
        ∗ (bigSep Finset.univ fun c : Fin (grid0.bound 0) => tbLoc d ↦{qC (Fin.cast bound_zero c)} m (tbLoc d))
        ∗ bigSep Finset.univ fun c : Fin (grid0.bound 0) => bigSep Finset.univ fun s : Fin (grid0.bound 1) => bigSep Finset.univ fun j : Fin 4 => v1Loc d ↦[outSet (coordsV c s) j]{fullShare} m (v1Loc d)) := by
  rw [← bigSep_sep', ← bigSep_sep']; exact bigSep_congr fun c _ => rfl
theorem dn_eq (d : Dev nD) : (bigSep Finset.univ fun c : Fin ((K (F := F)).nCore 0) => (P m).dn 0 d c)
    = iprop((bigSep Finset.univ fun c : Fin (grid0.bound 0) => v0Loc d ↦{qC (Fin.cast bound_zero c)} lab3 m d)
        ∗ (bigSep Finset.univ fun c : Fin (grid0.bound 0) => tbLoc d ↦{qC (Fin.cast bound_zero c)} m (tbLoc d))
        ∗ bigSep Finset.univ fun c : Fin (grid0.bound 0) => bigSep Finset.univ fun s : Fin (grid0.bound 1) => bigSep Finset.univ fun j : Fin 4 => v1Loc d ↦[outSet (coordsV c s) j]{fullShare} outG m d) := by
  rw [← bigSep_sep', ← bigSep_sep']; exact bigSep_congr fun c _ => rfl

theorem st0_eq (d : Dev nD) : (bigSep Finset.univ fun c : Fin ((K (F := F)).nCore 0) => (P m).st 0 d c) = bigSep Finset.univ fun c : Fin (grid0.bound 0) => stRes m d c :=
  bigSep_congr fun c _ => rfl
theorem dn0_eq (d : Dev nD) : (bigSep Finset.univ fun c : Fin ((K (F := F)).nCore 0) => (P m).dn 0 d c) = bigSep Finset.univ fun c : Fin (grid0.bound 0) => dnRes m d c :=
  bigSep_congr fun c _ => rfl

omit [FloatOps F] in
/-- A read-only array held whole is one token per SparseCore and a remainder. -/
theorem toks2 {ℓ : Loc nD τ sig} (f : Buf (Elt F) ℓ) :
    (ℓ ↦{fullShare} f : sProp 𝕄) ⊣⊢ iprop((ℓ ↦{Transfers.shareDrop fullShare 2} f) ∗ bigSep Finset.univ fun c : Fin (grid0.bound 0) => ℓ ↦{qC (Fin.cast bound_zero c)} f) :=
  Transfers.pointsTo_toks fullShare 2

/-- What @main leaves the claim: the arguments at their launch contents, the result at the lookup. -/
abbrev FIN (d : Dev nD) : sProp 𝕄 := iprop((a0Loc d ↦{fullShare} m (a0Loc d)) ∗ (tbLoc d ↦{fullShare} m (tbLoc d)) ∗ v2Loc d ↦{fullShare} res2 m d)

set_option maxHeartbeats 1000000 in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Htb, Hv0, Hv1, Hv2⟩, -, -⟩, -⟩
  -- the reshape of the labels
  iapply (wp_hlo_within 𝒱 (SparseCore.T d) none Set.univ (op := opR) (S := {a0', v0'}) (Finset.Subset.refl _) (V := V0 m d)) $$ [Hb Ha0 Hv0]
  · isplitl [Hb]; · iexact Hb
    iapply (Entails.of_eq (held_R0 (F := F) m d).symm)
    isplitl [Ha0]; · iexact Ha0
    iexact Hv0
  iintro ⟨Hb, Hheld⟩
  rw [wp_ret]; imodintro
  ihave Hh := (Entails.of_eq (held_R (F := F) m d)) $$ Hheld
  icases Hh with ⟨Ha0, Hv0⟩
  -- the call: each SparseCore its tokens and its chunks, and back
  ihave Hv0s := (toks2 (F := F) (lab3 m d)).1 $$ Hv0
  icases Hv0s with ⟨Hv0r, Hv0t⟩
  ihave Htbs := (toks2 (F := F) (m (tbLoc d))).1 $$ Htb
  icases Htbs with ⟨Htbr, Htbt⟩
  ihave Hv1c := (Entails.of_eq (v1_chunks (F := F) d (m (v1Loc d)))) $$ Hv1
  iapply ((K (F := F)).wp_run (D (F := F)) 𝒱 (EH := EH) (P := P m) κ d 0) $$ [Hst Hv0t Htbt Hv1c Hb Ha0 Hv0r Htbr Hv2]
  isplitr; · iexact Hctx
  isplitl [Hst]; · iexact Hst
  isplitl [Hv0t Htbt Hv1c]
  · iapply (Entails.of_eq (st_eq (F := F) m d).symm)
    isplitl [Hv0t]; · iexact Hv0t
    isplitl [Htbt]; · iexact Htbt
    iexact Hv1c
  iintro ⟨Hst, Hdn⟩
  ihave Hdn' := (Entails.of_eq (dn_eq (F := F) m d)) $$ Hdn
  icases Hdn' with ⟨Hv0t, Htbt, Hv1c⟩
  ihave Hv0 := (toks2 (F := F) (lab3 m d)).2 $$ [Hv0r Hv0t]
  · isplitl [Hv0r]; · iexact Hv0r
    iexact Hv0t
  ihave Htb := (toks2 (F := F) (m (tbLoc d))).2 $$ [Htbr Htbt]
  · isplitl [Htbr]; · iexact Htbr
    iexact Htbt
  ihave Hv1 := (Entails.of_eq (v1_chunks (F := F) d (outG m d)).symm) $$ Hv1c
  -- the unit axis
  iapply (wp_hlo_within 𝒱 (SparseCore.T d) none Set.univ (op := opB) (S := {v1', v2'}) (Finset.Subset.refl _) (V := V1 m d)) $$ [Hb Hv1 Hv2]
  · isplitl [Hb]; · iexact Hb
    iapply (Entails.of_eq (held_B0 (F := F) m d).symm)
    isplitl [Hv1]; · iexact Hv1
    iexact Hv2
  iintro ⟨Hb, Hheld⟩
  ihave Hh := (Entails.of_eq (held_B (F := F) m d)) $$ Hheld
  icases Hh with ⟨-, Hv2⟩
  rw [wp_ret]; imodintro; imodintro
  isplitl [Hst]; · iexact Hst
  isplitl [Ha0]; · iexact Ha0
  isplitl [Htb]; · iexact Htb
  iexact Hv2

def fq (d : Dev nD) (s' : Phys nD τ sig (Elt F)) : Prop :=
  s'.mem.mem (v2Loc d) = res2 m d ∧ s'.mem.mem (a0Loc d) = m (a0Loc d) ∧ s'.mem.mem (tbLoc d) = m (tbLoc d)

theorem hfin (d : Dev nD) (s' : Phys nD τ sig (Elt F)) : iprop(FIN m d ∗ SI s') ⊢ (⌜fq m d s'⌝ : sProp 𝕄) := by
  iintro ⟨⟨Ha0, Htb, Hv2⟩, HSI⟩
  ihave H0 := (persistent_entails_right (SI_pointsTo_agree (st := s') (ℓ := a0Loc d) (I := Finset.univ) (q := fullShare) (f := m (a0Loc d)))) $$ [HSI Ha0]
  · isplitl [HSI] <;> iassumption
  icases H0 with ⟨%h0, HSI, -⟩
  ihave H1 := (persistent_entails_right (SI_pointsTo_agree (st := s') (ℓ := tbLoc d) (I := Finset.univ) (q := fullShare) (f := m (tbLoc d)))) $$ [HSI Htb]
  · isplitl [HSI] <;> iassumption
  icases H1 with ⟨%h1, HSI, -⟩
  ihave H2 := (SI_pointsTo_agree (st := s') (ℓ := v2Loc d) (I := Finset.univ) (q := fullShare) (f := res2 m d)) $$ [HSI Hv2]
  · isplitl [HSI] <;> iassumption
  icases H2 with %h2
  ipureintro
  exact ⟨funext fun i => h2 i (Finset.mem_univ i), funext fun i => h0 i (Finset.mem_univ i), funext fun i => h1 i (Finset.mem_univ i)⟩

/-! ## The program's run -/

def QC : PUnit × MemSt nD τ sig (Elt F) → Prop := fun r => ∀ c : Dev nD,
  r.2.mem (v2Loc c) = res2 m c ∧ r.2.mem (a0Loc c) = m (a0Loc c) ∧ r.2.mem (tbLoc c) = m (tbLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => vecSplit m)
    m ρ main (fun _ => iprop(emp)) (FIN m) (u₀ (F := F)) (hu₀ m) (hmain m ρ) (fq m) (hfin m) (QC m) (fun _ h => h)

/-- The result read index by index: entry (b, 0, h) is entry (row of label b, h) of the table. -/
theorem res2_eq (d : Dev nD) : res2 m d = Cert.Spec.emb (F := F) (m (a0Loc d)) (m (tbLoc d)) := by
  funext i
  rfl

end Cert.Proof.KB

end
-- ==== Proof.lean ====
/-
  The claim: the lookup kernel, printed at the word level and idealized, and the reference each run to the end from
  any memory satisfying the precondition, fault nowhere and leave the two argument arrays unchanged; and the idealized
  kernel and the idealized reference end with equal results. Both compute ONE function of the arguments: entry
  (b, 0, h) of the result is entry (r, h) of the two-row table, r the row the b-th label names (a label is the word
  0 or 1 under the precondition). The kernel reaches it by gathering rows out of a shared copy of the table, 128 rows
  at a time on 32 vector subcores; the reference by a clamped, masked gather whose mask is all ones on such labels.
  The idealization rewrote nothing, so the remaining conjunct is trivial.
-/
import proofs.«202797_g70420283785446_cont_9to1_m_562_18_alg».proof.Defs
import proofs.«202797_g70420283785446_cont_9to1_m_562_18_alg».proof.Proof.Gen.Kernel
import proofs.«202797_g70420283785446_cont_9to1_m_562_18_alg».proof.Proof.Gen.Kernel.Skeleton
import proofs.«202797_g70420283785446_cont_9to1_m_562_18_alg».proof.Proof.Gen.KernelIdeal
import proofs.«202797_g70420283785446_cont_9to1_m_562_18_alg».proof.Proof.Gen.KernelIdeal.Skeleton
import proofs.«202797_g70420283785446_cont_9to1_m_562_18_alg».proof.Proof.Gen.ReferenceIdeal
import proofs.«202797_g70420283785446_cont_9to1_m_562_18_alg».proof.Proof.Gen.Pre_input_domain
import proofs.«202797_g70420283785446_cont_9to1_m_562_18_alg».proof.Proof.Spec
import proofs.«202797_g70420283785446_cont_9to1_m_562_18_alg».proof.Proof.PreFacts
import proofs.«202797_g70420283785446_cont_9to1_m_562_18_alg».proof.Proof.RefRun
import proofs.«202797_g70420283785446_cont_9to1_m_562_18_alg».proof.Proof.KI.Main
import proofs.«202797_g70420283785446_cont_9to1_m_562_18_alg».proof.Proof.KB.Main
import Idealize.ShloMosaic.Adequacy
import Idealize.ShloMosaic.Init

noncomputable section

namespace Cert.Proof

open Idealize.ShloMosaic Idealize.SL.Sem

/-- Under the precondition every label of the idealized kernel's memory is the word 0 or 1; -/
theorem preOK_ideal (m : (ℓ : Loc Cert.KernelIdeal.nD Cert.KernelIdeal.τ Cert.KernelIdeal.sig) → Buf (Elt Ideal) ℓ) (h : Cert.Pre_KernelIdeal m) :
    KI.PreOK (F := Ideal) m := fun d b => Cert.PreFacts.labels_01 _ _ (h d) b
/-- and of the word-level kernel's. -/
theorem preOK_bits (m : (ℓ : Loc Cert.Kernel.nD Cert.Kernel.τ Cert.Kernel.sig) → Buf (Elt Bits) ℓ) (h : Cert.Pre_Kernel m) :
    KB.PreOK (F := Bits) m := fun d b => Cert.PreFacts.labels_01 _ _ (h d) b

theorem frame_k : Cert.frame_Kernel := fun m ρ hpre =>
  (θ_run (Cert.Kernel.defs (F := Bits)) _ _).mono (fun _ h c => ⟨(h c).2.1, (h c).2.2⟩) (KB.run_main (F := Bits) m ρ (preOK_bits m hpre))

theorem frame_ki : Cert.frame_KernelIdeal := fun m ρ hpre =>
  (θ_run (Cert.KernelIdeal.defs (F := Ideal)) _ _).mono (fun _ h c => ⟨(h c).2.1, (h c).2.2⟩) (KI.run_main (F := Ideal) m ρ (preOK_ideal m hpre))

theorem frame_r : Cert.frame_ReferenceIdeal := fun m ρ hpre =>
  (θ_run (Cert.ReferenceIdeal.defs (F := Ideal)) _ _).mono (fun _ h c => (h c).2) (Cert.ReferenceIdeal.RefValue.run m ρ hpre)

/-- The two idealized programs end at the same function of the arguments they agree on. -/
theorem algebraic : Cert.algebraic_KernelIdeal_ReferenceIdeal := by
  intro m ρ m' ρ' hpre hagree
  refine ⟨fun c => Cert.Spec.emb (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · exact (θ_run (Cert.KernelIdeal.defs (F := Ideal)) _ _).mono (fun _ h c => ⟨(h c).1.trans (KI.res2_eq m c), (h c).2⟩)
      (KI.run_main (F := Ideal) m ρ (preOK_ideal m hpre))
  · have hpre' : Cert.Pre_ReferenceIdeal m' := fun c => by rw [(hagree c).1, (hagree c).2]; exact hpre c
    exact (θ_run (Cert.ReferenceIdeal.defs (F := Ideal)) _ _).mono (fun _ h c => ⟨by rw [(h c).1, (hagree c).1, (hagree c).2], (h c).2⟩)
      (Cert.ReferenceIdeal.RefValue.run m' ρ' hpre')

theorem claim : Cert.Claim :=
  ⟨Cert.Kernel.Gen.facts, Cert.KernelIdeal.Gen.facts, Cert.ReferenceIdeal.Gen.facts, Cert.Pre_input_domain.Gen.facts,
    frame_k, frame_ki, frame_r, trivial, algebraic⟩

end Cert.Proof

end
